-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S5000x12544 : Shape := ⟨2, ![5000, 12544]⟩
abbrev S1024x12544 : Shape := ⟨2, ![1024, 12544]⟩
abbrev S1024 : Shape := ⟨1, ![1024]⟩
abbrev S1024x1024 : Shape := ⟨2, ![1024, 1024]⟩
abbrev S4x1024 : Shape := ⟨2, ![4, 1024]⟩
abbrev S4 : Shape := ⟨1, ![4]⟩
abbrev S12x1024 : Shape := ⟨2, ![12, 1024]⟩
abbrev S12 : Shape := ⟨1, ![12]⟩
abbrev S_ : Shape := ⟨0, ![]⟩

class Facts : Prop where
  bcast_S_S5000x12544 : S_.BroadcastsInDim S5000x12544 (![] : Fin 0 → Fin S5000x12544.rank)
  reducesTo_S5000x12544_S_d0_1 : S5000x12544.ReducesTo [0, 1] S_
  h_S_ : 0 < S_.numel
  bcast_S_S1024x12544 : S_.BroadcastsInDim S1024x12544 (![] : Fin 0 → Fin S1024x12544.rank)
  reducesTo_S1024x12544_S_d0_1 : S1024x12544.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S4x1024 : S_.BroadcastsInDim S4x1024 (![] : Fin 0 → Fin S4x1024.rank)
  reducesTo_S4x1024_S_d0_1 : S4x1024.ReducesTo [0, 1] S_
  bcast_S_S4 : S_.BroadcastsInDim S4 (![] : Fin 0 → Fin S4.rank)
  reducesTo_S4_S_d0 : S4.ReducesTo [0] S_
  bcast_S_S12x1024 : S_.BroadcastsInDim S12x1024 (![] : Fin 0 → Fin S12x1024.rank)
  reducesTo_S12x1024_S_d0_1 : S12x1024.ReducesTo [0, 1] S_
  bcast_S_S12 : S_.BroadcastsInDim S12 (![] : Fin 0 → Fin S12.rank)
  reducesTo_S12_S_d0 : S12.ReducesTo [0] S_

variable [Facts]

def fn_part2 {F : FTy → Type} [FloatOps F] (main_arg7 : FVec F S12x1024 .f32) (main_arg8 : FVec F S12 .f32) (main_v33 : IVec S_ 1) : IVec S_ 1 :=
  let main_v34 : FVec F S12x1024 .f32 := Host.absf main_arg7
  let main_cst_12 : FVec F S_ .f32 := constant S_ .f32 0x7F800000#32
  let main_v35 : FVec F S12x1024 .f32 := broadcastInDim S12x1024 ![] bcast_S_S12x1024 main_cst_12
  let main_v36 : IVec S12x1024 1 := cmpf .olt main_v34 main_v35
  let main_c_13 : IVec S_ 1 := constantI S_ 1 1#1
  let main_v37 : IVec S_ 1 := (fun x v => Host.reduce IntOp.andi x v reducesTo_S12x1024_S_d0_1 h_S_) main_v36 main_c_13
  let main_v38 : IVec S_ 1 := andi main_v33 main_v37
  let main_v39 : FVec F S12 .f32 := Host.absf main_arg8
  let main_cst_14 : FVec F S_ .f32 := constant S_ .f32 0x7F800000#32
  let main_v40 : FVec F S12 .f32 := broadcastInDim S12 ![] bcast_S_S12 main_cst_14
  let main_v41 : IVec S12 1 := cmpf .olt main_v39 main_v40
  let main_c_15 : IVec S_ 1 := constantI S_ 1 1#1
  let main_v42 : IVec S_ 1 := (fun x v => Host.reduce IntOp.andi x v reducesTo_S12_S_d0 h_S_) main_v41 main_c_15
  let main_v43 : IVec S_ 1 := andi main_v38 main_v42
  main_v43

def fn_part1 {F : FTy → Type} [FloatOps F] (main_arg4 : FVec F S1024 .f32) (main_arg5 : FVec F S4x1024 .f32) (main_arg6 : FVec F S4 .f32) (main_arg7 : FVec F S12x1024 .f32) (main_arg8 : FVec F S12 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S4x1024 .f32 := Host.absf main_arg5
  let main_cst_8 : FVec F S_ .f32 := constant S_ .f32 0x7F800000#32
  let main_v25 : FVec F S4x1024 .f32 := broadcastInDim S4x1024 ![] bcast_S_S4x1024 main_cst_8
  let main_v26 : IVec S4x1024 1 := cmpf .olt main_v24 main_v25
  let main_c_9 : IVec S_ 1 := constantI S_ 1 1#1
  let main_v27 : IVec S_ 1 := (fun x v => Host.reduce IntOp.andi x v reducesTo_S4x1024_S_d0_1 h_S_) main_v26 main_c_9
  let main_v28 : IVec S_ 1 := andi main_v23 main_v27
  let main_v29 : FVec F S4 .f32 := Host.absf main_arg6
  let main_cst_10 : FVec F S_ .f32 := constant S_ .f32 0x7F800000#32
  let main_v30 : FVec F S4 .f32 := broadcastInDim S4 ![] bcast_S_S4 main_cst_10
  let main_v31 : IVec S4 1 := cmpf .olt main_v29 main_v30
  let main_c_11 : IVec S_ 1 := constantI S_ 1 1#1
  let main_v32 : IVec S_ 1 := (fun x v => Host.reduce IntOp.andi x v reducesTo_S4_S_d0 h_S_) main_v31 main_c_11
  let main_v33 : IVec S_ 1 := andi main_v28 main_v32
  fn_part2 (F := F) main_arg7 main_arg8 main_v33

def fn {F : FTy → Type} [FloatOps F] (main_arg0 : FVec F S5000x12544 .f32) (main_arg1 : FVec F S1024x12544 .f32) (main_arg2 : FVec F S1024 .f32) (main_arg3 : FVec F S1024x1024 .f32) (main_arg4 : FVec F S1024 .f32) (main_arg5 : FVec F S4x1024 .f32) (main_arg6 : FVec F S4 .f32) (main_arg7 : FVec F S12x1024 .f32) (main_arg8 : FVec F S12 .f32) : IVec S_ 1 :=
  let main_v0 : FVec F S5000x12544 .f32 := Host.absf main_arg0
  let main_cst : FVec F S_ .f32 := constant S_ .f32 0x7F800000#32
  let main_v1 : FVec F S5000x12544 .f32 := broadcastInDim S5000x12544 ![] bcast_S_S5000x12544 main_cst
  let main_v2 : IVec S5000x12544 1 := cmpf .olt main_v0 main_v1
  let main_c : IVec S_ 1 := constantI S_ 1 1#1
  let main_v3 : IVec S_ 1 := (fun x v => Host.reduce IntOp.andi x v reducesTo_S5000x12544_S_d0_1 h_S_) main_v2 main_c
  let main_v4 : FVec F S1024x12544 .f32 := Host.absf main_arg1
  let main_cst_0 : FVec F S_ .f32 := constant S_ .f32 0x7F800000#32
  let main_v5 : FVec F S1024x12544 .f32 := broadcastInDim S1024x12544 ![] bcast_S_S1024x12544 main_cst_0
  let main_v6 : IVec S1024x12544 1 := cmpf .olt main_v4 main_v5
  let main_c_1 : IVec S_ 1 := constantI S_ 1 1#1
  let main_v7 : IVec S_ 1 := (fun x v => Host.reduce IntOp.andi x v reducesTo_S1024x12544_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S5000x12544 : Shape := ⟨2, ![5000, 12544]⟩
abbrev S1024x12544 : Shape := ⟨2, ![1024, 12544]⟩
abbrev S1024 : Shape := ⟨1, ![1024]⟩
abbrev S1024x1024 : Shape := ⟨2, ![1024, 1024]⟩
abbrev S4x1024 : Shape := ⟨2, ![4, 1024]⟩
abbrev S4 : Shape := ⟨1, ![4]⟩
abbrev S12x1024 : Shape := ⟨2, ![12, 1024]⟩
abbrev S12 : Shape := ⟨1, ![12]⟩
abbrev S16x1024 : Shape := ⟨2, ![16, 1024]⟩
abbrev S1024x16 : Shape := ⟨2, ![1024, 16]⟩
abbrev S16 : Shape := ⟨1, ![16]⟩
abbrev S1x16 : Shape := ⟨2, ![1, 16]⟩
abbrev S1x1024 : Shape := ⟨2, ![1, 1024]⟩
abbrev S5000x4 : Shape := ⟨2, ![5000, 4]⟩
abbrev S5000x12 : Shape := ⟨2, ![5000, 12]⟩
abbrev S1680x1792 : Shape := ⟨2, ![1680, 1792]⟩
abbrev S1024x1792 : Shape := ⟨2, ![1024, 1792]⟩
abbrev S1680x4 : Shape := ⟨2, ![1680, 4]⟩
abbrev S1680x12 : Shape := ⟨2, ![1680, 12]⟩
abbrev S1680x1024 : Shape := ⟨2, ![1680, 1024]⟩
abbrev S560x1024 : Shape := ⟨2, ![560, 1024]⟩
abbrev S560x16 : Shape := ⟨2, ![560, 16]⟩
abbrev S560x4 : Shape := ⟨2, ![560, 4]⟩
abbrev S560x12 : Shape := ⟨2, ![560, 12]⟩

abbrev nBuf : Space → Nat
  | .hbm => 20
  | .vmem => 14
  | .smem => 0
  | _ => 0

abbrev bufTy : (tb : Table) → Fin (tcTables nBuf tb) → BufTy
  | .hbm, ⟨0, _⟩ => ⟨S5000x12544, .f32⟩
  | .hbm, ⟨1, _⟩ => ⟨S1024x12544, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S4x1024, .f32⟩
  | .hbm, ⟨6, _⟩ => ⟨S4, .f32⟩
  | .hbm, ⟨7, _⟩ => ⟨S12x1024, .f32⟩
  | .hbm, ⟨8, _⟩ => ⟨S12, .f32⟩
  | .hbm, ⟨9, _⟩ => ⟨S16x1024, .f32⟩
  | .hbm, ⟨10, _⟩ => ⟨S1024x16, .f32⟩
  | .hbm, ⟨11, _⟩ => ⟨S1024x16, .bf16⟩
  | .hbm, ⟨12, _⟩ => ⟨S16, .f32⟩
  | .hbm, ⟨13, _⟩ => ⟨S1x16, .f32⟩
  | .hbm, ⟨14, _⟩ => ⟨S1x1024, .f32⟩
  | .hbm, ⟨15, _⟩ => ⟨S1024x1024, .f32⟩
  | .hbm, ⟨16, _⟩ => ⟨S1024x1024, .bf16⟩
  | .hbm, ⟨17, _⟩ => ⟨S1x1024, .f32⟩
  | .hbm, ⟨18, _⟩ => ⟨S5000x4, .f32⟩
  | .hbm, ⟨19, _⟩ => ⟨S5000x12, .f32⟩
  | .local _ .vmem, ⟨0, _⟩ => ⟨S1680x1792, .f32⟩
  | .local _ .vmem, ⟨1, _⟩ => ⟨S1680x1792, .f32⟩
  | .local _ .vmem, ⟨2, _⟩ => ⟨S1024x1792, .f32⟩
  | .local _ .vmem, ⟨3, _⟩ => ⟨S1024x1792, .f32⟩
  | .local _ .vmem, ⟨4, _⟩ => ⟨S1x1024, .f32⟩
  | .local _ .vmem, ⟨5, _⟩ => ⟨S1024x1024, .bf16⟩
  | .local _ .vmem, ⟨6, _⟩ => ⟨S1x1024, .f32⟩
  | .local _ .vmem, ⟨7, _⟩ => ⟨S1024x16, .bf16⟩
  | .local _ .vmem, ⟨8, _⟩ => ⟨S1x16, .f32⟩
  | .local _ .vmem, ⟨9, _⟩ => ⟨S1680x4, .f32⟩
  | .local _ .vmem, ⟨10, _⟩ => ⟨S1680x4, .f32⟩
  | .local _ .vmem, ⟨11, _⟩ => ⟨S1680x12, .f32⟩
  | .local _ .vmem, ⟨12, _⟩ => ⟨S1680x12, .f32⟩
  | .local _ .vmem, ⟨13, _⟩ => ⟨S1680x1024, .f32⟩
  | _, _ => ⟨S5000x12544, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![3, 7], ![false, false]⟩

def k0_cond3 (i : grid0.Coords) : BitVec 1 :=
  let arg1 : BitVec 32 := BitVec.ofNat 32 (i 1).val
  let c6_i32 : BitVec 32 := 6#32
  let v9 : BitVec 1 := Scalar.cmpi .eq arg1 c6_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1680x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1792 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x16 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1680x4 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1680x12 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  concatenates_S4x1024_S12x1024_S16x1024_d0 : Shape.Concatenates [S4x1024, S12x1024] S16x1024 0
  transposes_S16x1024_S1024x16_1_0 : S16x1024.Transposes [1, 0] S1024x16
  bitsLt_bf16_f32 : FTy.bits .bf16 < FTy.bits .f32
  concatenates_S4_S12_S16_d0 : Shape.Concatenates [S4, S12] S16 0
  shapeCasts_S16_S1x16 : S16.ShapeCasts S1x16
  shapeCasts_S1024_S1x1024 : S1024.ShapeCasts S1x1024
  transposes_S1024x1024_S1024x1024_1_0 : S1024x1024.Transposes [1, 0] S1024x1024
  inb_S1680x1792_S1680x1792_0_0 : ∀ a, (![0, 0] : Fin 2 → Nat) a + S1680x1792.size a ≤ S1680x1792.size a
  h_S1680x1792 : 0 < S1680x1792.numel
  inb_S1024x1792_S1024x1792_0_0 : ∀ a, (![0, 0] : Fin 2 → Nat) a + S1024x1792.size a ≤ S1024x1792.size a
  h_S1024x1792 : 0 < S1024x1792.numel
  inb_S1680x1024_S1680x1024_0_0 : ∀ a, (![0, 0] : Fin 2 → Nat) a + S1680x1024.size a ≤ S1680x1024.size a
  h_S1680x1024 : 0 < S1680x1024.numel
  shapeCasts_S1680x1024_S1680x1024 : S1680x1024.ShapeCasts S1680x1024
  inb_S1680x1024_S560x1024_0_0 : ∀ a, (![0, 0] : Fin 2 → Nat) a + S560x1024.size a ≤ S1680x1024.size a
  h_S560x1024 : 0 < S560x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S560x1024 : S1x1024.Broadcasts S560x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S560x16 : S1x16.Broadcasts S560x16
  slices_S560x16_o0_0_S560x4 : S560x16.Slices ![0, 0] S560x4
  inb_S1680x4_S560x4_0_0 : ∀ a, (![0, 0] : Fin 2 → Nat) a + S560x4.size a ≤ S1680x4.size a
  h_S560x4 : 0 < S560x4.numel
  slices_S560x16_o0_4_S560x12 : S560x16.Slices ![0, 4] S560x12
  inb_S1680x12_S560x12_0_0 : ∀ a, (![0, 0] : Fin 2 → Nat) a + S560x12.size a ≤ S1680x12.size a
  h_S560x12 : 0 < S560x12.numel
  inb_S1680x1024_S560x1024_560_0 : ∀ a, (![560, 0] : Fin 2 → Nat) a + S560x1024.size a ≤ S1680x1024.size a
  inb_S1680x4_S560x4_560_0 : ∀ a, (![560, 0] : Fin 2 → Nat) a + S560x4.size a ≤ S1680x4.size a
  inb_S1680x12_S560x12_560_0 : ∀ a, (![560, 0] : Fin 2 → Nat) a + S560x12.size a ≤ S1680x12.size a
  inb_S1680x1024_S560x1024_1120_0 : ∀ a, (![1120, 0] : Fin 2 → Nat) a + S560x1024.size a ≤ S1680x1024.size a
  inb_S1680x4_S560x4_1120_0 : ∀ a, (![1120, 0] : Fin 2 → Nat) a + S560x4.size a ≤ S1680x4.size a
  inb_S1680x12_S560x12_1120_0 : ∀ a, (![1120, 0] : Fin 2 → Nat) a + S560x12.size a ≤ S1680x12.size a
  dot_S1680x1792_S1024x1792_S1680x1024_1_1_0_0_n_n_wf : DotDims.WF S1680x1792 S1024x1792 S1680x1024 [1] [1] [0] [0] [] []
  dot_S560x1024_S1024x1024_S560x1024_1_0_0_1_n_n_wf : DotDims.WF S560x1024 S1024x1024 S560x1024 [1] [0] [0] [1] [] []
  dot_S560x1024_S1024x16_S560x16_1_0_0_1_n_n_wf : DotDims.WF S560x1024 S1024x16 S560x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1680x1792.size a < S5000x12544.size a
  hwx0_0 : ∀ i : grid0.Coords, EltTy.bits .f32 = 32 ∨ (Rect.unit (s := S5000x12544) (fun a => cc0_transform_0 i a * S1680x1792.size a) (fun a => (Pipeline.Clip.of (cc0_transform_0 i a) (S1680x1792.size a) (S5000x12544.size a)).extent (S1680x1792.size a)) fun a => Pipeline.Clip.inb (Pipeline.Clip.ok_of (hstart0_0 i a))).WholeWords (EltTy.packing .f32)
  hwxs0_0 : ∀ i : grid0.Coords, EltTy.bits .f32 = 32 ∨ (Rect.unit (s := S1680x1792) (fun _ => 0) (fun a => (Pipeline.Clip.of (cc0_transform_0 i a) (S1680x1792.size a) (S5000x12544.size a)).extent (S1680x1792.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1792.size a ≤ S1024x12544.size a
  hwx0_1 : ∀ i : grid0.Coords, EltTy.bits .f32 = 32 ∨ (Rect.block (s := S1024x12544) S1024x1792.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x16.size a ≤ S1024x16.size a
  hwx0_5 : ∀ i : grid0.Coords, EltTy.bits .bf16 = 32 ∨ (Rect.block (s := S1024x16) S1024x16.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x16.size a ≤ S1x16.size a
  hwx0_6 : ∀ i : grid0.Coords, EltTy.bits .f32 = 32 ∨ (Rect.block (s := S1x16) S1x16.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hstart0_7 : ∀ (i : grid0.Coords) a, cc0_transform_7 i a * S1680x4.size a < S5000x4.size a
  hwx0_7 : ∀ i : grid0.Coords, EltTy.bits .f32 = 32 ∨ (Rect.unit (s := S5000x4) (fun a => cc0_transform_7 i a * S1680x4.size a) (fun a => (Pipeline.Clip.of (cc0_transform_7 i a) (S1680x4.size a) (S5000x4.size a)).extent (S1680x4.size a)) fun a => Pipeline.Clip.inb (Pipeline.Clip.ok_of (hstart0_7 i a))).WholeWords (EltTy.packing .f32)
  hwxs0_7 : ∀ i : grid0.Coords, EltTy.bits .f32 = 32 ∨ (Rect.unit (s := S1680x4) (fun _ => 0) (fun a => (Pipeline.Clip.of (cc0_transform_7 i a) (S1680x4.size a) (S5000x4.size a)).extent (S1680x4.size a)) fun a => (Nat.zero_add _).trans_le (Pipeline.Clip.extent_le (Pipeline.Clip.ok_of (hstart0_7 i a)))).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hstart0_8 : ∀ (i : grid0.Coords) a, cc0_transform_8 i a * S1680x12.size a < S5000x12.size a
  hwx0_8 : ∀ i : grid0.Coords, EltTy.bits .f32 = 32 ∨ (Rect.unit (s := S5000x12) (fun a => cc0_transform_8 i a * S1680x12.size a) (fun a => (Pipeline.Clip.of (cc0_transform_8 i a) (S1680x12.size a) (S5000x12.size a)).extent (S1680x12.size a)) fun a => Pipeline.Clip.inb (Pipeline.Clip.ok_of (hstart0_8 i a))).WholeWords (EltTy.packing .f32)
  hwxs0_8 : ∀ i : grid0.Coords, EltTy.bits .f32 = 32 ∨ (Rect.unit (s := S1680x12) (fun _ => 0) (fun a => (Pipeline.Clip.of (cc0_transform_8 i a) (S1680x12.size a) (S5000x12.size a)).extent (S1680x12.size a)) fun a => (Nat.zero_add _).trans_le (Pipeline.Clip.extent_le (Pipeline.Clip.ok_of (hstart0_8 i a)))).WholeWords (EltTy.packing .f32)

variable [Facts₀]

def dot_S1680x1792_S1024x1792_S1680x1024_1_1_0_0_n_n : DotDims S1680x1792 S1024x1792 S1680x1024 where
  lhsContracting := [1]
  rhsContracting := [1]
  lhsNonContracting := [0]
  rhsNonContracting := [0]
  lhsBatch := []
  rhsBatch := []
  wf := dot_S1680x1792_S1024x1792_S1680x1024_1_1_0_0_n_n_wf
def dot_S560x1024_S1024x1024_S560x1024_1_0_0_1_n_n : DotDims S560x1024 S1024x1024 S560x1024 where
  lhsContracting := [1]
  rhsContracting := [0]
  lhsNonContracting := [0]
  rhsNonContracting := [1]
  lhsBatch := []
  rhsBatch := []
  wf := dot_S560x1024_S1024x1024_S560x1024_1_0_0_1_n_n_wf
def dot_S560x1024_S1024x16_S560x16_1_0_0_1_n_n : DotDims S560x1024 S1024x16 S560x16 where
  lhsContracting := [1]
  rhsContracting := [0]
  lhsNonContracting := [0]
  rhsNonContracting := [1]
  lhsBatch := []
  rhsBatch := []
  wf := dot_S560x1024_S1024x16_S560x16_1_0_0_1_n_n_wf

abbrev win0_0 : Pipeline.Window sig grid0 :=
  Pipeline.Window.ofSpecClip (Memref.whole main_arg0) S1680x1792.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg1) S1024x1792.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpecClip (Memref.whole main_v9_0) S1680x4.size cc0_transform_7 reads0_7 true false 2 stage0_7 sem0_7
    hrank0 hreads0_7 hstart0_7 nbuf0_7 (Memref.isWhole_whole _) hwx0_7 hwxs0_7 hstage0_7

abbrev win0_8 : Pipeline.Window sig grid0 :=
  Pipeline.Window.ofSpecClip (Memref.whole main_v9_1) S1680x12.size cc0_transform_8 reads0_8 true false 2 stage0_8 sem0_8
    hrank0 hreads0_8 hstart0_8 nbuf0_8 (Memref.isWhole_whole _) hwx0_8 hwxs0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun i => !(k0_cond3 i == 1#1) | 8 => fun i => !(k0_cond3 i == 1#1) | ⟨_ + 9, h⟩ => absurd h (Nat.not_lt.2 (Nat.le_add_left _ _))

class Facts : Prop extends Facts₀ where

variable [Facts]
-- ==== ReferenceIdeal.lean ====
abbrev S5000x12544 : Shape := ⟨2, ![5000, 12544]⟩
abbrev S1024x12544 : Shape := ⟨2, ![1024, 12544]⟩
abbrev S1024 : Shape := ⟨1, ![1024]⟩
abbrev S1024x1024 : Shape := ⟨2, ![1024, 1024]⟩
abbrev S4x1024 : Shape := ⟨2, ![4, 1024]⟩
abbrev S4 : Shape := ⟨1, ![4]⟩
abbrev S12x1024 : Shape := ⟨2, ![12, 1024]⟩
abbrev S12 : Shape := ⟨1, ![12]⟩
abbrev S12544x1024 : Shape := ⟨2, ![12544, 1024]⟩
abbrev S5000x1024 : Shape := ⟨2, ![5000, 1024]⟩
abbrev S1x1024 : Shape := ⟨2, ![1, 1024]⟩
abbrev S_ : Shape := ⟨0, ![]⟩
abbrev S1024x4 : Shape := ⟨2, ![1024, 4]⟩
abbrev S5000x4 : Shape := ⟨2, ![5000, 4]⟩
abbrev S1x4 : Shape := ⟨2, ![1, 4]⟩
abbrev S1024x12 : Shape := ⟨2, ![1024, 12]⟩
abbrev S5000x12 : Shape := ⟨2, ![5000, 12]⟩
abbrev S1x12 : Shape := ⟨2, ![1, 12]⟩

abbrev nBuf : Space → Nat
  | .hbm => 35
  | .vmem => 0
  | .smem => 0
  | _ => 0

abbrev bufTy : (tb : Table) → Fin (tcTables nBuf tb) → BufTy
  | .hbm, ⟨0, _⟩ => ⟨S5000x12544, .f32⟩
  | .hbm, ⟨1, _⟩ => ⟨S1024x12544, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S4x1024, .f32⟩
  | .hbm, ⟨6, _⟩ => ⟨S4, .f32⟩
  | .hbm, ⟨7, _⟩ => ⟨S12x1024, .f32⟩
  | .hbm, ⟨8, _⟩ => ⟨S12, .f32⟩
  | .hbm, ⟨9, _⟩ => ⟨S12544x1024, .f32⟩
  | .hbm, ⟨10, _⟩ => ⟨S5000x1024, .f32⟩
  | .hbm, ⟨11, _⟩ => ⟨S1x1024, .f32⟩
  | .hbm, ⟨12, _⟩ => ⟨S5000x1024, .f32⟩
  | .hbm, ⟨13, _⟩ => ⟨S5000x1024, .f32⟩
  | .hbm, ⟨14, _⟩ => ⟨S_, .f32⟩
  | .hbm, ⟨15, _⟩ => ⟨S5000x1024, .f32⟩
  | .hbm, ⟨16, _⟩ => ⟨S5000x1024, .f32⟩
  | .hbm, ⟨17, _⟩ => ⟨S1024x1024, .f32⟩
  | .hbm, ⟨18, _⟩ => ⟨S5000x1024, .f32⟩
  | .hbm, ⟨19, _⟩ => ⟨S1x1024, .f32⟩
  | .hbm, ⟨20, _⟩ => ⟨S5000x1024, .f32⟩
  | .hbm, ⟨21, _⟩ => ⟨S5000x1024, .f32⟩
  | .hbm, ⟨22, _⟩ => ⟨S_, .f32⟩
  | .hbm, ⟨23, _⟩ => ⟨S5000x1024, .f32⟩
  | .hbm, ⟨24, _⟩ => ⟨S5000x1024, .f32⟩
  | .hbm, ⟨25, _⟩ => ⟨S1024x4, .f32⟩
  | .hbm, ⟨26, _⟩ => ⟨S5000x4, .f32⟩
  | .hbm, ⟨27, _⟩ => ⟨S1x4, .f32⟩
  | .hbm, ⟨28, _⟩ => ⟨S5000x4, .f32⟩
  | .hbm, ⟨29, _⟩ => ⟨S5000x4, .f32⟩
  | .hbm, ⟨30, _⟩ => ⟨S1024x12, .f32⟩
  | .hbm, ⟨31, _⟩ => ⟨S5000x12, .f32⟩
  | .hbm, ⟨32, _⟩ => ⟨S1x12, .f32⟩
  | .hbm, ⟨33, _⟩ => ⟨S5000x12, .f32⟩
  | .hbm, ⟨34, _⟩ => ⟨S5000x12, .f32⟩
  | _, _ => ⟨S5000x12544, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]

class Facts₀ : Prop where
  transposes_S1024x12544_S12544x1024_1_0 : S1024x12544.Transposes [1, 0] S12544x1024
  bcast_S1024_S1x1024_1 : S1024.BroadcastsInDim S1x1024 (![1] : Fin 1 → Fin S1x1024.rank)
  bcast_S1x1024_S5000x1024_0_1 : S1x1024.BroadcastsInDim S5000x1024 (![0, 1] : Fin 2 → Fin S5000x1024.rank)
  bcast_S_S5000x1024 : S_.BroadcastsInDim S5000x1024 (![] : Fin 0 → Fin S5000x1024.rank)
  transposes_S1024x1024_S1024x1024_1_0 : S1024x1024.Transposes [1, 0] S1024x1024
  transposes_S4x1024_S1024x4_1_0 : S4x1024.Transposes [1, 0] S1024x4
  bcast_S4_S1x4_1 : S4.BroadcastsInDim S1x4 (![1] : Fin 1 → Fin S1x4.rank)
  bcast_S1x4_S5000x4_0_1 : S1x4.BroadcastsInDim S5000x4 (![0, 1] : Fin 2 → Fin S5000x4.rank)
  transposes_S12x1024_S1024x12_1_0 : S12x1024.Transposes [1, 0] S1024x12
  bcast_S12_S1x12_1 : S12.BroadcastsInDim S1x12 (![1] : Fin 1 → Fin S1x12.rank)
  bcast_S1x12_S5000x12_0_1 : S1x12.BroadcastsInDim S5000x12 (![0, 1] : Fin 2 → Fin S5000x12.rank)
  dot_S5000x12544_S12544x1024_S5000x1024_1_0_0_1_n_n_wf : DotDims.WF S5000x12544 S12544x1024 S5000x1024 [1] [0] [0] [1] [] []
  dot_S5000x1024_S1024x1024_S5000x1024_1_0_0_1_n_n_wf : DotDims.WF S5000x1024 S1024x1024 S5000x1024 [1] [0] [0] [1] [] []
  dot_S5000x1024_S1024x4_S5000x4_1_0_0_1_n_n_wf : DotDims.WF S5000x1024 S1024x4 S5000x4 [1] [0] [0] [1] [] []
  dot_S5000x1024_S1024x12_S5000x12_1_0_0_1_n_n_wf : DotDims.WF S5000x1024 S1024x12 S5000x12 [1] [0] [0] [1] [] []

variable [Facts₀]

def dot_S5000x12544_S12544x1024_S5000x1024_1_0_0_1_n_n : DotDims S5000x12544 S12544x1024 S5000x1024 where
  lhsContracting := [1]
  rhsContracting := [0]
  lhsNonContracting := [0]
  rhsNonContracting := [1]
  lhsBatch := []
  rhsBatch := []
  wf := dot_S5000x12544_S12544x1024_S5000x1024_1_0_0_1_n_n_wf
def dot_S5000x1024_S1024x1024_S5000x1024_1_0_0_1_n_n : DotDims S5000x1024 S1024x1024 S5000x1024 where
  lhsContracting := [1]
  rhsContracting := [0]
  lhsNonContracting := [0]
  rhsNonContracting := [1]
  lhsBatch := []
  rhsBatch := []
  wf := dot_S5000x1024_S1024x1024_S5000x1024_1_0_0_1_n_n_wf
def dot_S5000x1024_S1024x4_S5000x4_1_0_0_1_n_n : DotDims S5000x1024 S1024x4 S5000x4 where
  lhsContracting := [1]
  rhsContracting := [0]
  lhsNonContracting := [0]
  rhsNonContracting := [1]
  lhsBatch := []
  rhsBatch := []
  wf := dot_S5000x1024_S1024x4_S5000x4_1_0_0_1_n_n_wf
def dot_S5000x1024_S1024x12_S5000x12_1_0_0_1_n_n : DotDims S5000x1024 S1024x12 S5000x12 where
  lhsContracting := [1]
  rhsContracting := [0]
  lhsNonContracting := [0]
  rhsNonContracting := [1]
  lhsBatch := []
  rhsBatch := []
  wf := dot_S5000x1024_S1024x12_S5000x12_1_0_0_1_n_n_wf

class Facts : Prop extends Facts₀ where

variable [Facts]
-- ==== Proof.KRuns.lean ====
/-
  What the three cases of the body share. The grid is 3 row blocks by 7 feature blocks, point `t` at row block
  `t / 7` and feature block `t % 7`. The body always forms the product of the point's feature block of `x` with
  the matching block of `W1`; at feature block 0 it stores that product into the accumulator, at every later
  feature block it adds the product to the accumulator, and at feature block 6 it also applies the two hidden
  layers and the output map to the finished accumulator and stores the two results. So a point is in one of three
  cases — first (`t % 7 = 0`), middle (`0 < t % 7 < 6`), last (`t % 7 = 6`) — decided here over the grid, with
  where the two output windows are idle (everywhere but the last feature block) and when they are written back
  (exactly there).
-/
import proofs.«125935_g42133629174425_cont_8to1_b_514_18_alg».proof.Proof.Gen.Kernel.Frame
import proofs.«125935_g42133629174425_cont_8to1_b_514_18_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first branch: the feature block is the first one. -/
abbrev condFirst (i : grid0.Coords) : Prop :=
  (Scalar.cmpi .ne (Scalar.extui (Scalar.cmpi .eq (BitVec.ofNat 32 (i 1).val) 0#32)) 0#32) = 1#1
/-- The second: the feature block is a later one. -/
abbrev condLater (i : grid0.Coords) : Prop :=
  (Scalar.cmpi .ne (Scalar.extui (Scalar.cmpi .sgt (BitVec.ofNat 32 (i 1).val) 0#32)) 0#32) = 1#1
/-- The third: the feature block is the last one. -/
abbrev condLast (i : grid0.Coords) : Prop := k0_cond3 i = 1#1

theorem hFirst : ∀ t : Fin cfg0.N, condFirst (grid0.coords t) ↔ t.val % 7 = 0 :=
  (by decide +kernel : ∀ t : Fin grid0.N, condFirst (grid0.coords t) ↔ t.val % 7 = 0)
theorem hLater : ∀ t : Fin cfg0.N, condLater (grid0.coords t) ↔ ¬ t.val % 7 = 0 :=
  (by decide +kernel : ∀ t : Fin grid0.N, condLater (grid0.coords t) ↔ ¬ t.val % 7 = 0)
theorem hLast : ∀ t : Fin cfg0.N, condLast (grid0.coords t) ↔ t.val % 7 = 6 :=
  (by decide +kernel : ∀ t : Fin grid0.N, condLast (grid0.coords t) ↔ t.val % 7 = 6)

/-- The inputs are never idle. -/
theorem live_in : ∀ (w : Fin 9), w.val < 7 → ∀ t : Fin cfg0.N, cfg0.idle w (grid0.coords t) = false := by decide +kernel
/-- Away from the last feature block the two outputs are idle and not written back. -/
theorem idle7 : ∀ t : Fin cfg0.N, ¬ t.val % 7 = 6 → cfg0.idle 7 (grid0.coords t) = true := by decide +kernel
theorem idle8 : ∀ t : Fin cfg0.N, ¬ t.val % 7 = 6 → cfg0.idle 8 (grid0.coords t) = true := by decide +kernel
theorem noFlush7 : ∀ t : Fin cfg0.N, ¬ t.val % 7 = 6 → (cfg0.win 7).flush t = false := by decide +kernel
theorem noFlush8 : ∀ t : Fin cfg0.N, ¬ t.val % 7 = 6 → (cfg0.win 8).flush t = false := by decide +kernel
/-- At the last feature block they are live. -/
theorem live7 : ∀ t : Fin cfg0.N, t.val % 7 = 6 → cfg0.idle 7 (grid0.coords t) = false := by decide +kernel
theorem live8 : ∀ t : Fin cfg0.N, t.val % 7 = 6 → cfg0.idle 8 (grid0.coords t) = false := by decide +kernel

/-- The accumulator: the kernel's one scratch buffer, whole. -/
abbrev accM : Memref sig .tc .vmem S1680x1024 .f32 := Memref.whole cc0_scratch0

/-- What the region lends the body beside the windows: the accumulator at some contents and the generator
    register at some state. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.Kernel.Body

end
-- ==== Proof.KRunFirst.lean ====
/-
  The body at a point of the FIRST feature block, on any whole staging buffers: it loads the two blocks, stores
  their product over the whole accumulator, and touches neither output buffer. The pieces the accumulator ends
  with are found by running the body.
-/
import proofs.«125935_g42133629174425_cont_8to1_b_514_18_alg».proof.Proof.KRuns

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the accumulator ends with at a first-block point, with the proof that from the input buffers at
    `x0 … x6`, the two output buffers at any contents `xi7`, `xi8` and the accumulator at anything, the body
    runs to the inputs and outputs unchanged and the accumulator with those pieces written. -/
noncomputable def runFirst (c : Dev nD) (i : grid0.Coords) (arg2 : Memref sig .tc .vmem S1680x1792 .f32) (harg2 : arg2.IsWhole) (arg3 : Memref sig .tc .vmem S1024x1792 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x16 .bf16) (harg7 : arg7.IsWhole) (arg8 : Memref sig .tc .vmem S1x16 .f32) (harg8 : arg8.IsWhole) (arg9 : Memref sig .tc .vmem S1680x4 .f32) (harg9 : arg9.IsWhole) (arg10 : Memref sig .tc .vmem S1680x12 .f32) (harg10 : arg10.IsWhole) (arg11 : Memref sig .tc .vmem S1680x1024 .f32) (harg11 : arg11.IsWhole)
    (hc0 : condFirst i) (hc1 : ¬condLater i) (hc2 : ¬condLast i) (x0 : Vec F S1680x1792 .f32) (x1 : Vec F S1024x1792 .f32) (x2 : Vec F S1x1024 .f32) (x3 : Vec F S1024x1024 .bf16) (x4 : Vec F S1x1024 .f32) (x5 : Vec F S1024x16 .bf16) (x6 : Vec F S1x16 .f32) :
    { LS : List (View.Piece (Elt F) S1680x1024 .f32) //
      ∀ (xi7 : Vec F S1680x4 .f32) (xi8 : Vec F S1680x12 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare xi7 ∗ owns (c : Thread nD τ) arg10 fullShare xi8 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
                ∗ owns (c : Thread nD τ) arg9 fullShare xi7 ∗ owns (c : Thread nD τ) arg10 fullShare xi8
                ∗ (∃ f, arg11.view.loc (c : Thread nD τ) ↦[arg11.view.set]{fullShare} arg11.view.writes (Elt F) f LS)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11) K } := by
  refine ⟨?_, fun xi7 xi8 E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds, %fs, -, HS⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6
    obtain rfl := harg9.eq_unread hf7; obtain rfl := harg10.eq_unread hf8
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact HS

end Cert.Kernel.Body

end
-- ==== Proof.KRunMid.lean ====
/-
  The body at a point of a MIDDLE feature block, on any whole staging buffers: it loads the two blocks and the
  accumulator, and stores the accumulator plus the blocks' product back over the whole accumulator; it touches
  neither output buffer. The pieces the accumulator ends with are found by running the body.
-/
import proofs.«125935_g42133629174425_cont_8to1_b_514_18_alg».proof.Proof.KRuns

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the accumulator ends with at a middle-block point, with the proof that from the input buffers at
    `x0 … x6`, the two output buffers at any contents `xi7`, `xi8` and the accumulator at `xs`, the body runs to
    the inputs and outputs unchanged and the accumulator with those pieces written. -/
noncomputable def runMid (c : Dev nD) (i : grid0.Coords) (arg2 : Memref sig .tc .vmem S1680x1792 .f32) (harg2 : arg2.IsWhole) (arg3 : Memref sig .tc .vmem S1024x1792 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x16 .bf16) (harg7 : arg7.IsWhole) (arg8 : Memref sig .tc .vmem S1x16 .f32) (harg8 : arg8.IsWhole) (arg9 : Memref sig .tc .vmem S1680x4 .f32) (harg9 : arg9.IsWhole) (arg10 : Memref sig .tc .vmem S1680x12 .f32) (harg10 : arg10.IsWhole) (arg11 : Memref sig .tc .vmem S1680x1024 .f32) (harg11 : arg11.IsWhole)
    (hc0 : ¬condFirst i) (hc1 : condLater i) (hc2 : ¬condLast i) (x0 : Vec F S1680x1792 .f32) (x1 : Vec F S1024x1792 .f32) (x2 : Vec F S1x1024 .f32) (x3 : Vec F S1024x1024 .bf16) (x4 : Vec F S1x1024 .f32) (x5 : Vec F S1024x16 .bf16) (x6 : Vec F S1x16 .f32) (xs : Vec F S1680x1024 .f32) :
    { LS : List (View.Piece (Elt F) S1680x1024 .f32) //
      ∀ (xi7 : Vec F S1680x4 .f32) (xi8 : Vec F S1680x12 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare xi7 ∗ owns (c : Thread nD τ) arg10 fullShare xi8 ∗ owns (c : Thread nD τ) arg11 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
                ∗ owns (c : Thread nD τ) arg9 fullShare xi7 ∗ owns (c : Thread nD τ) arg10 fullShare xi8
                ∗ (∃ f, arg11.view.loc (c : Thread nD τ) ↦[arg11.view.set]{fullShare} arg11.view.writes (Elt F) f LS)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11) K } := by
  refine ⟨?_, fun xi7 xi8 E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs, %hfs, HS⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6
    obtain rfl := harg9.eq_unread hf7; obtain rfl := harg10.eq_unread hf8; obtain rfl := harg11.eq_unread hfs
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact HS

end Cert.Kernel.Body

end
-- ==== Proof.KRunLast.lean ====
/-
  The body at a point of the LAST feature block, on any whole staging buffers: it adds the blocks' product to the
  accumulator as at a middle block, and then, for each third of the accumulator's rows, applies the two hidden
  layers and the output map and stores the first four columns into the same rows of the first output buffer and the
  other twelve into the same rows of the second. The pieces the three buffers end with are found by running the body.
-/
import proofs.«125935_g42133629174425_cont_8to1_b_514_18_alg».proof.Proof.KRuns

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the two output buffers and the accumulator end with at a last-block point, with the proof that from
    the input buffers at `x0 … x6`, the output buffers at anything and the accumulator at `xs`, the body runs to
    the inputs unchanged and the three buffers with those pieces written. -/
noncomputable def runLast (c : Dev nD) (i : grid0.Coords) (arg2 : Memref sig .tc .vmem S1680x1792 .f32) (harg2 : arg2.IsWhole) (arg3 : Memref sig .tc .vmem S1024x1792 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x16 .bf16) (harg7 : arg7.IsWhole) (arg8 : Memref sig .tc .vmem S1x16 .f32) (harg8 : arg8.IsWhole) (arg9 : Memref sig .tc .vmem S1680x4 .f32) (harg9 : arg9.IsWhole) (arg10 : Memref sig .tc .vmem S1680x12 .f32) (harg10 : arg10.IsWhole) (arg11 : Memref sig .tc .vmem S1680x1024 .f32) (harg11 : arg11.IsWhole)
    (hc0 : ¬condFirst i) (hc1 : condLater i) (hc2 : condLast i) (x0 : Vec F S1680x1792 .f32) (x1 : Vec F S1024x1792 .f32) (x2 : Vec F S1x1024 .f32) (x3 : Vec F S1024x1024 .bf16) (x4 : Vec F S1x1024 .f32) (x5 : Vec F S1024x16 .bf16) (x6 : Vec F S1x16 .f32) (xs : Vec F S1680x1024 .f32) :
    Σ' (L7 : List (View.Piece (Elt F) S1680x4 .f32)) (L8 : List (View.Piece (Elt F) S1680x12 .f32)),
    { LS : List (View.Piece (Elt F) S1680x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ (∃ d, owns (c : Thread nD τ) arg9 fullShare d) ∗ (∃ d, owns (c : Thread nD τ) arg10 fullShare d) ∗ owns (c : Thread nD τ) arg11 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
                ∗ (∃ f, arg9.view.loc (c : Thread nD τ) ↦[arg9.view.set]{fullShare} arg9.view.writes (Elt F) f L7)
                ∗ (∃ f, arg10.view.loc (c : Thread nD τ) ↦[arg10.view.set]{fullShare} arg10.view.writes (Elt F) f L8)
                ∗ (∃ f, arg11.view.loc (c : Thread nD τ) ↦[arg11.view.set]{fullShare} arg11.view.writes (Elt F) f LS)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0__body_eq_skeleton]; unfold cc0__body_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs, %hfs, HS⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6
    obtain rfl := harg11.eq_unread hfs
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    iexists _; iexact HS

end Cert.Kernel.Body

end
-- ==== Proof.KFrame.lean ====
/-
  The frame of the program at any float values: it runs to the end, faults nowhere, and leaves its nine argument
  arrays as they were. Nothing is said of what it computes: the two result windows are handed to the body at any
  contents and taken back at any contents. The proof data names, after the body at each point, each input window's
  staging buffer at its block of its array — the feature rows' last row block overhangs the array, so its buffer is
  stated on the rows inside the array only —; the accumulator and the generator register pass from point to point
  at some contents. The body's triple is one of three by the point's feature block: first, middle, last.
-/
import proofs.«125935_g42133629174425_cont_8to1_b_514_18_alg».proof.Proof.KRunFirst
import proofs.«125935_g42133629174425_cont_8to1_b_514_18_alg».proof.Proof.KRunMid
import proofs.«125935_g42133629174425_cont_8to1_b_514_18_alg».proof.Proof.KRunLast

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The two result windows: nothing of what the body leaves in them is named. -/
def forgets : Fin 9 → Bool := fun w => w.val == 7 || w.val == 8

/-- The proof data on core `c`: the arrays as the region finds them; after the body at point `t` the feature rows'
    buffer at its block filled out, past the array's end, with the zero word (nothing reads it), each other input's
    buffer at its block, the two results unnamed; the invariant the accumulator and the generator register at some
    contents; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => Scalar.ofBits .f32 0#32) (iblk m c 0 t)
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q _ := fullShare
  owed _ := 0

/-- The proof data's arrays are the contents the region finds. -/
theorem A_eq (c : Dev nD) (w : Fin cfg0.W) : (dats m 0 c).A w = V m c (Pipeline.arrRef spec0 w) := by
  dsimp only [dats]

/-- What the body leaves, window by window. -/
theorem after_0 (c : Dev nD) (t : Fin cfg0.N) : (dats m 0 c).after 0 t
    = win0_0.fill (grid0.coords t) (fun _ => Scalar.ofBits .f32 0#32) (iblk m c 0 t) := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]

/-- The feature rows' buffer, fetched at every point, arrives holding its block on the rows inside the array and
    anything past them. -/
theorem before_0 (c : Dev nD) (t : Fin cfg0.N) (d) :
    (dats m 0 c).before 0 t d = win0_0.fill (grid0.coords t) d (iblk m c 0 t) := by
  unfold Dat.before; rw [if_pos (fetch0_0 t)]; rfl

/-- Each other input's buffer holds its block at every point, fetched there or not. -/
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-- An input is live at every point: the feature rows' buffer is handed back stated on the rows inside the array, -/
theorem leaves_0 (c : Dev nD) (t : Fin cfg0.N) : ((dats m 0 c).leaves 0 t : sProp 𝕄)
    = iprop(∃ d, owns (c : Thread nD τ) (st0_0 t) fullShare
        (win0_0.fill (grid0.coords t) d (win0_0.cut (grid0.coords t) ((dats m 0 c).after 0 t)))) := by
  unfold Dat.leaves; rw [live_in 0 (by decide) t]
/-- each other input's at what the body leaves. -/
theorem leaves_1 (c : Dev nD) (t : Fin cfg0.N) : ((dats m 0 c).leaves 1 t : sProp 𝕄)
    = owns (c : Thread nD τ) (st0_1 t) fullShare ((dats m 0 c).after 1 t) := by
  unfold Dat.leaves; rw [live_in 1 (by decide) t]
theorem leaves_2 (c : Dev nD) (t : Fin cfg0.N) : ((dats m 0 c).leaves 2 t : sProp 𝕄)
    = owns (c : Thread nD τ) (st0_2 t) fullShare ((dats m 0 c).after 2 t) := by
  unfold Dat.leaves; rw [live_in 2 (by decide) t]
theorem leaves_3 (c : Dev nD) (t : Fin cfg0.N) : ((dats m 0 c).leaves 3 t : sProp 𝕄)
    = owns (c : Thread nD τ) (st0_3 t) fullShare ((dats m 0 c).after 3 t) := by
  unfold Dat.leaves; rw [live_in 3 (by decide) t]
theorem leaves_4 (c : Dev nD) (t : Fin cfg0.N) : ((dats m 0 c).leaves 4 t : sProp 𝕄)
    = owns (c : Thread nD τ) (st0_4 t) fullShare ((dats m 0 c).after 4 t) := by
  unfold Dat.leaves; rw [live_in 4 (by decide) t]
theorem leaves_5 (c : Dev nD) (t : Fin cfg0.N) : ((dats m 0 c).leaves 5 t : sProp 𝕄)
    = owns (c : Thread nD τ) (st0_5 t) fullShare ((dats m 0 c).after 5 t) := by
  unfold Dat.leaves; rw [live_in 5 (by decide) t]
theorem leaves_6 (c : Dev nD) (t : Fin cfg0.N) : ((dats m 0 c).leaves 6 t : sProp 𝕄)
    = owns (c : Thread nD τ) (st0_6 t) fullShare ((dats m 0 c).after 6 t) := by
  unfold Dat.leaves; rw [live_in 6 (by decide) t]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare d)
    ∗ (∃ d, owns (c : Thread nD τ) (st0_8 t) fullShare d))

/-- and what it returns. -/
def bodyPost (c : Dev nD) (t : Fin cfg0.N) : sProp 𝕄 :=
  iprop((dats m 0 c).Φ t.succ ∗ (dats m 0 c).owesAt () t.succ
    ∗ (dats m 0 c).leaves 0 t
    ∗ (dats m 0 c).leaves 1 t
    ∗ (dats m 0 c).leaves 2 t
    ∗ (dats m 0 c).leaves 3 t
    ∗ (dats m 0 c).leaves 4 t
    ∗ (dats m 0 c).leaves 5 t
    ∗ (dats m 0 c).leaves 6 t
    ∗ (∃ d, owns (c : Thread nD τ) (st0_7 t) fullShare d)
    ∗ (∃ d, owns (c : Thread nD τ) (st0_8 t) fullShare d))

set_option maxHeartbeats 2000000 in
/-- The body at any point: the inputs' buffers hold their blocks; the point's feature block says which of the three
    triples applies; the inputs come back as they were, the accumulator and the results at some contents; the
    generator register passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq,
    leaves_0, leaves_1, leaves_2, leaves_3, leaves_4, leaves_5, leaves_6]
  have hN : t.val < 21 := lt_of_lt_of_eq t.isLt (show cfg0.N = 21 from N_0)
  by_cases h0 : t.val % 7 = 0
  · iintro ⟨⟨HA, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runFirst c (grid0.coords t) _ _ _ _ _ _ _ _ _ _ _ _ _ _ _ _ _ _ _ _
      ((hFirst t).mpr h0) (fun h => (hLater t).mp h h0) (fun h => by have := (hLast t).mp h; omega)
      (win0_0.fill (grid0.coords t) d0 (iblk m c 0 t)) (iblk m c 1 t) (iblk m c 2 t) (iblk m c 3 t) (iblk m c 4 t)
      (iblk m c 5 t) (iblk m c 6 t)).2 d7 d8 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HA]; · iexact HA
    iintro ⟨H0, H1, H2, H3, H4, H5, H6, H7, H8, ⟨%f, HS⟩⟩
    isplitl [HS HP]
    · isplitl [HS]
      · iexists _; iapply (owns_intro (c : Thread nD τ) accM fullShare _); iexact HS
      · iexact HP
    isplitl [Ho]; · iexact Ho
    isplitl [H0]
    · iexists d0; rw [after_0, Window.cut_fill]; iexact H0
    isplitl [H1]; · rw [after_1]; iexact H1
    isplitl [H2]; · rw [after_2]; iexact H2
    isplitl [H3]; · rw [after_3]; iexact H3
    isplitl [H4]; · rw [after_4]; iexact H4
    isplitl [H5]; · rw [after_5]; iexact H5
    isplitl [H6]; · rw [after_6]; iexact H6
    isplitl [H7]; · iexists _; iexact H7
    iexists _; iexact H8
  · by_cases h6 : t.val % 7 = 6
    · iintro ⟨⟨⟨%xs, HA⟩, HP⟩, Ho, ⟨%d0, H0⟩, ⟨%d1, H1⟩, ⟨%d2, H2⟩, ⟨%d3, H3⟩, ⟨%d4, H4⟩, ⟨%d5, H5⟩, ⟨%d6, H6⟩, H7, H8⟩
      iapply ((runLast c (grid0.coords t) _ _ _ _ _ _ _ _ _ _ _ _ _ _ _ _ _ _ _ _
        (fun h => h0 ((hFirst t).mp h)) ((hLater t).mpr h0) ((hLast t).mpr h6)
        (win0_0.fill (grid0.coords t) d0 (iblk m c 0 t)) (iblk m c 1 t) (iblk m c 2 t) (iblk m c 3 t) (iblk m c 4 t)
        (iblk m c 5 t) (iblk m c 6 t) xs).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HA]; · iexact HA
      iintro ⟨H0, H1, H2, H3, H4, H5, H6, ⟨%f7, H7⟩, ⟨%f8, H8⟩, ⟨%f, HS⟩⟩
      isplitl [HS HP]
      · isplitl [HS]
        · iexists _; iapply (owns_intro (c : Thread nD τ) accM fullShare _); iexact HS
        · iexact HP
      isplitl [Ho]; · iexact Ho
      isplitl [H0]
      · iexists d0; rw [after_0, Window.cut_fill]; iexact H0
      isplitl [H1]; · rw [after_1]; iexact H1
      isplitl [H2]; · rw [after_2]; iexact H2
      isplitl [H3]; · rw [after_3]; iexact H3
      isplitl [H4]; · rw [after_4]; iexact H4
      isplitl [H5]; · rw [after_5]; iexact H5
      isplitl [H6]; · rw [after_6]; iexact H6
      isplitl [H7]
      · iexists _; iapply (owns_intro (c : Thread nD τ) (st0_7 t) fullShare _); iexact H7
      iexists _; iapply (owns_intro (c : Thread nD τ) (st0_8 t) fullShare _); iexact H8
    · iintro ⟨⟨⟨%xs, HA⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runMid c (grid0.coords t) _ _ _ _ _ _ _ _ _ _ _ _ _ _ _ _ _ _ _ _
        (fun h => h0 ((hFirst t).mp h)) ((hLater t).mpr h0) (fun h => h6 ((hLast t).mp h))
        (win0_0.fill (grid0.coords t) d0 (iblk m c 0 t)) (iblk m c 1 t) (iblk m c 2 t) (iblk m c 3 t) (iblk m c 4 t)
        (iblk m c 5 t) (iblk m c 6 t) xs).2 d7 d8 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HA]; · iexact HA
      iintro ⟨H0, H1, H2, H3, H4, H5, H6, H7, H8, ⟨%f, HS⟩⟩
      isplitl [HS HP]
      · isplitl [HS]
        · iexists _; iapply (owns_intro (c : Thread nD τ) accM fullShare _); iexact HS
        · iexact HP
      isplitl [Ho]; · iexact Ho
      isplitl [H0]
      · iexists d0; rw [after_0, Window.cut_fill]; iexact H0
      isplitl [H1]; · rw [after_1]; iexact H1
      isplitl [H2]; · rw [after_2]; iexact H2
      isplitl [H3]; · rw [after_3]; iexact H3
      isplitl [H4]; · rw [after_4]; iexact H4
      isplitl [H5]; · rw [after_5]; iexact H5
      isplitl [H6]; · rw [after_6]; iexact H6
      isplitl [H7]; · iexists _; iexact H7
      iexists _; iexact H8

/-- The library's body obligation, at every point, with the two result windows forgotten. -/
theorem body_obligation (c : Dev nD) :
    BodyObligationLoose (dats (F := F) m 0 c) (defs₀ (F := F)) Variants.none () Set.univ forgets := fun t => by
  rw [bigSep_W0, bigSep_W0]
  exact sound_body m c t

/-! ## The run and the frame -/

set_option backward.isDefEq.respectTransparency.types false in
/-- At the compiled mesh, for any values, from any memory with zero counters: every weakly fair execution of the
    program on the TensorCores terminates, and every final state has every input array of the pipeline unchanged,
    nothing stated of the two results, and every other unscoped buffer at the contents the region found. -/
theorem run_main : θ_run defs (onTc (τ := τ) (main (F := F))) (s₀ m ρ)
    (Pipeline.RDat.FramePost (cfgs 0) (fun c => (dats m 0 c).toRForget forgets) (V m)) :=
  Pipeline.RDat.θ_run_frame cfgs (0 : Fin 1) launch0 defs₀ Variants.none (fun c => (dats m 0 c).toRForget forgets) m ρ main
    (hbody := fun c => (body_obligation m c).toRForget)
    (hshare := fun c => ((dats m 0 c).toRForget forgets).share_full fun _ => rfl)
    (howed := fun _ _ => rfl) (V := V m) (hmain := hmain m Variants.none) (hA := A_eq m) (hΦ := fun _ _ => rfl)

/-- The frame claim's post from such a run: the two staged argument arrays are inputs, never written back; the
    other seven arguments bypass the region; each is then what the program was launched with, no operation before
    the region writing it. -/
theorem frame_ofR (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨
      (Eq.mp (congrFun ((rdat c).ArrAt_in 0 rfl _) _) ((h c).1 0)).trans ((hA c 0).trans (V_main_arg0 m c)),
      (Eq.mp (congrFun ((rdat c).ArrAt_in 1 rfl _) _) ((h c).1 1)).trans ((hA c 1).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩) h

/-- THE FRAME, at any float values. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_ofR m ρ (fun c => (dats m 0 c).toRForget forgets) (A_eq m) (run_main m ρ)

end Cert.Kernel.Body

end
-- ==== Proof.KIRuns.lean ====
/-
  What the three cases of the body share. The grid is 3 row blocks by 7 feature blocks, point `t` at row block
  `t / 7` and feature block `t % 7`. The body always forms the product of the point's feature block of `x` with
  the matching block of `W1`; at feature block 0 it stores that product into the accumulator, at every later
  feature block it adds the product to the accumulator, and at feature block 6 it also applies the two hidden
  layers and the output map to the finished accumulator and stores the two results. So a point is in one of three
  cases — first (`t % 7 = 0`), middle (`0 < t % 7 < 6`), last (`t % 7 = 6`) — decided here over the grid, with
  where the two output windows are idle (everywhere but the last feature block) and when they are written back
  (exactly there).
-/
import proofs.«125935_g42133629174425_cont_8to1_b_514_18_alg».proof.Proof.Gen.KernelIdeal.Frame
import proofs.«125935_g42133629174425_cont_8to1_b_514_18_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first branch: the feature block is the first one. -/
abbrev condFirst (i : grid0.Coords) : Prop :=
  (Scalar.cmpi .ne (Scalar.extui (Scalar.cmpi .eq (BitVec.ofNat 32 (i 1).val) 0#32)) 0#32) = 1#1
/-- The second: the feature block is a later one. -/
abbrev condLater (i : grid0.Coords) : Prop :=
  (Scalar.cmpi .ne (Scalar.extui (Scalar.cmpi .sgt (BitVec.ofNat 32 (i 1).val) 0#32)) 0#32) = 1#1
/-- The third: the feature block is the last one. -/
abbrev condLast (i : grid0.Coords) : Prop := k0_cond3 i = 1#1

theorem hFirst : ∀ t : Fin cfg0.N, condFirst (grid0.coords t) ↔ t.val % 7 = 0 :=
  (by decide +kernel : ∀ t : Fin grid0.N, condFirst (grid0.coords t) ↔ t.val % 7 = 0)
theorem hLater : ∀ t : Fin cfg0.N, condLater (grid0.coords t) ↔ ¬ t.val % 7 = 0 :=
  (by decide +kernel : ∀ t : Fin grid0.N, condLater (grid0.coords t) ↔ ¬ t.val % 7 = 0)
theorem hLast : ∀ t : Fin cfg0.N, condLast (grid0.coords t) ↔ t.val % 7 = 6 :=
  (by decide +kernel : ∀ t : Fin grid0.N, condLast (grid0.coords t) ↔ t.val % 7 = 6)

/-- The inputs are never idle. -/
theorem live_in : ∀ (w : Fin 9), w.val < 7 → ∀ t : Fin cfg0.N, cfg0.idle w (grid0.coords t) = false := by decide +kernel
/-- Away from the last feature block the two outputs are idle and not written back. -/
theorem idle7 : ∀ t : Fin cfg0.N, ¬ t.val % 7 = 6 → cfg0.idle 7 (grid0.coords t) = true := by decide +kernel
theorem idle8 : ∀ t : Fin cfg0.N, ¬ t.val % 7 = 6 → cfg0.idle 8 (grid0.coords t) = true := by decide +kernel
theorem noFlush7 : ∀ t : Fin cfg0.N, ¬ t.val % 7 = 6 → (cfg0.win 7).flush t = false := by decide +kernel
theorem noFlush8 : ∀ t : Fin cfg0.N, ¬ t.val % 7 = 6 → (cfg0.win 8).flush t = false := by decide +kernel
/-- At the last feature block they are live. -/
theorem live7 : ∀ t : Fin cfg0.N, t.val % 7 = 6 → cfg0.idle 7 (grid0.coords t) = false := by decide +kernel
theorem live8 : ∀ t : Fin cfg0.N, t.val % 7 = 6 → cfg0.idle 8 (grid0.coords t) = false := by decide +kernel

/-- The accumulator: the kernel's one scratch buffer, whole. -/
abbrev accM : Memref sig .tc .vmem S1680x1024 .f32 := Memref.whole cc0_scratch0

/-- What the region lends the body beside the windows: the accumulator at some contents and the generator
    register at some state. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.KernelIdeal.Body

end
-- ==== Proof.LibIndex.lean ====
/-
  General lemmas: layout operations of rank-two arrays read at an index, row sums, and the plain matrix
  product as a sum over the shared axis. None mentions a program; all are stated over literal-rank shapes
  `[a, b]` with indices built from coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LayoutLib

open Idealize.ShloMosaic Idealize.ShloMosaic.ValueIdx

variable {α : Type}

/-- A vector `[a]` cast to a column `[a, 1]` (a sum's `keepdims`) reads, at `(p, u)`, the vector at `p`. -/
theorem shapeCast_col_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column `[a, 1]` broadcast along the rows to `[a, b]` reads, at `(p, c)`, the column at `p`. -/
theorem broadcastTo_col_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column `[a, 1]` to `[a, b]` (both axes kept in place) reads the column at `p`. -/
theorem broadcastInDim_col_apply {a b : ℕ}
    (h : (⟨2, ![a, 1]⟩ : Shape).BroadcastsInDim ⟨2, ![a, b]⟩ (![0, 1] : Fin 2 → Fin 2))
    (x : (⟨2, ![a, 1]⟩ : Shape).Idx → α) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row `[1, b]` to `[a, b]` reads the row at `c`. -/
theorem broadcastInDim_row_apply {a b : ℕ}
    (h : (⟨2, ![1, b]⟩ : Shape).BroadcastsInDim ⟨2, ![a, b]⟩ (![0, 1] : Fin 2 → Fin 2))
    (x : (⟨2, ![1, b]⟩ : Shape).Idx → α) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a vector `[b]` to one row `[1, b]` reads the vector at `c`. -/
theorem broadcastInDim_vecRow_apply {b : ℕ}
    (h : (⟨1, ![b]⟩ : Shape).BroadcastsInDim ⟨2, ![1, b]⟩ (![1] : Fin 1 → Fin 2))
    (x : (⟨1, ![b]⟩ : Shape).Idx → α) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- The host's broadcast of a vector `[a]` to one column `[a, 1]` reads the vector at `p`. -/
theorem broadcastInDim_vecCol_apply {a : ℕ}
    (h : (⟨1, ![a]⟩ : Shape).BroadcastsInDim ⟨2, ![a, 1]⟩ (![0] : Fin 1 → Fin 2))
    (x : (⟨1, ![a]⟩ : Shape).Idx → α) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The host's broadcast of a scalar (rank zero) to any shape reads the scalar everywhere. -/
theorem broadcastInDim_scalar_apply {t : Shape}
    (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 fun ax => ax.elim0

/-- The source index over row `p` with coordinate `k` on the summed axis is `(p, k)`. -/
theorem lift_row {a b : ℕ} (h : (⟨2, ![a, b]⟩ : Shape).Reduces [(1 : Fin 2)] ⟨1, ![a]⟩) (p : Fin a) (k : Fin b) :
    h.lift (ix1 p) k = ix2 p k :=
  funext fun c => Fin.ext (by match c with | ⟨0, _⟩ => rfl | ⟨1, _⟩ => rfl)

/-- A sum along the rows of `[a, b]`, read at row `p`, is the sum of that row's entries. -/
theorem reduceAdd_row_apply {a b : ℕ} (h : (⟨2, ![a, b]⟩ : Shape).Reduces [(1 : Fin 2)] ⟨1, ![a]⟩)
    (x : (⟨2, ![a, b]⟩ : Shape).Idx → EReal) (p : Fin a) :
    Ideal.reduceAdd h x (ix1 p) = ∑ k : Fin b, x (ix2 p k) := by
  rw [Ideal.reduceAdd_single h x (ix1 p)]
  exact Finset.sum_congr rfl fun k _ => congrArg x (lift_row h p k)

/-- The host's sum along the rows likewise: the initial value plus the row's sum. -/
theorem hostReduceAdd_row_apply {a b : ℕ} (h' : (⟨2, ![a, b]⟩ : Shape).ReducesTo [(1 : Fin 2)] ⟨1, ![a]⟩)
    (h : (⟨2, ![a, b]⟩ : Shape).Reduces [(1 : Fin 2)] ⟨1, ![a]⟩)
    (x : (⟨2, ![a, b]⟩ : Shape).Idx → EReal) (init : EReal) (p : Fin a) :
    Ideal.hostReduceAdd h' x init (ix1 p) = init + ∑ k : Fin b, x (ix2 p k) := by
  rw [Ideal.hostReduceAdd_single h' h x init (ix1 p)]
  exact congrArg (init + ·) (Finset.sum_congr rfl fun k _ => congrArg x (lift_row h p k))

/-- The plain `[M, K] × [K, N]` product's sum over its contraction index, at output `(p, q)`, is the sum over
    `k : Fin K` of the left operand at `(p, k)` times the right operand at `(k, q)`. -/
theorem dot_plain_sum {M K N : ℕ} (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (p : Fin M) (q : Fin N) :
    ∑ k : D.contr.Idx, l (D.lhsIdx (ix2 p q) k) * r (D.rhsIdx (ix2 p q) k) = ∑ k : Fin K, l (ix2 p k) * r (ix2 k q) := by
  subst hD
  rw [← Equiv.sum_comp (contrEquiv1 (DotDims.plain M K N) K rfl rfl).symm]
  refine Finset.sum_congr rfl fun k _ => ?_
  have e := contrEquiv1_symm_val (DotDims.plain M K N) K rfl rfl k
  have hl : (DotDims.plain M K N).lhsIdx (ix2 p q) ((contrEquiv1 (DotDims.plain M K N) K rfl rfl).symm k) = ix2 p k :=
    funext fun c => Fin.ext (by
      match c with
      | ⟨0, _⟩ => rfl
      | ⟨1, _⟩ => exact ((DotDims.plain M K N).lhsIdx_val_of_single (cl := (1 : Fin 2)) rfl _ _).trans e)
  have hr : (DotDims.plain M K N).rhsIdx (ix2 p q) ((contrEquiv1 (DotDims.plain M K N) K rfl rfl).symm k) = ix2 k q :=
    funext fun c => Fin.ext (by
      match c with
      | ⟨0, _⟩ => exact ((DotDims.plain M K N).rhsIdx_val_of_single (cr := (0 : Fin 2)) rfl _ _).trans e
      | ⟨1, _⟩ => rfl)
  rw [hl, hr]

end Cert.LayoutLib

end
-- ==== Proof.LibDense.lean ====
/-
  General lemmas: a matrix product of a rank-two array with a weight matrix, a bias row added to every row, and the
  cut at zero, each as ONE function of its operands at any number of rows — in the spelling a vector unit gives them
  (a product accumulated into a zero splat, a one-row array broadcast down the rows, a maximum against a splat zero)
  and in the spelling a host program gives them (a general dot, a vector broadcast in two steps, a maximum against a
  broadcast scalar). Over the extended reals a change of float format is the identity. None mentions a program.
-/
import proofs.«125935_g42133629174425_cont_8to1_b_514_18_alg».proof.Proof.LibIndex

noncomputable section

namespace Cert.DenseLib

open Idealize.ShloMosaic Idealize.ShloMosaic.ValueIdx Cert.LayoutLib

/-- The product of an `[M, K]` array with a `[K, N]` matrix: entry `(p, q)` is the sum over `k` of `X (p, k) · W (k, q)`. -/
def mm {M K N : ℕ} (X : (⟨2, ![M, K]⟩ : Shape).Idx → EReal) (W : (⟨2, ![K, N]⟩ : Shape).Idx → EReal) :
    (⟨2, ![M, N]⟩ : Shape).Idx → EReal :=
  fun i => ∑ k : Fin K, X (ix2 (n0 := M) (i 0) k) * W (ix2 k (n1 := N) (i 1))

/-- A bias vector laid along every row of an `[M, N]` array. -/
def rows {M N : ℕ} (b : Fin N → EReal) : (⟨2, ![M, N]⟩ : Shape).Idx → EReal := fun i => b (i 1)

/-- The cut at zero, entry by entry. -/
def relu {s : Shape} (X : s.Idx → EReal) : s.Idx → EReal := fun i => max (X i) 0

/-- The entrywise sum. -/
def plus {s : Shape} (X Y : s.Idx → EReal) : s.Idx → EReal := fun i => X i + Y i

theorem mm_apply {M K N : ℕ} (X : (⟨2, ![M, K]⟩ : Shape).Idx → EReal) (W : (⟨2, ![K, N]⟩ : Shape).Idx → EReal)
    (p : Fin M) (q : Fin N) : mm X W (ix2 p q) = ∑ k : Fin K, X (ix2 p k) * W (ix2 k q) := rfl

/-- A product's row `p` depends on row `p` of the left operand only: two arrays, of any heights, that agree on a
    row of each give products that agree on those rows. -/
theorem mm_row {M M' K N : ℕ} (X : (⟨2, ![M, K]⟩ : Shape).Idx → EReal) (X' : (⟨2, ![M', K]⟩ : Shape).Idx → EReal)
    (W : (⟨2, ![K, N]⟩ : Shape).Idx → EReal) (p : Fin M) (p' : Fin M')
    (h : ∀ k, X (ix2 p k) = X' (ix2 p' k)) (q : Fin N) : mm X W (ix2 p q) = mm X' W (ix2 p' q) := by
  rw [mm_apply, mm_apply]
  exact Finset.sum_congr rfl fun k _ => by rw [h k]

/-! ## The vector unit's spellings -/

/-- A change of float format is the identity on the extended reals. -/
theorem truncf_eq {s : Shape} {φ ψ : FTy} (X : FVec Ideal s φ) (h : ψ.bits < φ.bits) : (truncf ψ X h : FVec Ideal s ψ) = X := rfl

/-- A product accumulated into the zero splat is the product. -/
theorem matmul_eq_mm {M K N : ℕ} (D : DotDims ⟨2, ![M, K]⟩ ⟨2, ![K, N]⟩ ⟨2, ![M, N]⟩) (hD : D = DotDims.plain M K N)
    {φ₁ φ₂ : FTy} (L : FVec Ideal ⟨2, ![M, K]⟩ φ₁) (R : FVec Ideal ⟨2, ![K, N]⟩ φ₂) :
    matmul D none L R (constant ⟨2, ![M, N]⟩ .f32 0x00000000#32) = mm L R := by
  funext i
  obtain ⟨p, q, rfl⟩ : ∃ (p : Fin M) (q : Fin N), i = ix2 p q := ⟨i 0, i 1, eq_ix2 i⟩
  exact (Ideal.matmul_constant_zero_apply D none L R (ix2 p q)).trans (dot_plain_sum D hD L R p q)

/-- A one-row array broadcast down the rows lays its row along every row. -/
theorem broadcastTo_eq_rows {M N : ℕ} (v : FVec Ideal ⟨2, ![1, N]⟩ .f32) (h : (⟨2, ![1, N]⟩ : Shape).Broadcasts ⟨2, ![M, N]⟩) :
    broadcastTo ⟨2, ![M, N]⟩ v h = rows (M := M) fun c => v (ix2 (0 : Fin 1) c) := by
  funext i
  obtain ⟨p, q, rfl⟩ : ∃ (p : Fin M) (q : Fin N), i = ix2 p q := ⟨i 0, i 1, eq_ix2 i⟩
  exact broadcastTo_1b_ab_apply v h p q

/-- The maximum against a splat zero is the cut at zero. -/
theorem maximumf_splat_zero {s : Shape} (X : FVec Ideal s .f32) :
    maximumf X (broadcast s (Scalar.ofBits (F := Ideal) .f32 0x00000000#32)) = relu X := by
  funext i
  show max (X i) (Ideal.ofBits .f32 0x00000000#32) = max (X i) 0
  rw [Ideal.ofBits_zero_f32]

/-- The vector sum is the entrywise sum. -/
theorem addf_eq_plus {s : Shape} (X Y : FVec Ideal s .f32) : addf X Y = plus X Y := rfl

/-! ## The host's spellings -/

/-- The host's general dot with one contracted axis is the product. -/
theorem dotGeneral_eq_mm {M K N : ℕ} (D : DotDims ⟨2, ![M, K]⟩ ⟨2, ![K, N]⟩ ⟨2, ![M, N]⟩) (hD : D = DotDims.plain M K N)
    {φ₁ φ₂ : FTy} (L : FVec Ideal ⟨2, ![M, K]⟩ φ₁) (R : FVec Ideal ⟨2, ![K, N]⟩ φ₂) :
    Host.dotGeneral D none L R = mm L R := by
  funext i
  obtain ⟨p, q, rfl⟩ : ∃ (p : Fin M) (q : Fin N), i = ix2 p q := ⟨i 0, i 1, eq_ix2 i⟩
  simp only [Host.dotGeneral]
  rw [Ideal.dotGeneral_apply]
  exact dot_plain_sum D hD L R p q

/-- A vector broadcast to one row and then down the rows lays the vector along every row. -/
theorem broadcastInDim_eq_rows {M N : ℕ} (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) :
    broadcastInDim ⟨2, ![M, N]⟩ ![0, 1] h2 (broadcastInDim ⟨2, ![1, N]⟩ ![1] h1 b) = rows (M := M) fun c => b (ix1 c) := by
  funext i
  obtain ⟨p, q, rfl⟩ : ∃ (p : Fin M) (q : Fin N), i = ix2 p q := ⟨i 0, i 1, eq_ix2 i⟩
  rw [broadcastInDim_row_apply, broadcastInDim_vecRow_apply]
  rfl

/-- The maximum against a broadcast scalar zero is the cut at zero. -/
theorem maximumf_bcast_zero {s : Shape} (X : FVec Ideal s .f32)
    (h : (⟨0, ![]⟩ : Shape).BroadcastsInDim s (![] : Fin 0 → Fin s.rank)) :
    maximumf X (broadcastInDim s ![] h (constant (F := Ideal) ⟨0, ![]⟩ .f32 0x00000000#32)) = relu X := by
  funext i
  show max (X i) (broadcastInDim s ![] h (constant (F := Ideal) ⟨0, ![]⟩ .f32 0x00000000#32) i) = max (X i) 0
  rw [broadcastInDim_scalar_apply]
  show max (X i) (Ideal.ofBits .f32 0x00000000#32) = max (X i) 0
  rw [Ideal.ofBits_zero_f32]

end Cert.DenseLib

end
-- ==== Proof.Spec.lean ====
/-
  The specification: a box head — two hidden layers, each an affine map followed by the cut at zero, and one affine
  output map — as ONE function of the feature rows, the weights and the biases, at any number of rows. Every weight
  matrix is stored with one row per OUTPUT feature, so each layer is `X · Wᵀ + b`: entry `(p, q)` of the product is
  the sum over `k` of `X (p, k) · W (q, k)`. Row `p` of every stage depends on row `p` of the features only.
-/
import proofs.«125935_g42133629174425_cont_8to1_b_514_18_alg».proof.Proof.LibDense

noncomputable section

namespace Cert.BoxHead

open Idealize.ShloMosaic Idealize.ShloMosaic.ValueIdx Cert.DenseLib

/-- `X · Wᵀ`: entry `(p, q)` is the sum over `k` of `X (p, k) · W (q, k)`. -/
def mmT {M K N : ℕ} (X : (⟨2, ![M, K]⟩ : Shape).Idx → EReal) (W : (⟨2, ![N, K]⟩ : Shape).Idx → EReal) :
    (⟨2, ![M, N]⟩ : Shape).Idx → EReal :=
  fun i => ∑ k : Fin K, X (ix2 (n0 := M) (i 0) k) * W (ix2 (n0 := N) (i 1) k)

theorem mmT_apply {M K N : ℕ} (X : (⟨2, ![M, K]⟩ : Shape).Idx → EReal) (W : (⟨2, ![N, K]⟩ : Shape).Idx → EReal)
    (p : Fin M) (q : Fin N) : mmT X W (ix2 p q) = ∑ k : Fin K, X (ix2 p k) * W (ix2 q k) := rfl

/-- An affine layer: `X · Wᵀ` with the bias `b` added along every row. -/
def affine {M K N : ℕ} (X : (⟨2, ![M, K]⟩ : Shape).Idx → EReal) (W : (⟨2, ![N, K]⟩ : Shape).Idx → EReal)
    (b : (⟨1, ![N]⟩ : Shape).Idx → EReal) : (⟨2, ![M, N]⟩ : Shape).Idx → EReal :=
  plus (mmT X W) (rows (M := M) fun c => b (ix1 c))

theorem affine_apply {M K N : ℕ} (X : (⟨2, ![M, K]⟩ : Shape).Idx → EReal) (W : (⟨2, ![N, K]⟩ : Shape).Idx → EReal)
    (b : (⟨1, ![N]⟩ : Shape).Idx → EReal) (p : Fin M) (q : Fin N) :
    affine X W b (ix2 p q) = (∑ k : Fin K, X (ix2 p k) * W (ix2 q k)) + b (ix1 q) := rfl

/-- A hidden layer: an affine layer cut at zero. -/
def layer {M K N : ℕ} (X : (⟨2, ![M, K]⟩ : Shape).Idx → EReal) (W : (⟨2, ![N, K]⟩ : Shape).Idx → EReal)
    (b : (⟨1, ![N]⟩ : Shape).Idx → EReal) : (⟨2, ![M, N]⟩ : Shape).Idx → EReal :=
  relu (affine X W b)

theorem layer_apply {M K N : ℕ} (X : (⟨2, ![M, K]⟩ : Shape).Idx → EReal) (W : (⟨2, ![N, K]⟩ : Shape).Idx → EReal)
    (b : (⟨1, ![N]⟩ : Shape).Idx → EReal) (p : Fin M) (q : Fin N) :
    layer X W b (ix2 p q) = max ((∑ k : Fin K, X (ix2 p k) * W (ix2 q k)) + b (ix1 q)) 0 := rfl

/-- The head on `M` feature rows with `C` outputs: two hidden layers of width 1024 over 12544 features, then the
    affine output map `(Wo, bo)`. -/
def head {M C : ℕ} (x : (⟨2, ![M, 12544]⟩ : Shape).Idx → EReal)
    (W1 : (⟨2, ![1024, 12544]⟩ : Shape).Idx → EReal) (b1 : (⟨1, ![1024]⟩ : Shape).Idx → EReal)
    (W2 : (⟨2, ![1024, 1024]⟩ : Shape).Idx → EReal) (b2 : (⟨1, ![1024]⟩ : Shape).Idx → EReal)
    (Wo : (⟨2, ![C, 1024]⟩ : Shape).Idx → EReal) (bo : (⟨1, ![C]⟩ : Shape).Idx → EReal) :
    (⟨2, ![M, C]⟩ : Shape).Idx → EReal :=
  affine (layer (layer x W1 b1) W2 b2) Wo bo

/-- Row `p` of an affine layer depends on row `p` of its input only. -/
theorem affine_row {M M' K N : ℕ} (X : (⟨2, ![M, K]⟩ : Shape).Idx → EReal) (X' : (⟨2, ![M', K]⟩ : Shape).Idx → EReal)
    (W : (⟨2, ![N, K]⟩ : Shape).Idx → EReal) (b : (⟨1, ![N]⟩ : Shape).Idx → EReal) (p : Fin M) (p' : Fin M')
    (h : ∀ k, X (ix2 p k) = X' (ix2 p' k)) (q : Fin N) : affine X W b (ix2 p q) = affine X' W b (ix2 p' q) := by
  rw [affine_apply, affine_apply]
  exact congrArg (· + b (ix1 q)) (Finset.sum_congr rfl fun k _ => by rw [h k])

/-- And so does row `p` of a hidden layer. -/
theorem layer_row {M M' K N : ℕ} (X : (⟨2, ![M, K]⟩ : Shape).Idx → EReal) (X' : (⟨2, ![M', K]⟩ : Shape).Idx → EReal)
    (W : (⟨2, ![N, K]⟩ : Shape).Idx → EReal) (b : (⟨1, ![N]⟩ : Shape).Idx → EReal) (p : Fin M) (p' : Fin M')
    (h : ∀ k, X (ix2 p k) = X' (ix2 p' k)) (q : Fin N) : layer X W b (ix2 p q) = layer X' W b (ix2 p' q) :=
  congrArg (max · 0) (affine_row X X' W b p p' h q)

/-- The head from the first layer's product onwards: what remains to compute once `X · W1ᵀ` is known. -/
def headFrom {M C : ℕ} (acc : (⟨2, ![M, 1024]⟩ : Shape).Idx → EReal) (b1 : (⟨1, ![1024]⟩ : Shape).Idx → EReal)
    (W2 : (⟨2, ![1024, 1024]⟩ : Shape).Idx → EReal) (b2 : (⟨1, ![1024]⟩ : Shape).Idx → EReal)
    (Wo : (⟨2, ![C, 1024]⟩ : Shape).Idx → EReal) (bo : (⟨1, ![C]⟩ : Shape).Idx → EReal) :
    (⟨2, ![M, C]⟩ : Shape).Idx → EReal :=
  affine (layer (relu (plus acc (rows (M := M) fun c => b1 (ix1 c)))) W2 b2) Wo bo

theorem head_eq_headFrom {M C : ℕ} (x : (⟨2, ![M, 12544]⟩ : Shape).Idx → EReal)
    (W1 : (⟨2, ![1024, 12544]⟩ : Shape).Idx → EReal) (b1 : (⟨1, ![1024]⟩ : Shape).Idx → EReal)
    (W2 : (⟨2, ![1024, 1024]⟩ : Shape).Idx → EReal) (b2 : (⟨1, ![1024]⟩ : Shape).Idx → EReal)
    (Wo : (⟨2, ![C, 1024]⟩ : Shape).Idx → EReal) (bo : (⟨1, ![C]⟩ : Shape).Idx → EReal) :
    head x W1 b1 W2 b2 Wo bo = headFrom (mmT x W1) b1 W2 b2 Wo bo := rfl

/-- Row `p` of the head depends on row `p` of the first product only. -/
theorem headFrom_row {M M' C : ℕ} (acc : (⟨2, ![M, 1024]⟩ : Shape).Idx → EReal) (acc' : (⟨2, ![M', 1024]⟩ : Shape).Idx → EReal)
    (b1 : (⟨1, ![1024]⟩ : Shape).Idx → EReal)
    (W2 : (⟨2, ![1024, 1024]⟩ : Shape).Idx → EReal) (b2 : (⟨1, ![1024]⟩ : Shape).Idx → EReal)
    (Wo : (⟨2, ![C, 1024]⟩ : Shape).Idx → EReal) (bo : (⟨1, ![C]⟩ : Shape).Idx → EReal) (p : Fin M) (p' : Fin M')
    (h : ∀ j, acc (ix2 p j) = acc' (ix2 p' j)) (q : Fin C) :
    headFrom acc b1 W2 b2 Wo bo (ix2 p q) = headFrom acc' b1 W2 b2 Wo bo (ix2 p' q) := by
  unfold headFrom
  refine affine_row _ _ Wo bo p p' (fun k => ?_) q
  refine layer_row _ _ W2 b2 p p' (fun j => ?_) k
  show max (acc (ix2 p j) + b1 (ix1 j)) 0 = max (acc' (ix2 p' j) + b1 (ix1 j)) 0
  rw [h j]

end Cert.BoxHead

end
-- ==== Proof.KIData.lean ====
/-
  The proof data of the idealized kernel's run, over the extended reals. Point `t` of the grid works on row block
  `t / 7` (rows `(t / 7) · 1680 + p` of the feature array, `p < 1680`; the last block overhangs the 5000 rows by 40)
  and feature block `t % 7` (features `(t % 7) · 1792 + kk`). After the body at point `t` the accumulator's row `p`,
  WHEN THAT ROW IS INSIDE THE ARRAY, holds the first layer's product summed over the feature blocks `0 … t % 7`
  (`accG`); rows past the array's end hold sums of words nothing names, and nothing is claimed of them. At the last
  feature block the two output buffers' rows inside the array hold the head of the matching rows of the feature
  array (`clsBlk`, `boxBlk`): each output row depends on its own feature row only.
-/
import proofs.«125935_g42133629174425_cont_8to1_b_514_18_alg».proof.Proof.KIRuns
import proofs.«125935_g42133629174425_cont_8to1_b_514_18_alg».proof.Proof.Spec

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.BoxHead

variable (m : (ℓ : Loc nD τ sig) → Buf (Elt Ideal) ℓ) (c : Dev nD)

local notation "𝕀" => MT nD τ sig Unit (Elt Ideal) ℕ (UR sig nD τ) ℕ

/-! ## The argument arrays and the specification at them -/

abbrev aX : S5000x12544.Idx → EReal := m ((c : Thread nD τ).loc main_arg0)
abbrev aW1 : S1024x12544.Idx → EReal := m ((c : Thread nD τ).loc main_arg1)
abbrev ab1 : S1024.Idx → EReal := m ((c : Thread nD τ).loc main_arg2)
abbrev aW2 : S1024x1024.Idx → EReal := m ((c : Thread nD τ).loc main_arg3)
abbrev ab2 : S1024.Idx → EReal := m ((c : Thread nD τ).loc main_arg4)
abbrev aWc : S4x1024.Idx → EReal := m ((c : Thread nD τ).loc main_arg5)
abbrev abc : S4.Idx → EReal := m ((c : Thread nD τ).loc main_arg6)
abbrev aWr : S12x1024.Idx → EReal := m ((c : Thread nD τ).loc main_arg7)
abbrev abr : S12.Idx → EReal := m ((c : Thread nD τ).loc main_arg8)

/-- The class scores of all 5000 rows. -/
def clsG : S5000x4.Idx → EReal := head (aX m c) (aW1 m c) (ab1 m c) (aW2 m c) (ab2 m c) (aWc m c) (abc m c)
/-- The box deltas of all 5000 rows. -/
def boxG : S5000x12.Idx → EReal := head (aX m c) (aW1 m c) (ab1 m c) (aW2 m c) (ab2 m c) (aWr m c) (abr m c)

/-- The array row that row `p` of point `t`'s row block is. -/
def rowOf (t : ℕ) (p : ℕ) : ℕ := t / 7 * 1680 + p

/-- The feature array and the first weight matrix read at natural-number coordinates (zero outside). -/
def xAt (r k : ℕ) : EReal := if h : r < 5000 ∧ k < 12544 then aX m c (ix2 ⟨r, h.1⟩ ⟨k, h.2⟩) else 0
def w1At (j k : ℕ) : EReal := if h : j < 1024 ∧ k < 12544 then aW1 m c (ix2 ⟨j, h.1⟩ ⟨k, h.2⟩) else 0

/-- One feature block's share of the first product, at block row `p` and hidden unit `j` of point `t`. -/
def blockTerm (t : ℕ) (kb : ℕ) (p j : ℕ) : EReal :=
  ∑ kk ∈ Finset.range 1792, xAt m c (rowOf t p) (kb * 1792 + kk) * w1At m c j (kb * 1792 + kk)

/-- The first product summed over the feature blocks `0 … t % 7`: what the accumulator's rows inside the array hold
    after the body at point `t`. -/
def accG (t : ℕ) : S1680x1024.Idx → EReal :=
  fun y => ∑ kb ∈ Finset.range (t % 7 + 1), blockTerm m c t kb (y 0).val (y 1).val

/-- The class scores of point `t`'s row block, row by row where the row is inside the array (zero past its end). -/
def clsBlk (t : ℕ) : S1680x4.Idx → EReal :=
  fun y => if h : rowOf t (y 0).val < 5000 then clsG m c (ix2 ⟨rowOf t (y 0).val, h⟩ ⟨(y 1).val, (y 1).isLt⟩) else 0
/-- The box deltas likewise. -/
def boxBlk (t : ℕ) : S1680x12.Idx → EReal :=
  fun y => if h : rowOf t (y 0).val < 5000 then boxG m c (ix2 ⟨rowOf t (y 0).val, h⟩ ⟨(y 1).val, (y 1).isLt⟩) else 0

/-! ## The invariant and the proof data -/

/-- What the region lends the body before position `n`: before the first point the accumulator at anything;
    afterwards the accumulator at contents whose rows inside the array are `accG` of the point before. -/
def PhiAcc : (n : ℕ) → sProp 𝕀
  | 0 => Pipeline.ΦA spec0 c
  | n + 1 => iprop(iprop(∃ f : S1680x1024.Idx → EReal, owns (c : Thread nD τ) accM fullShare f
        ∗ ⌜∀ (p : Fin 1680) (j : Fin 1024), rowOf n p.val < 5000 → f (ix2 p j) = accG m c n (ix2 p j)⌝) ∗ (∃ r, prngReg c r))

/-- The proof data: the arrays as the region finds them; after the body each input's buffer at its block (the
    feature block filled out past the array's end with zeros nothing reads), the outputs' at the row block's scores
    and deltas; the accumulator tracked by `PhiAcc`; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => (0 : EReal)) (iblk m c 0 t)
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => clsBlk m c t.val
    | ⟨8, _⟩ => boxBlk m c t.val
  Φ t := PhiAcc m c t.val
  q _ := fullShare
  owed _ := 0

theorem A_eq (w : Fin cfg0.W) : (dats m 0 c).A w = V m c (Pipeline.arrRef spec0 w) := by dsimp only [dats]

theorem after_0 (t : Fin cfg0.N) : (dats m 0 c).after 0 t = win0_0.fill (grid0.coords t) (fun _ => (0 : EReal)) (iblk m c 0 t) := by dsimp only [dats]
theorem after_1 (t : Fin cfg0.N) : (dats m 0 c).after 1 t = iblk m c 1 t := by dsimp only [dats]
theorem after_2 (t : Fin cfg0.N) : (dats m 0 c).after 2 t = iblk m c 2 t := by dsimp only [dats]
theorem after_3 (t : Fin cfg0.N) : (dats m 0 c).after 3 t = iblk m c 3 t := by dsimp only [dats]
theorem after_4 (t : Fin cfg0.N) : (dats m 0 c).after 4 t = iblk m c 4 t := by dsimp only [dats]
theorem after_5 (t : Fin cfg0.N) : (dats m 0 c).after 5 t = iblk m c 5 t := by dsimp only [dats]
theorem after_6 (t : Fin cfg0.N) : (dats m 0 c).after 6 t = iblk m c 6 t := by dsimp only [dats]
theorem after_7 (t : Fin cfg0.N) : (dats m 0 c).after 7 t = clsBlk m c t.val := by dsimp only [dats]
theorem after_8 (t : Fin cfg0.N) : (dats m 0 c).after 8 t = boxBlk m c t.val := by dsimp only [dats]

/-- The feature window is fetched at every point: its buffer holds the block on the rows inside the array and
    words nothing names past them. -/
theorem before_0 (t : Fin cfg0.N) (d) :
    (dats m 0 c).before 0 t d = win0_0.fill (grid0.coords t) d (iblk m c 0 t) := by
  unfold Dat.before; rw [if_pos (fetch0_0 t)]; rfl
/-- Every other input's buffer holds its block at every point, fetched there or not. -/
theorem before_1 (t : Fin cfg0.N) (d) : (dats m 0 c).before 1 t d = iblk m c 1 t := before0_1_of m (dats m 0 c) (A_eq m c 1) (after_1 m c) t d
theorem before_2 (t : Fin cfg0.N) (d) : (dats m 0 c).before 2 t d = iblk m c 2 t := before0_2_of m (dats m 0 c) (A_eq m c 2) (after_2 m c) t d
theorem before_3 (t : Fin cfg0.N) (d) : (dats m 0 c).before 3 t d = iblk m c 3 t := before0_3_of m (dats m 0 c) (A_eq m c 3) (after_3 m c) t d
theorem before_4 (t : Fin cfg0.N) (d) : (dats m 0 c).before 4 t d = iblk m c 4 t := before0_4_of m (dats m 0 c) (A_eq m c 4) (after_4 m c) t d
theorem before_5 (t : Fin cfg0.N) (d) : (dats m 0 c).before 5 t d = iblk m c 5 t := before0_5_of m (dats m 0 c) (A_eq m c 5) (after_5 m c) t d
theorem before_6 (t : Fin cfg0.N) (d) : (dats m 0 c).before 6 t d = iblk m c 6 t := before0_6_of m (dats m 0 c) (A_eq m c 6) (after_6 m c) t d

end Cert.KernelIdeal.Body

end
-- ==== Proof.KIFinal.lean ====
/-
  The two result arrays after every write-back. A result window's block at point `t` is rows
  `(t / 7) · 1680 + p` of its array, all columns, cut at the array's end on the last row block; it is written back
  at the last feature block of each row block, from a buffer whose rows inside the array hold the head of the
  matching feature rows. What is written is therefore the block of the specification's array, and the three row
  blocks cover the 5000 rows: row `r` is in the block written at point `7 · (r / 1680) + 6`.
-/
import proofs.«125935_g42133629174425_cont_8to1_b_514_18_alg».proof.Proof.KIData

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.BoxHead

variable (m : (ℓ : Loc nD τ sig) → Buf (Elt Ideal) ℓ) (c : Dev nD)

/-! ## The class scores -/

/-- Block row the row block, block column 0; the transfer moves all 1680 rows of the first two row blocks and the
    1640 rows inside the array of the last, and every column. -/
theorem idx_cls : ∀ t : Fin cfg0.N, win0_7.index t (0 : Fin 2) = t.val / 7 ∧ win0_7.index t (1 : Fin 2) = 0
    ∧ win0_7.xsize (grid0.coords t) (0 : Fin 2) = (if t.val / 7 = 2 then 1640 else 1680)
    ∧ win0_7.xsize (grid0.coords t) (1 : Fin 2) = 4 :=
  (by decide +kernel : ∀ t : Fin grid0.N, _)

/-- What point `t` writes back is block `t` of the specification's array. -/
theorem flushed_cls (t : Fin cfg0.N) :
    (dats m 0 c).flushed 7 t = ((cfg0.win 7).blk t).view.read (Elt Ideal) (clsG m c) := by
  show (cfg0.win 7).cut (grid0.coords t) ((dats m 0 c).after 7 t) = _
  rw [after_7]
  obtain ⟨e0, e1, s0, s1⟩ := idx_cls t
  have ht : t.val < 21 := N_0 ▸ t.isLt
  funext y
  have hy0 : (y 0).val < win0_7.xsize (grid0.coords t) (0 : Fin 2) := (y 0).isLt
  have hy1 : (y 1).val < win0_7.xsize (grid0.coords t) (1 : Fin 2) := (y 1).isLt
  rw [s0] at hy0
  rw [s1] at hy1
  have hr : rowOf t.val (y 0).val < 5000 := by unfold rowOf; split at hy0 <;> omega
  show clsBlk m c t.val (win0_7.xinj (grid0.coords t) y) = clsG m c (((cfg0.win 7).blk t).view.emb y)
  unfold clsBlk
  show (if h : rowOf t.val (y 0).val < 5000 then clsG m c (ix2 ⟨rowOf t.val (y 0).val, h⟩ ⟨(y 1).val, _⟩) else 0) = _
  rw [dif_pos hr]
  refine congrArg (clsG m c) (funext fun a => Fin.ext ?_)
  match a with
  | ⟨0, _⟩ => show rowOf t.val (y 0).val = win0_7.index t (0 : Fin 2) * 1680 + 1 * (y 0).val; unfold rowOf; omega
  | ⟨1, _⟩ => show (y 1).val = win0_7.index t (1 : Fin 2) * 4 + 1 * (y 1).val; omega

/-- An index of the array is in point `t`'s block iff each coordinate is in the block's range on its axis, the
    range cut at the array's end. -/
theorem mem_blk_cls (t : Fin cfg0.N) (i : S5000x4.Idx) :
    i ∈ ((cfg0.win 7).blk t).view.set ↔ ∀ a : Fin 2, win0_7.index t a * S1680x4.size a ≤ (i a).val
      ∧ (i a).val < win0_7.index t a * S1680x4.size a + win0_7.xsize (grid0.coords t) a := by
  show i ∈ ((View.whole main_v9_0).slice (win0_7.rect t)).set ↔ _
  rw [View.set_slice_whole, Rect.mem_set_unit]
  exact Iff.rfl

/-- Every index of the array is in the block some point writes back. -/
theorem cover_cls (i : S5000x4.Idx) :
    ∃ t : Fin cfg0.N, (cfg0.win 7).flush t = true ∧ i ∈ ((cfg0.win 7).blk t).view.set := by
  have hi0 : (i 0).val < 5000 := (i 0).isLt
  have hi1 : (i 1).val < 4 := (i 1).isLt
  obtain ⟨t, ht⟩ : ∃ t : Fin cfg0.N, t.val = 7 * ((i 0).val / 1680) + 6 :=
    ⟨⟨7 * ((i 0).val / 1680) + 6, lt_of_lt_of_eq (by omega : 7 * ((i 0).val / 1680) + 6 < 21) N_0.symm⟩, rfl⟩
  obtain ⟨e0, e1, s0, s1⟩ := idx_cls t
  refine ⟨t, (flush0_7 t).mpr (by omega), ?_⟩
  rw [mem_blk_cls]
  intro a
  match a with
  | ⟨0, _⟩ =>
    show win0_7.index t (0 : Fin 2) * 1680 ≤ (i 0).val
      ∧ (i 0).val < win0_7.index t (0 : Fin 2) * 1680 + win0_7.xsize (grid0.coords t) (0 : Fin 2)
    rw [e0, s0]
    split <;> omega
  | ⟨1, _⟩ =>
    show win0_7.index t (1 : Fin 2) * 4 ≤ (i 1).val
      ∧ (i 1).val < win0_7.index t (1 : Fin 2) * 4 + win0_7.xsize (grid0.coords t) (1 : Fin 2)
    rw [e1, s1]
    omega

/-! ## The box deltas -/

/-- Block row the row block, block column 0; the transfer moves all 1680 rows of the first two row blocks and the
    1640 rows inside the array of the last, and every column. -/
theorem idx_box : ∀ t : Fin cfg0.N, win0_8.index t (0 : Fin 2) = t.val / 7 ∧ win0_8.index t (1 : Fin 2) = 0
    ∧ win0_8.xsize (grid0.coords t) (0 : Fin 2) = (if t.val / 7 = 2 then 1640 else 1680)
    ∧ win0_8.xsize (grid0.coords t) (1 : Fin 2) = 12 :=
  (by decide +kernel : ∀ t : Fin grid0.N, _)

/-- What point `t` writes back is block `t` of the specification's array. -/
theorem flushed_box (t : Fin cfg0.N) :
    (dats m 0 c).flushed 8 t = ((cfg0.win 8).blk t).view.read (Elt Ideal) (boxG m c) := by
  show (cfg0.win 8).cut (grid0.coords t) ((dats m 0 c).after 8 t) = _
  rw [after_8]
  obtain ⟨e0, e1, s0, s1⟩ := idx_box t
  have ht : t.val < 21 := N_0 ▸ t.isLt
  funext y
  have hy0 : (y 0).val < win0_8.xsize (grid0.coords t) (0 : Fin 2) := (y 0).isLt
  have hy1 : (y 1).val < win0_8.xsize (grid0.coords t) (1 : Fin 2) := (y 1).isLt
  rw [s0] at hy0
  rw [s1] at hy1
  have hr : rowOf t.val (y 0).val < 5000 := by unfold rowOf; split at hy0 <;> omega
  show boxBlk m c t.val (win0_8.xinj (grid0.coords t) y) = boxG m c (((cfg0.win 8).blk t).view.emb y)
  unfold boxBlk
  show (if h : rowOf t.val (y 0).val < 5000 then boxG m c (ix2 ⟨rowOf t.val (y 0).val, h⟩ ⟨(y 1).val, _⟩) else 0) = _
  rw [dif_pos hr]
  refine congrArg (boxG m c) (funext fun a => Fin.ext ?_)
  match a with
  | ⟨0, _⟩ => show rowOf t.val (y 0).val = win0_8.index t (0 : Fin 2) * 1680 + 1 * (y 0).val; unfold rowOf; omega
  | ⟨1, _⟩ => show (y 1).val = win0_8.index t (1 : Fin 2) * 12 + 1 * (y 1).val; omega

/-- An index of the array is in point `t`'s block iff each coordinate is in the block's range on its axis, the
    range cut at the array's end. -/
theorem mem_blk_box (t : Fin cfg0.N) (i : S5000x12.Idx) :
    i ∈ ((cfg0.win 8).blk t).view.set ↔ ∀ a : Fin 2, win0_8.index t a * S1680x12.size a ≤ (i a).val
      ∧ (i a).val < win0_8.index t a * S1680x12.size a + win0_8.xsize (grid0.coords t) a := by
  show i ∈ ((View.whole main_v9_1).slice (win0_8.rect t)).set ↔ _
  rw [View.set_slice_whole, Rect.mem_set_unit]
  exact Iff.rfl

/-- Every index of the array is in the block some point writes back. -/
theorem cover_box (i : S5000x12.Idx) :
    ∃ t : Fin cfg0.N, (cfg0.win 8).flush t = true ∧ i ∈ ((cfg0.win 8).blk t).view.set := by
  have hi0 : (i 0).val < 5000 := (i 0).isLt
  have hi1 : (i 1).val < 12 := (i 1).isLt
  obtain ⟨t, ht⟩ : ∃ t : Fin cfg0.N, t.val = 7 * ((i 0).val / 1680) + 6 :=
    ⟨⟨7 * ((i 0).val / 1680) + 6, lt_of_lt_of_eq (by omega : 7 * ((i 0).val / 1680) + 6 < 21) N_0.symm⟩, rfl⟩
  obtain ⟨e0, e1, s0, s1⟩ := idx_box t
  refine ⟨t, (flush0_8 t).mpr (by omega), ?_⟩
  rw [mem_blk_box]
  intro a
  match a with
  | ⟨0, _⟩ =>
    show win0_8.index t (0 : Fin 2) * 1680 ≤ (i 0).val
      ∧ (i 0).val < win0_8.index t (0 : Fin 2) * 1680 + win0_8.xsize (grid0.coords t) (0 : Fin 2)
    rw [e0, s0]
    split <;> omega
  | ⟨1, _⟩ =>
    show win0_8.index t (1 : Fin 2) * 12 ≤ (i 1).val
      ∧ (i 1).val < win0_8.index t (1 : Fin 2) * 12 + win0_8.xsize (grid0.coords t) (1 : Fin 2)
    rw [e1, s1]
    omega

/-! ## The arrays after the run -/

theorem final_cls : (dats m 0 c).arrAt 7 cfg0.N = clsG m c :=
  (dats m 0 c).arrAt_eq_of_cover 7 (clsG m c) (fun t _ => flushed_cls m c t) (cover_cls)

theorem final_box : (dats m 0 c).arrAt 8 cfg0.N = boxG m c :=
  (dats m 0 c).arrAt_eq_of_cover 8 (boxG m c) (fun t _ => flushed_box m c t) (cover_box)

end Cert.KernelIdeal.Body

end
-- ==== Proof.RefValue.lean ====
/-
  The reference program computes the specification. The reference transposes each weight matrix and then takes
  a plain `[M, K] × [K, N]` product, so entry `(p, q)` of each product is the sum over `k` of the left operand at
  `(p, k)` times the weight at `(q, k)`; it lays each bias along every row in two steps (a vector to one row, the row
  down the rows), and cuts at zero by a maximum against a broadcast scalar zero. Read stage by stage at an index
  `(p, q)`, each hidden layer is the specification's layer and each output is its affine map.
-/
import proofs.«125935_g42133629174425_cont_8to1_b_514_18_alg».proof.Proof.Spec
import proofs.«125935_g42133629174425_cont_8to1_b_514_18_alg».proof.Proof.Gen.ReferenceIdeal.Read

noncomputable section

namespace Cert.BoxHead.Ref

open Idealize.ShloMosaic Idealize.ShloMosaic.ValueIdx Cert.DenseLib Cert.ReferenceIdeal Cert.ReferenceIdeal.Read

/-! ## Indices: the stages' composed index functions at `(p, q)` -/

/-- The first product reads its left operand at `(p, k)`. -/
theorem lidx1 (p : Fin 5000) (q : Fin 1024) (k : Fin 12544) : lidx_main_v1 (ix2 p q) k = ix2 p k :=
  funext fun a => Fin.ext (by match a with | ⟨0, _⟩ => rfl | ⟨1, _⟩ => rfl)

/-- The first product reads the transposed weight at `(k, q)`, which is the weight at `(q, k)`. -/
theorem ridx1 (p : Fin 5000) (q : Fin 1024) (k : Fin 12544) : idx_main_v0 (ridx_main_v1 (ix2 p q) k) = ix2 q k :=
  funext fun a => Fin.ext (by match a with | ⟨0, _⟩ => rfl | ⟨1, _⟩ => rfl)

/-- The first bias, laid along every row, reads the vector at `q`. -/
theorem bidx1 (p : Fin 5000) (q : Fin 1024) : idx_main_v2 (idx_main_v3 (ix2 p q)) = ix1 q :=
  funext fun a => Fin.ext (by match a with | ⟨0, _⟩ => rfl)

/-! ## The first hidden layer -/

theorem ref_h1 (x0 : (⟨S5000x12544, .f32⟩ : BufTy).Contents (Elt Ideal)) (x1 : (⟨S1024x12544, .f32⟩ : BufTy).Contents (Elt Ideal))
    (x2 : (⟨S1024, .f32⟩ : BufTy).Contents (Elt Ideal)) :
    val_main_v6 (F := Ideal) x0 x1 x2 = layer x0 x1 x2 := by
  funext i
  obtain ⟨p, q, rfl⟩ : ∃ (p : Fin 5000) (q : Fin 1024), i = ix2 p q := ⟨i 0, i 1, eq_ix2 i⟩
  rw [val_main_v6_apply, val_main_v4_apply, val_main_v1_apply, val_main_v3_apply, val_main_v2_apply, val_main_v5_apply,
    val_main_cst_apply, layer_apply, bidx1]
  simp only [val_main_v0_apply, lidx1, ridx1]
  show max ((∑ k : Fin 12544, x0 (ix2 p k) * x1 (ix2 q k)) + x2 (ix1 q)) (Ideal.ofBits .f32 0x00000000#32) = _
  rw [Ideal.ofBits_zero_f32]

/-! ## The second hidden layer -/

/-- The second product reads the first layer at `(p, k)`. -/
theorem lidx2 (p : Fin 5000) (q : Fin 1024) (k : Fin 1024) : lidx_main_v8 (ix2 p q) k = ix2 p k :=
  funext fun a => Fin.ext (by match a with | ⟨0, _⟩ => rfl | ⟨1, _⟩ => rfl)

/-- The second product reads the transposed weight at `(k, q)`, which is the weight at `(q, k)`. -/
theorem ridx2 (p : Fin 5000) (q : Fin 1024) (k : Fin 1024) : idx_main_v7 (ridx_main_v8 (ix2 p q) k) = ix2 q k :=
  funext fun a => Fin.ext (by match a with | ⟨0, _⟩ => rfl | ⟨1, _⟩ => rfl)

/-- The second bias, laid along every row, reads the vector at `q`. -/
theorem bidx2 (p : Fin 5000) (q : Fin 1024) : idx_main_v9 (idx_main_v10 (ix2 p q)) = ix1 q :=
  funext fun a => Fin.ext (by match a with | ⟨0, _⟩ => rfl)

theorem ref_h2 (x0 : (⟨S5000x12544, .f32⟩ : BufTy).Contents (Elt Ideal)) (x1 : (⟨S1024x12544, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) :
    val_main_v13 (F := Ideal) x0 x1 x2 x3 x4 = layer (layer x0 x1 x2) x3 x4 := by
  funext i
  obtain ⟨p, q, rfl⟩ : ∃ (p : Fin 5000) (q : Fin 1024), i = ix2 p q := ⟨i 0, i 1, eq_ix2 i⟩
  rw [val_main_v13_apply, val_main_v11_apply, val_main_v8_apply, val_main_v10_apply, val_main_v9_apply, val_main_v12_apply,
    val_main_cst_0_apply, layer_apply, bidx2, ref_h1]
  simp only [val_main_v7_apply, lidx2, ridx2]
  show max ((∑ k : Fin 1024, layer x0 x1 x2 (ix2 p k) * x3 (ix2 q k)) + x4 (ix1 q)) (Ideal.ofBits .f32 0x00000000#32) = _
  rw [Ideal.ofBits_zero_f32]

/-! ## The class scores -/

/-- The class product reads the second layer at `(p, k)`. -/
theorem lidxC (p : Fin 5000) (q : Fin 4) (k : Fin 1024) : lidx_main_v15 (ix2 p q) k = ix2 p k :=
  funext fun a => Fin.ext (by match a with | ⟨0, _⟩ => rfl | ⟨1, _⟩ => rfl)

/-- The class product reads the transposed weight at `(k, q)`, which is the weight at `(q, k)`. -/
theorem ridxC (p : Fin 5000) (q : Fin 4) (k : Fin 1024) : idx_main_v14 (ridx_main_v15 (ix2 p q) k) = ix2 q k :=
  funext fun a => Fin.ext (by match a with | ⟨0, _⟩ => rfl | ⟨1, _⟩ => rfl)

/-- The class bias, laid along every row, reads the vector at `q`. -/
theorem bidxC (p : Fin 5000) (q : Fin 4) : idx_main_v16 (idx_main_v17 (ix2 p q)) = ix1 q :=
  funext fun a => Fin.ext (by match a with | ⟨0, _⟩ => rfl)

/-- The reference's class scores are the head with the class weights. -/
theorem ref_cls (x0 : (⟨Cert.ReferenceIdeal.S5000x12544, .f32⟩ : BufTy).Contents (Elt Ideal)) (x1 : (⟨Cert.ReferenceIdeal.S1024x12544, .f32⟩ : BufTy).Contents (Elt Ideal)) (x2 : (⟨Cert.ReferenceIdeal.S1024, .f32⟩ : BufTy).Contents (Elt Ideal)) (x3 : (⟨Cert.ReferenceIdeal.S1024x1024, .f32⟩ : BufTy).Contents (Elt Ideal)) (x4 : (⟨Cert.ReferenceIdeal.S1024, .f32⟩ : BufTy).Contents (Elt Ideal)) (x5 : (⟨Cert.ReferenceIdeal.S4x1024, .f32⟩ : BufTy).Contents (Elt Ideal)) (x6 : (⟨Cert.ReferenceIdeal.S4, .f32⟩ : BufTy).Contents (Elt Ideal)) :
    Cert.ReferenceIdeal.Read.val_main_v18 (F := Ideal) x0 x1 x2 x3 x4 x5 x6 = Cert.BoxHead.head x0 x1 x2 x3 x4 x5 x6 := by
  funext i
  obtain ⟨p, q, rfl⟩ : ∃ (p : Fin 5000) (q : Fin 4), i = ix2 p q := ⟨i 0, i 1, eq_ix2 i⟩
  unfold head
  rw [val_main_v18_apply, val_main_v15_apply, val_main_v17_apply, val_main_v16_apply, affine_apply, bidxC, ref_h2]
  simp only [val_main_v14_apply, lidxC, ridxC]
  rfl

/-! ## The box deltas -/

/-- The box product reads the second layer at `(p, k)`. -/
theorem lidxB (p : Fin 5000) (q : Fin 12) (k : Fin 1024) : lidx_main_v20 (ix2 p q) k = ix2 p k :=
  funext fun a => Fin.ext (by match a with | ⟨0, _⟩ => rfl | ⟨1, _⟩ => rfl)

/-- The box product reads the transposed weight at `(k, q)`, which is the weight at `(q, k)`. -/
theorem ridxB (p : Fin 5000) (q : Fin 12) (k : Fin 1024) : idx_main_v19 (ridx_main_v20 (ix2 p q) k) = ix2 q k :=
  funext fun a => Fin.ext (by match a with | ⟨0, _⟩ => rfl | ⟨1, _⟩ => rfl)

/-- The box bias, laid along every row, reads the vector at `q`. -/
theorem bidxB (p : Fin 5000) (q : Fin 12) : idx_main_v21 (idx_main_v22 (ix2 p q)) = ix1 q :=
  funext fun a => Fin.ext (by match a with | ⟨0, _⟩ => rfl)

/-- The reference's box deltas are the head with the box weights. -/
theorem ref_box (x0 : (⟨Cert.ReferenceIdeal.S5000x12544, .f32⟩ : BufTy).Contents (Elt Ideal)) (x1 : (⟨Cert.ReferenceIdeal.S1024x12544, .f32⟩ : BufTy).Contents (Elt Ideal)) (x2 : (⟨Cert.ReferenceIdeal.S1024, .f32⟩ : BufTy).Contents (Elt Ideal)) (x3 : (⟨Cert.ReferenceIdeal.S1024x1024, .f32⟩ : BufTy).Contents (Elt Ideal)) (x4 : (⟨Cert.ReferenceIdeal.S1024, .f32⟩ : BufTy).Contents (Elt Ideal)) (x7 : (⟨Cert.ReferenceIdeal.S12x1024, .f32⟩ : BufTy).Contents (Elt Ideal)) (x8 : (⟨Cert.ReferenceIdeal.S12, .f32⟩ : BufTy).Contents (Elt Ideal)) :
    Cert.ReferenceIdeal.Read.val_main_v23 (F := Ideal) x0 x1 x2 x3 x4 x7 x8 = Cert.BoxHead.head x0 x1 x2 x3 x4 x7 x8 := by
  funext i
  obtain ⟨p, q, rfl⟩ : ∃ (p : Fin 5000) (q : Fin 12), i = ix2 p q := ⟨i 0, i 1, eq_ix2 i⟩
  unfold head
  rw [val_main_v23_apply, val_main_v20_apply, val_main_v22_apply, val_main_v21_apply, affine_apply, bidxB, ref_h2]
  simp only [val_main_v19_apply, lidxB, ridxB]
  rfl

end Cert.BoxHead.Ref

end
-- ==== Proof.Claims.lean ====
/-
  The five claims, assembled. The word-level kernel's frame is its own frame run. The idealized kernel's run to the
  frame post — every window's array at what the write-backs leave, every other unscoped buffer as the region found
  it — is taken as a hypothesis `hrun`; read at the arguments it is the frame claim, and read at the two results it
  is the specification's class scores and box deltas of the argument arrays. The reference's run leaves each result
  at its operations' composed term, which is the specification's head of its own arguments; from memories that agree
  on the arguments the two programs' results are therefore equal, and both leave the arguments unchanged.
-/
import proofs.«125935_g42133629174425_cont_8to1_b_514_18_alg».proof.Defs
import proofs.«125935_g42133629174425_cont_8to1_b_514_18_alg».proof.Proof.Gen.Kernel
import proofs.«125935_g42133629174425_cont_8to1_b_514_18_alg».proof.Proof.Gen.KernelIdeal
import proofs.«125935_g42133629174425_cont_8to1_b_514_18_alg».proof.Proof.Gen.ReferenceIdeal
import proofs.«125935_g42133629174425_cont_8to1_b_514_18_alg».proof.Proof.Gen.Pre_finite_inputs
import proofs.«125935_g42133629174425_cont_8to1_b_514_18_alg».proof.Proof.Gen.ReferenceIdeal.Run
import proofs.«125935_g42133629174425_cont_8to1_b_514_18_alg».proof.Proof.Gen.ReferenceIdeal.Read
import proofs.«125935_g42133629174425_cont_8to1_b_514_18_alg».proof.Proof.KFrame
import proofs.«125935_g42133629174425_cont_8to1_b_514_18_alg».proof.Proof.KIFinal
import proofs.«125935_g42133629174425_cont_8to1_b_514_18_alg».proof.Proof.RefValue

noncomputable section

open Idealize.ShloMosaic Idealize.ShloMosaic.TcCoe Idealize.SL.Sem

namespace Cert.Proof.Claims

/-! ## The reference's run, read as the specification -/

/-- The reference leaves each result at the head of its own arguments, and the arguments unchanged. -/
theorem ri_run (m' : (ℓ : Loc Cert.ReferenceIdeal.nD Cert.ReferenceIdeal.τ Cert.ReferenceIdeal.sig) → Buf (Elt Ideal) ℓ) (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v18) = Cert.BoxHead.head (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6))
      ∧ r.2.mem ((c.tc : Thread Cert.ReferenceIdeal.nD Cert.ReferenceIdeal.τ).loc Cert.ReferenceIdeal.main_v23) = Cert.BoxHead.head (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)) :=
  (θ_run Cert.ReferenceIdeal.defs _ _).mono (fun _ h c =>
      ⟨(h c).1.trans ((Cert.ReferenceIdeal.Read.val_main_v18_eq _ _ _ _ _ _ _).trans (Cert.BoxHead.Ref.ref_cls _ _ _ _ _ _ _)),
        (h c).2.1.trans ((Cert.ReferenceIdeal.Read.val_main_v23_eq _ _ _ _ _ _ _).trans (Cert.BoxHead.Ref.ref_box _ _ _ _ _ _ _)),
        (h c).2.2⟩)
    (Cert.ReferenceIdeal.Value.run (F := Ideal) m' ρ')

/-! ## The idealized kernel's run, read at the results and at the arguments -/

section Kernel

variable (hrun : ∀ (m : (ℓ : Loc Cert.KernelIdeal.nD Cert.KernelIdeal.τ Cert.KernelIdeal.sig) → Buf (Elt Ideal) ℓ) (ρ : Dev Cert.KernelIdeal.nD → PrngReg),
  θ_run (Cert.KernelIdeal.defs (F := Ideal)) (onTc (τ := Cert.KernelIdeal.τ) (Cert.KernelIdeal.main (F := Ideal))) (s₀ m ρ)
    (Pipeline.FramePost Cert.KernelIdeal.cfgs (Cert.KernelIdeal.Body.dats m) 0 (Cert.KernelIdeal.Gen.V m)))

include hrun

/-- The idealized kernel leaves the two results at the specification's class scores and box deltas of its argument
    arrays, and the arguments unchanged. -/
theorem ki_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v9_0) = Cert.KernelIdeal.Body.clsG m c
      ∧ r.2.mem ((c.tc : Thread Cert.KernelIdeal.nD Cert.KernelIdeal.τ).loc Cert.KernelIdeal.main_v9_1) = Cert.KernelIdeal.Body.boxG m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)) :=
  (θ_run Cert.KernelIdeal.defs _ _).mono (fun _ h c =>
    ⟨((h c).1 7).trans (Cert.KernelIdeal.Body.final_cls m c),
      ((h c).1 8).trans (Cert.KernelIdeal.Body.final_box m c),
      ((h c).1 0).trans (((Cert.KernelIdeal.Body.dats m 0 c).arrAt_in 0 rfl _).trans ((Cert.KernelIdeal.Body.A_eq m c 0).trans (Cert.KernelIdeal.Gen.V_main_arg0 m c))),
      ((h c).1 1).trans (((Cert.KernelIdeal.Body.dats m 0 c).arrAt_in 1 rfl _).trans ((Cert.KernelIdeal.Body.A_eq m c 1).trans (Cert.KernelIdeal.Gen.V_main_arg1 m c))),
      ((h c).2 Cert.KernelIdeal.main_arg2 (Pipeline.mem_restRefs_of Cert.KernelIdeal.main_arg2 (by decide) (by decide))).trans (Cert.KernelIdeal.Gen.V_main_arg2 m c),
      ((h c).2 Cert.KernelIdeal.main_arg3 (Pipeline.mem_restRefs_of Cert.KernelIdeal.main_arg3 (by decide) (by decide))).trans (Cert.KernelIdeal.Gen.V_main_arg3 m c),
      ((h c).2 Cert.KernelIdeal.main_arg4 (Pipeline.mem_restRefs_of Cert.KernelIdeal.main_arg4 (by decide) (by decide))).trans (Cert.KernelIdeal.Gen.V_main_arg4 m c),
      ((h c).2 Cert.KernelIdeal.main_arg5 (Pipeline.mem_restRefs_of Cert.KernelIdeal.main_arg5 (by decide) (by decide))).trans (Cert.KernelIdeal.Gen.V_main_arg5 m c),
      ((h c).2 Cert.KernelIdeal.main_arg6 (Pipeline.mem_restRefs_of Cert.KernelIdeal.main_arg6 (by decide) (by decide))).trans (Cert.KernelIdeal.Gen.V_main_arg6 m c),
      ((h c).2 Cert.KernelIdeal.main_arg7 (Pipeline.mem_restRefs_of Cert.KernelIdeal.main_arg7 (by decide) (by decide))).trans (Cert.KernelIdeal.Gen.V_main_arg7 m c),
      ((h c).2 Cert.KernelIdeal.main_arg8 (Pipeline.mem_restRefs_of Cert.KernelIdeal.main_arg8 (by decide) (by decide))).trans (Cert.KernelIdeal.Gen.V_main_arg8 m c)⟩)
    (hrun m ρ)

/-! ## The claims -/

theorem frame_ki : Cert.frame_KernelIdeal := fun m ρ _ =>
  Cert.KernelIdeal.Gen.frame_of m ρ (Cert.KernelIdeal.Body.dats m) (Cert.KernelIdeal.Body.A_eq m) (hrun m ρ)

/-- From memories that agree on the arguments both programs end with the specification's class scores and box
    deltas of the kernel's argument arrays. -/
theorem algebraic : Cert.algebraic_KernelIdeal_ReferenceIdeal := by
  intro m ρ m' ρ' _ hagree
  refine ⟨fun c => Cert.KernelIdeal.Body.clsG m c, fun c => Cert.KernelIdeal.Body.boxG m c, ki_run hrun m ρ, ?_⟩
  refine (θ_run Cert.ReferenceIdeal.defs _ _).mono (fun _ h c => ⟨(h c).1.trans ?_, (h c).2.1.trans ?_, (h c).2.2⟩) (ri_run m' ρ')
  · obtain ⟨a0, a1, a2, a3, a4, a5, a6, a7, a8⟩ := hagree c
    rw [a0, a1, a2, a3, a4, a5, a6]
    rfl
  · obtain ⟨a0, a1, a2, a3, a4, a5, a6, a7, a8⟩ := hagree c
    rw [a0, a1, a2, a3, a4, a7, a8]
    rfl

end Kernel

theorem frame_k : Cert.frame_Kernel := fun m ρ _ => Cert.Kernel.Body.frame (F := Bits) m ρ

theorem frame_ri : Cert.frame_ReferenceIdeal := fun m ρ _ =>
  (θ_run Cert.ReferenceIdeal.defs _ _).mono (fun _ h c => (h c).2.2) (Cert.ReferenceIdeal.Value.run (F := Ideal) m ρ)

/-- The idealized kernel is the kernel's own text read over the extended reals: no operation was rewritten, so
    there is nothing to preserve. -/
theorem preserves : Cert.preserves_Kernel_KernelIdeal := trivial

theorem claim_of (hrun : ∀ (m : (ℓ : Loc Cert.KernelIdeal.nD Cert.KernelIdeal.τ Cert.KernelIdeal.sig) → Buf (Elt Ideal) ℓ) (ρ : Dev Cert.KernelIdeal.nD → PrngReg),
    θ_run (Cert.KernelIdeal.defs (F := Ideal)) (onTc (τ := Cert.KernelIdeal.τ) (Cert.KernelIdeal.main (F := Ideal))) (s₀ m ρ)
      (Pipeline.FramePost Cert.KernelIdeal.cfgs (Cert.KernelIdeal.Body.dats m) 0 (Cert.KernelIdeal.Gen.V m))) : Cert.Claim :=
  ⟨Cert.Kernel.Gen.facts, Cert.KernelIdeal.Gen.facts, Cert.ReferenceIdeal.Gen.facts, Cert.Pre_finite_inputs.Gen.facts,
    frame_k, frame_ki hrun, frame_ri, preserves, algebraic hrun⟩

end Cert.Proof.Claims

end
-- ==== Proof.KIRunLast.lean ====
/-
  The body at a point of the LAST feature block, on any whole staging buffers: it adds the blocks' product to the
  accumulator as at a middle block, and then, for each third of the accumulator's rows, applies the two hidden
  layers and the output map and stores the first four columns into the same rows of the first output buffer and the
  other twelve into the same rows of the second. The pieces the three buffers end with are found by running the body.
-/
import proofs.«125935_g42133629174425_cont_8to1_b_514_18_alg».proof.Proof.KIRuns

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the two output buffers and the accumulator end with at a last-block point, with the proof that from
    the input buffers at `x0 … x6`, the output buffers at anything and the accumulator at `xs`, the body runs to
    the inputs unchanged and the three buffers with those pieces written. -/
noncomputable def runLast (c : Dev nD) (i : grid0.Coords) (arg2 : Memref sig .tc .vmem S1680x1792 .f32) (harg2 : arg2.IsWhole) (arg3 : Memref sig .tc .vmem S1024x1792 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x16 .bf16) (harg7 : arg7.IsWhole) (arg8 : Memref sig .tc .vmem S1x16 .f32) (harg8 : arg8.IsWhole) (arg9 : Memref sig .tc .vmem S1680x4 .f32) (harg9 : arg9.IsWhole) (arg10 : Memref sig .tc .vmem S1680x12 .f32) (harg10 : arg10.IsWhole) (arg11 : Memref sig .tc .vmem S1680x1024 .f32) (harg11 : arg11.IsWhole)
    (hc0 : ¬condFirst i) (hc1 : condLater i) (hc2 : condLast i) (x0 : Vec F S1680x1792 .f32) (x1 : Vec F S1024x1792 .f32) (x2 : Vec F S1x1024 .f32) (x3 : Vec F S1024x1024 .bf16) (x4 : Vec F S1x1024 .f32) (x5 : Vec F S1024x16 .bf16) (x6 : Vec F S1x16 .f32) (xs : Vec F S1680x1024 .f32) :
    Σ' (L7 : List (View.Piece (Elt F) S1680x4 .f32)) (L8 : List (View.Piece (Elt F) S1680x12 .f32)),
    { LS : List (View.Piece (Elt F) S1680x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ (∃ d, owns (c : Thread nD τ) arg9 fullShare d) ∗ (∃ d, owns (c : Thread nD τ) arg10 fullShare d) ∗ owns (c : Thread nD τ) arg11 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
                ∗ (∃ f, arg9.view.loc (c : Thread nD τ) ↦[arg9.view.set]{fullShare} arg9.view.writes (Elt F) f L7)
                ∗ (∃ f, arg10.view.loc (c : Thread nD τ) ↦[arg10.view.set]{fullShare} arg10.view.writes (Elt F) f L8)
                ∗ (∃ f, arg11.view.loc (c : Thread nD τ) ↦[arg11.view.set]{fullShare} arg11.view.writes (Elt F) f LS)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0__body_eq_skeleton]; unfold cc0__body_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs, %hfs, HS⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6
    obtain rfl := harg11.eq_unread hfs
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    iexists _; iexact HS

end Cert.KernelIdeal.Body

end
-- ==== Proof.KIRunMid.lean ====
/-
  The body at a point of a MIDDLE feature block, on any whole staging buffers: it loads the two blocks and the
  accumulator, and stores the accumulator plus the blocks' product back over the whole accumulator; it touches
  neither output buffer. The pieces the accumulator ends with are found by running the body.
-/
import proofs.«125935_g42133629174425_cont_8to1_b_514_18_alg».proof.Proof.KIRuns

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the accumulator ends with at a middle-block point, with the proof that from the input buffers at
    `x0 … x6`, the two output buffers at any contents `xi7`, `xi8` and the accumulator at `xs`, the body runs to
    the inputs and outputs unchanged and the accumulator with those pieces written. -/
noncomputable def runMid (c : Dev nD) (i : grid0.Coords) (arg2 : Memref sig .tc .vmem S1680x1792 .f32) (harg2 : arg2.IsWhole) (arg3 : Memref sig .tc .vmem S1024x1792 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x16 .bf16) (harg7 : arg7.IsWhole) (arg8 : Memref sig .tc .vmem S1x16 .f32) (harg8 : arg8.IsWhole) (arg9 : Memref sig .tc .vmem S1680x4 .f32) (harg9 : arg9.IsWhole) (arg10 : Memref sig .tc .vmem S1680x12 .f32) (harg10 : arg10.IsWhole) (arg11 : Memref sig .tc .vmem S1680x1024 .f32) (harg11 : arg11.IsWhole)
    (hc0 : ¬condFirst i) (hc1 : condLater i) (hc2 : ¬condLast i) (x0 : Vec F S1680x1792 .f32) (x1 : Vec F S1024x1792 .f32) (x2 : Vec F S1x1024 .f32) (x3 : Vec F S1024x1024 .bf16) (x4 : Vec F S1x1024 .f32) (x5 : Vec F S1024x16 .bf16) (x6 : Vec F S1x16 .f32) (xs : Vec F S1680x1024 .f32) :
    { LS : List (View.Piece (Elt F) S1680x1024 .f32) //
      ∀ (xi7 : Vec F S1680x4 .f32) (xi8 : Vec F S1680x12 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare xi7 ∗ owns (c : Thread nD τ) arg10 fullShare xi8 ∗ owns (c : Thread nD τ) arg11 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
                ∗ owns (c : Thread nD τ) arg9 fullShare xi7 ∗ owns (c : Thread nD τ) arg10 fullShare xi8
                ∗ (∃ f, arg11.view.loc (c : Thread nD τ) ↦[arg11.view.set]{fullShare} arg11.view.writes (Elt F) f LS)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11) K } := by
  refine ⟨?_, fun xi7 xi8 E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs, %hfs, HS⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6
    obtain rfl := harg9.eq_unread hf7; obtain rfl := harg10.eq_unread hf8; obtain rfl := harg11.eq_unread hfs
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact HS

end Cert.KernelIdeal.Body

end
-- ==== Proof.KIRunFirst.lean ====
/-
  The body at a point of the FIRST feature block, on any whole staging buffers: it loads the two blocks, stores
  their product over the whole accumulator, and touches neither output buffer. The pieces the accumulator ends
  with are found by running the body.
-/
import proofs.«125935_g42133629174425_cont_8to1_b_514_18_alg».proof.Proof.KIRuns

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the accumulator ends with at a first-block point, with the proof that from the input buffers at
    `x0 … x6`, the two output buffers at any contents `xi7`, `xi8` and the accumulator at anything, the body
    runs to the inputs and outputs unchanged and the accumulator with those pieces written. -/
noncomputable def runFirst (c : Dev nD) (i : grid0.Coords) (arg2 : Memref sig .tc .vmem S1680x1792 .f32) (harg2 : arg2.IsWhole) (arg3 : Memref sig .tc .vmem S1024x1792 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x16 .bf16) (harg7 : arg7.IsWhole) (arg8 : Memref sig .tc .vmem S1x16 .f32) (harg8 : arg8.IsWhole) (arg9 : Memref sig .tc .vmem S1680x4 .f32) (harg9 : arg9.IsWhole) (arg10 : Memref sig .tc .vmem S1680x12 .f32) (harg10 : arg10.IsWhole) (arg11 : Memref sig .tc .vmem S1680x1024 .f32) (harg11 : arg11.IsWhole)
    (hc0 : condFirst i) (hc1 : ¬condLater i) (hc2 : ¬condLast i) (x0 : Vec F S1680x1792 .f32) (x1 : Vec F S1024x1792 .f32) (x2 : Vec F S1x1024 .f32) (x3 : Vec F S1024x1024 .bf16) (x4 : Vec F S1x1024 .f32) (x5 : Vec F S1024x16 .bf16) (x6 : Vec F S1x16 .f32) :
    { LS : List (View.Piece (Elt F) S1680x1024 .f32) //
      ∀ (xi7 : Vec F S1680x4 .f32) (xi8 : Vec F S1680x12 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare xi7 ∗ owns (c : Thread nD τ) arg10 fullShare xi8 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
                ∗ owns (c : Thread nD τ) arg9 fullShare xi7 ∗ owns (c : Thread nD τ) arg10 fullShare xi8
                ∗ (∃ f, arg11.view.loc (c : Thread nD τ) ↦[arg11.view.set]{fullShare} arg11.view.writes (Elt F) f LS)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11) K } := by
  refine ⟨?_, fun xi7 xi8 E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds, %fs, -, HS⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6
    obtain rfl := harg9.eq_unread hf7; obtain rfl := harg10.eq_unread hf8
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact HS

end Cert.KernelIdeal.Body

end
-- ==== Proof.PayValue.lean ====
/-
  What the body's arithmetic computes, over the extended reals, as functions of the vectors it takes: the first
  layer's product of a block of feature rows with a block of weight rows (each weight row holds the weights of one
  OUTPUT feature, so the product contracts the last axis of both operands), and the finishing step on a piece of the
  accumulated product — bias, cut at zero, second layer, cut at zero, and the joint output map whose sixteen columns
  hold the four class scores followed by the twelve box deltas.
-/
import proofs.«125935_g42133629174425_cont_8to1_b_514_18_alg».proof.Proof.Spec
import proofs.«125935_g42133629174425_cont_8to1_b_514_18_alg».proof.Proof.Gen.KernelIdeal.Skeleton

noncomputable section

namespace Cert.BoxHead.Pay

open Cert.KernelIdeal Cert.KernelIdeal.Gen Cert.DenseLib Cert.BoxHead Idealize.ShloMosaic Idealize.ShloMosaic.ValueIdx

/-! ## The finishing step on one piece of 560 rows -/

/-- The finishing step: the bias row `b1r` added to every row of the accumulated product `a`, the cut at zero, the
    product with the second layer's matrix `w2` (stored input feature by output feature), its bias row, the cut at
    zero, the product with the sixteen-column output matrix `wh` and its bias row. -/
def fin16 (a : FVec Ideal S560x1024 .f32) (b1r : Vec Ideal S1x1024 .f32) (w2 : Vec Ideal S1024x1024 .bf16)
    (b2r : Vec Ideal S1x1024 .f32) (wh : Vec Ideal S1024x16 .bf16) (bhr : Vec Ideal S1x16 .f32) :
    (⟨2, ![560, 16]⟩ : Shape).Idx → EReal :=
  plus (mm (relu (plus (mm (relu (plus a (rows (M := 560) fun c => b1r (ix2 (0 : Fin 1) c)))) w2)
    (rows (M := 560) fun c => b2r (ix2 (0 : Fin 1) c)))) wh) (rows (M := 560) fun c => bhr (ix2 (0 : Fin 1) c))

/-- The second layer's product record is the plain `[560, 1024] × [1024, 1024]` product. -/
theorem dot2_plain : dot_S560x1024_S1024x1024_S560x1024_1_0_0_1_n_n = DotDims.plain 560 1024 1024 := rfl

/-- The output map's product record is the plain `[560, 1024] × [1024, 16]` product. -/
theorem dotH_plain : dot_S560x1024_S1024x16_S560x16_1_0_0_1_n_n = DotDims.plain 560 1024 16 := rfl

/-- The splat of the zero word is the zero the cut compares against. -/
theorem pay11_eq : (k0_pay11 (F := Ideal) : FVec Ideal S560x1024 .f32)
    = broadcast S560x1024 (Scalar.ofBits (F := Ideal) .f32 0x00000000#32) := rfl

theorem pay7_eq (a : Vec Ideal S560x1024 .f32) (b1r : Vec Ideal S1x1024 .f32) (w2 : Vec Ideal S1024x1024 .bf16)
    (b2r : Vec Ideal S1x1024 .f32) (wh : Vec Ideal S1024x16 .bf16) (bhr : Vec Ideal S1x16 .f32) :
    k0_pay7 (F := Ideal) a b1r w2 b2r wh bhr = fin16 a b1r w2 b2r wh bhr := by
  unfold k0_pay7 fin16
  simp only [shapeCast_self]
  rw [broadcastTo_eq_rows, broadcastTo_eq_rows, broadcastTo_eq_rows, addf_eq_plus, maximumf_splat_zero,
    matmul_eq_mm _ dot2_plain, addf_eq_plus, maximumf_splat_zero, matmul_eq_mm _ dotH_plain, addf_eq_plus]

theorem pay12_eq (a : Vec Ideal S560x1024 .f32) (b1r : Vec Ideal S1x1024 .f32) (w2 : Vec Ideal S1024x1024 .bf16)
    (b2r : Vec Ideal S1x1024 .f32) (wh : Vec Ideal S1024x16 .bf16) (bhr : Vec Ideal S1x16 .f32) :
    k0_pay12 (F := Ideal) (k0_pay10 a b1r) (k0_pay11 (F := Ideal)) w2 b2r wh bhr = fin16 a b1r w2 b2r wh bhr := by
  unfold k0_pay12 k0_pay10 fin16
  rw [pay11_eq]
  simp only [shapeCast_self]
  rw [broadcastTo_eq_rows, broadcastTo_eq_rows, broadcastTo_eq_rows, addf_eq_plus, maximumf_splat_zero,
    matmul_eq_mm _ dot2_plain, addf_eq_plus, maximumf_splat_zero, matmul_eq_mm _ dotH_plain, addf_eq_plus]

theorem pay4_eq (a : Vec Ideal S560x1024 .f32) (b1r : Vec Ideal S1x1024 .f32) (w2 : Vec Ideal S1024x1024 .bf16)
    (b2r : Vec Ideal S1x1024 .f32) (wh : Vec Ideal S1024x16 .bf16) (bhr : Vec Ideal S1x16 .f32) :
    k0_pay4 (F := Ideal) (k0_pay15 a b1r w2) (k0_pay16 b2r) wh bhr = fin16 a b1r w2 b2r wh bhr := by
  unfold k0_pay4 k0_pay15 k0_pay16 fin16
  simp only [shapeCast_self]
  rw [broadcastTo_eq_rows, broadcastTo_eq_rows, broadcastTo_eq_rows, addf_eq_plus, maximumf_splat_zero,
    matmul_eq_mm _ dot2_plain, addf_eq_plus, maximumf_splat_zero, matmul_eq_mm _ dotH_plain, addf_eq_plus]

/-! ## The two column slices: the first four columns and the last twelve -/

/-- The first four of sixteen columns, read at `(p, q)`, are the sixteen-column array at `(p, q)`. -/
theorem slice4_apply (x : FVec Ideal S560x16 .f32) (p : Fin 560) (q : Fin 4) :
    extractStridedSlice S560x4 ![0, 0] x slices_S560x16_o0_0_S560x4 (ix2 p q) = x (ix2 p (⟨q.val, by omega⟩ : Fin 16)) :=
  extractStridedSlice_apply _ x _ (ix2 p q) (ix2 p (⟨q.val, by omega⟩ : Fin 16)) fun c => by
    match c with
    | ⟨0, _⟩ => exact (Nat.zero_add _).symm
    | ⟨1, _⟩ => exact (Nat.zero_add _).symm

/-- The last twelve of sixteen columns, read at `(p, q)`, are the sixteen-column array at `(p, q + 4)`. -/
theorem slice12_apply (x : FVec Ideal S560x16 .f32) (p : Fin 560) (q : Fin 12) :
    extractStridedSlice S560x12 ![0, 4] x slices_S560x16_o0_4_S560x12 (ix2 p q) = x (ix2 p (⟨q.val + 4, by omega⟩ : Fin 16)) :=
  extractStridedSlice_apply _ x _ (ix2 p q) (ix2 p (⟨q.val + 4, by omega⟩ : Fin 16)) fun c => by
    match c with
    | ⟨0, _⟩ => exact (Nat.zero_add _).symm
    | ⟨1, _⟩ => exact Nat.add_comm _ _

theorem pay8_apply (a : Vec Ideal S560x1024 .f32) (b1r : Vec Ideal S1x1024 .f32) (w2 : Vec Ideal S1024x1024 .bf16)
    (b2r : Vec Ideal S1x1024 .f32) (wh : Vec Ideal S1024x16 .bf16) (bhr : Vec Ideal S1x16 .f32) (p : Fin 560) (q : Fin 4) :
    k0_pay8 (F := Ideal) a b1r w2 b2r wh bhr (ix2 p q) = fin16 a b1r w2 b2r wh bhr (ix2 p ⟨q.val, by omega⟩) := by
  unfold k0_pay8
  rw [pay7_eq]
  exact slice4_apply _ p q

theorem pay9_apply (a : Vec Ideal S560x1024 .f32) (b1r : Vec Ideal S1x1024 .f32) (w2 : Vec Ideal S1024x1024 .bf16)
    (b2r : Vec Ideal S1x1024 .f32) (wh : Vec Ideal S1024x16 .bf16) (bhr : Vec Ideal S1x16 .f32) (p : Fin 560) (q : Fin 12) :
    k0_pay9 (F := Ideal) a b1r w2 b2r wh bhr (ix2 p q) = fin16 a b1r w2 b2r wh bhr (ix2 p ⟨q.val + 4, by omega⟩) := by
  unfold k0_pay9
  rw [pay7_eq]
  exact slice12_apply _ p q

theorem pay13_apply (a : Vec Ideal S560x1024 .f32) (b1r : Vec Ideal S1x1024 .f32) (w2 : Vec Ideal S1024x1024 .bf16)
    (b2r : Vec Ideal S1x1024 .f32) (wh : Vec Ideal S1024x16 .bf16) (bhr : Vec Ideal S1x16 .f32) (p : Fin 560) (q : Fin 4) :
    k0_pay13 (F := Ideal) (k0_pay10 a b1r) (k0_pay11 (F := Ideal)) w2 b2r wh bhr (ix2 p q)
      = fin16 a b1r w2 b2r wh bhr (ix2 p ⟨q.val, by omega⟩) := by
  unfold k0_pay13
  rw [pay12_eq]
  exact slice4_apply _ p q

theorem pay14_apply (a : Vec Ideal S560x1024 .f32) (b1r : Vec Ideal S1x1024 .f32) (w2 : Vec Ideal S1024x1024 .bf16)
    (b2r : Vec Ideal S1x1024 .f32) (wh : Vec Ideal S1024x16 .bf16) (bhr : Vec Ideal S1x16 .f32) (p : Fin 560) (q : Fin 12) :
    k0_pay14 (F := Ideal) (k0_pay10 a b1r) (k0_pay11 (F := Ideal)) w2 b2r wh bhr (ix2 p q)
      = fin16 a b1r w2 b2r wh bhr (ix2 p ⟨q.val + 4, by omega⟩) := by
  unfold k0_pay14
  rw [pay12_eq]
  exact slice12_apply _ p q

theorem pay5_apply (a : Vec Ideal S560x1024 .f32) (b1r : Vec Ideal S1x1024 .f32) (w2 : Vec Ideal S1024x1024 .bf16)
    (b2r : Vec Ideal S1x1024 .f32) (wh : Vec Ideal S1024x16 .bf16) (bhr : Vec Ideal S1x16 .f32) (p : Fin 560) (q : Fin 4) :
    k0_pay5 (F := Ideal) (k0_pay15 a b1r w2) (k0_pay16 b2r) wh bhr (ix2 p q)
      = fin16 a b1r w2 b2r wh bhr (ix2 p ⟨q.val, by omega⟩) := by
  unfold k0_pay5
  rw [pay4_eq]
  exact slice4_apply _ p q

theorem pay6_apply (a : Vec Ideal S560x1024 .f32) (b1r : Vec Ideal S1x1024 .f32) (w2 : Vec Ideal S1024x1024 .bf16)
    (b2r : Vec Ideal S1x1024 .f32) (wh : Vec Ideal S1024x16 .bf16) (bhr : Vec Ideal S1x16 .f32) (p : Fin 560) (q : Fin 12) :
    k0_pay6 (F := Ideal) (k0_pay15 a b1r w2) (k0_pay16 b2r) wh bhr (ix2 p q)
      = fin16 a b1r w2 b2r wh bhr (ix2 p ⟨q.val + 4, by omega⟩) := by
  unfold k0_pay6
  rw [pay4_eq]
  exact slice12_apply _ p q

/-! ## The finishing step is the head from the first product onwards -/

/-- Columns `off, …, off + C − 1` of the finishing step are the head with `C` outputs, when the bias rows are the
    bias vectors, the second layer's matrix is stored transposed (input feature by output feature), and those columns
    of the output matrix and of its bias row are the transposed output weights and the output bias. -/
theorem fin16_head {C : ℕ} (off : ℕ) (hoff : off + C ≤ 16) (a : FVec Ideal S560x1024 .f32) (b1r : Vec Ideal S1x1024 .f32)
    (w2 : Vec Ideal S1024x1024 .bf16) (b2r : Vec Ideal S1x1024 .f32) (wh : Vec Ideal S1024x16 .bf16) (bhr : Vec Ideal S1x16 .f32)
    (b1 : (⟨1, ![1024]⟩ : Shape).Idx → EReal) (W2 : (⟨2, ![1024, 1024]⟩ : Shape).Idx → EReal) (b2 : (⟨1, ![1024]⟩ : Shape).Idx → EReal)
    (Wo : (⟨2, ![C, 1024]⟩ : Shape).Idx → EReal) (bo : (⟨1, ![C]⟩ : Shape).Idx → EReal)
    (hb1 : ∀ c : Fin 1024, b1r (ix2 (0 : Fin 1) c) = b1 (ix1 c)) (hw2 : ∀ k j : Fin 1024, w2 (ix2 k j) = W2 (ix2 j k))
    (hb2 : ∀ c : Fin 1024, b2r (ix2 (0 : Fin 1) c) = b2 (ix1 c))
    (hwh : ∀ (k : Fin 1024) (q : Fin C), wh (ix2 k (⟨off + q.val, by omega⟩ : Fin 16)) = Wo (ix2 q k))
    (hbh : ∀ q : Fin C, bhr (ix2 (0 : Fin 1) (⟨off + q.val, by omega⟩ : Fin 16)) = bo (ix1 q))
    (p : Fin 560) (q : Fin C) :
    fin16 a b1r w2 b2r wh bhr (ix2 p (⟨off + q.val, by omega⟩ : Fin 16)) = headFrom a b1 W2 b2 Wo bo (ix2 p q) := by
  show (∑ k : Fin 1024, max ((∑ j : Fin 1024, max (a (ix2 p j) + b1r (ix2 (0 : Fin 1) j)) 0 * w2 (ix2 j k))
        + b2r (ix2 (0 : Fin 1) k)) 0 * wh (ix2 k (⟨off + q.val, by omega⟩ : Fin 16)))
      + bhr (ix2 (0 : Fin 1) (⟨off + q.val, by omega⟩ : Fin 16))
    = (∑ k : Fin 1024, max ((∑ j : Fin 1024, max (a (ix2 p j) + b1 (ix1 j)) 0 * W2 (ix2 k j)) + b2 (ix1 k)) 0 * Wo (ix2 q k))
      + bo (ix1 q)
  rw [hbh q]
  refine congrArg (· + bo (ix1 q)) (Finset.sum_congr rfl fun k _ => ?_)
  rw [hwh k q, hb2 k]
  refine congrArg (fun t => max (t + b2 (ix1 k)) 0 * Wo (ix2 q k)) (Finset.sum_congr rfl fun j _ => ?_)
  rw [hb1 j, hw2 j k]

/-! ## The first layer's product -/

/-- The `[M, K] × [N, K]` product that contracts the last axis of both operands: its sum over the contraction index,
    at output `(p, q)`, is the sum over `k : Fin K` of the left operand at `(p, k)` times the right operand at `(q, k)`. -/
theorem dot_transposed_sum {M K N : ℕ} (D : DotDims ⟨2, ![M, K]⟩ ⟨2, ![N, K]⟩ ⟨2, ![M, N]⟩) (hD : D = DotDims.transposedRhs M K N)
    (l : (⟨2, ![M, K]⟩ : Shape).Idx → EReal) (r : (⟨2, ![N, K]⟩ : Shape).Idx → EReal) (p : Fin M) (q : Fin N) :
    ∑ k : D.contr.Idx, l (D.lhsIdx (ix2 p q) k) * r (D.rhsIdx (ix2 p q) k) = ∑ k : Fin K, l (ix2 p k) * r (ix2 q k) := by
  subst hD
  rw [← Equiv.sum_comp (contrEquiv1 (DotDims.transposedRhs M K N) K rfl rfl).symm]
  refine Finset.sum_congr rfl fun k _ => ?_
  have e := contrEquiv1_symm_val (DotDims.transposedRhs M K N) K rfl rfl k
  have hl : (DotDims.transposedRhs M K N).lhsIdx (ix2 p q) ((contrEquiv1 (DotDims.transposedRhs M K N) K rfl rfl).symm k) = ix2 p k :=
    funext fun c => Fin.ext (by
      match c with
      | ⟨0, _⟩ => rfl
      | ⟨1, _⟩ => exact ((DotDims.transposedRhs M K N).lhsIdx_val_of_single (cl := (1 : Fin 2)) rfl _ _).trans e)
  have hr : (DotDims.transposedRhs M K N).rhsIdx (ix2 p q) ((contrEquiv1 (DotDims.transposedRhs M K N) K rfl rfl).symm k) = ix2 q k :=
    funext fun c => Fin.ext (by
      match c with
      | ⟨0, _⟩ => rfl
      | ⟨1, _⟩ => exact ((DotDims.transposedRhs M K N).rhsIdx_val_of_single (cr := (1 : Fin 2)) rfl _ _).trans e)
  rw [hl, hr]

/-- Such a product accumulated into the zero splat is `X · Wᵀ`. -/
theorem matmul_eq_mmT {M K N : ℕ} (D : DotDims ⟨2, ![M, K]⟩ ⟨2, ![N, K]⟩ ⟨2, ![M, N]⟩) (hD : D = DotDims.transposedRhs M K N)
    {φ₁ φ₂ : FTy} (L : FVec Ideal ⟨2, ![M, K]⟩ φ₁) (R : FVec Ideal ⟨2, ![N, K]⟩ φ₂) :
    matmul D none L R (constant ⟨2, ![M, N]⟩ .f32 0x00000000#32) = mmT L R := by
  funext i
  obtain ⟨p, q, rfl⟩ : ∃ (p : Fin M) (q : Fin N), i = ix2 p q := ⟨i 0, i 1, eq_ix2 i⟩
  exact (Ideal.matmul_constant_zero_apply D none L R (ix2 p q)).trans (dot_transposed_sum D hD L R p q)

/-- The first layer's product record contracts the last axis of both operands. -/
theorem dot1_transposed : dot_S1680x1792_S1024x1792_S1680x1024_1_1_0_0_n_n = DotDims.transposedRhs 1680 1792 1024 := rfl

theorem pay1_eq (v0 : Vec Ideal S1680x1792 .f32) (v1 : Vec Ideal S1024x1792 .f32) :
    k0_pay1 (F := Ideal) v0 v1 = mmT v0 v1 := by
  unfold k0_pay1
  exact matmul_eq_mmT _ dot1_transposed v0 v1

theorem pay2_eq (v0 : Vec Ideal S1680x1792 .f32) (v1 : Vec Ideal S1024x1792 .f32) :
    k0_pay2 (F := Ideal) v0 v1 = mmT v0 v1 := by
  unfold k0_pay2
  rw [pay1_eq]
  exact shapeCast_self _ _

theorem pay3_eq (v0 : Vec Ideal S1680x1792 .f32) (v1 : Vec Ideal S1024x1792 .f32) (v12 : Vec Ideal S1680x1024 .f32) :
    k0_pay3 (F := Ideal) v0 v1 v12 = plus v12 (mmT v0 v1) := by
  unfold k0_pay3
  rw [pay1_eq]
  exact shapeCast_self _ _

/-! ## A sum over the features, block by block -/

/-- A sum over `m · n` positions is the sum over `m` blocks of the sums over the `n` positions of each block. -/
theorem sum_blocks_of (m n : ℕ) (f : Fin (m * n) → EReal) :
    ∑ k : Fin (m * n), f k = ∑ a : Fin m, ∑ b : Fin n, f ⟨a.val * n + b.val,
      Nat.lt_of_lt_of_le (Nat.add_lt_add_left b.isLt _) (by rw [← Nat.succ_mul]; exact Nat.mul_le_mul_right _ a.isLt)⟩ := by
  rw [← Equiv.sum_comp finProdFinEquiv f, Fintype.sum_prod_type]
  refine Finset.sum_congr rfl fun a _ => Finset.sum_congr rfl fun b _ => congrArg f (Fin.ext ?_)
  show b.val + n * a.val = a.val * n + b.val
  rw [Nat.mul_comm, Nat.add_comm]

/-- The 12544 features are seven blocks of 1792. -/
theorem sum_blocks (f : Fin 12544 → EReal) : ∑ k : Fin 12544, f k = ∑ kb : Fin 7, ∑ kk : Fin 1792,
    f ⟨kb.val * 1792 + kk.val, by have := kb.isLt; have := kk.isLt; omega⟩ :=
  sum_blocks_of 7 1792 f

end Cert.BoxHead.Pay

end
-- ==== Proof.HostOps.lean ====
/-
  What the host operations before the region leave in the arrays the region's windows stage, read at an index, over
  the extended reals: each bias as one row, the second weight matrix transposed, and the two output heads joined —
  the class rows and then the box rows of the output weights, transposed so that the joined outputs run along the
  columns, and the class biases followed by the box biases as one row. A change of float format is the identity here.
-/
import proofs.«125935_g42133629174425_cont_8to1_b_514_18_alg».proof.Proof.Spec
import proofs.«125935_g42133629174425_cont_8to1_b_514_18_alg».proof.Proof.Gen.KernelIdeal.Frame

noncomputable section

namespace Cert.BoxHead.Host

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (c : Dev nD)

/-! ## The arrays as the operations' terms -/

/-- The first bias as one row. -/
theorem V_v5_eq : (V m c main_v5 : S1x1024.Idx → EReal)
    = shapeCast S1x1024 (m ((c : Thread nD τ).loc main_arg2)) shapeCasts_S1024_S1x1024 := by
  dsimp only [Gen.V, Gen.hostOps0]; after_results; rfl

/-- The second bias as one row. -/
theorem V_v8_eq : (V m c main_v8 : S1x1024.Idx → EReal)
    = shapeCast S1x1024 (m ((c : Thread nD τ).loc main_arg4)) shapeCasts_S1024_S1x1024 := by
  dsimp only [Gen.V, Gen.hostOps0]; after_results; rfl

/-- The second weight matrix transposed (the change to the narrower float format is the identity). -/
theorem V_v7_eq : (V m c main_v7 : S1024x1024.Idx → EReal)
    = transpose S1024x1024 [1, 0] (m ((c : Thread nD τ).loc main_arg3)) transposes_S1024x1024_S1024x1024_1_0 := by
  dsimp only [Gen.V, Gen.hostOps0]; after_results; rfl

/-- The class rows and then the box rows of the output weights, transposed (the change of float format is the identity). -/
theorem V_v2_eq : (V m c main_v2 : S1024x16.Idx → EReal)
    = transpose S1024x16 [1, 0]
        (concatenate S16x1024 0 [⟨S4x1024, m ((c : Thread nD τ).loc main_arg5)⟩, ⟨S12x1024, m ((c : Thread nD τ).loc main_arg7)⟩]
          concatenates_S4x1024_S12x1024_S16x1024_d0)
        transposes_S16x1024_S1024x16_1_0 := by
  dsimp only [Gen.V, Gen.hostOps0]; after_results; rfl

/-- The class biases followed by the box biases, as one row. -/
theorem V_v4_eq : (V m c main_v4 : S1x16.Idx → EReal)
    = shapeCast S1x16
        (concatenate S16 0 [⟨S4, m ((c : Thread nD τ).loc main_arg6)⟩, ⟨S12, m ((c : Thread nD τ).loc main_arg8)⟩]
          concatenates_S4_S12_S16_d0)
        shapeCasts_S16_S1x16 := by
  dsimp only [Gen.V, Gen.hostOps0]; after_results; rfl

/-! ## The arrays at an index -/

/-- The first bias row at column `j` is the first bias at `j`. -/
theorem V_b1 (j : Fin 1024) : (V m c main_v5 : S1x1024.Idx → EReal) (ix2 (0 : Fin 1) j) = m ((c : Thread nD τ).loc main_arg2) (ix1 j) := by
  rw [V_v5_eq]
  exact shapeCast_a_1a_apply _ _ (0 : Fin 1) j

/-- The second bias row at column `j` is the second bias at `j`. -/
theorem V_b2 (j : Fin 1024) : (V m c main_v8 : S1x1024.Idx → EReal) (ix2 (0 : Fin 1) j) = m ((c : Thread nD τ).loc main_arg4) (ix1 j) := by
  rw [V_v8_eq]
  exact shapeCast_a_1a_apply _ _ (0 : Fin 1) j

/-- The staged second weight matrix at `(k, j)` is the second weight matrix at `(j, k)`. -/
theorem V_w2 (k j : Fin 1024) : (V m c main_v7 : S1024x1024.Idx → EReal) (ix2 k j) = m ((c : Thread nD τ).loc main_arg3) (ix2 j k) := by
  rw [V_v7_eq]
  exact transpose_apply [1, 0] (m ((c : Thread nD τ).loc main_arg3)) transposes_S1024x1024_S1024x1024_1_0 (ix2 k j) (ix2 j k)
    (fun b => match b with | ⟨0, _⟩ => rfl | ⟨1, _⟩ => rfl)

/-- The staged output weights at `(k, q)`, `q` among the first four columns, are the class weights at `(q, k)`. -/
theorem V_wh_cls (k : Fin 1024) (q : Fin 4) : (V m c main_v2 : S1024x16.Idx → EReal) (ix2 k (⟨0 + q.val, by omega⟩ : Fin 16)) = m ((c : Thread nD τ).loc main_arg5) (ix2 q k) := by
  rw [V_v2_eq]
  refine (transpose_apply [1, 0] _ transposes_S16x1024_S1024x16_1_0 (ix2 k (⟨0 + q.val, by omega⟩ : Fin 16))
    (ix2 (⟨0 + q.val, by omega⟩ : Fin 16) k) (fun b => match b with | ⟨0, _⟩ => rfl | ⟨1, _⟩ => rfl)).trans ?_
  exact concatenate_pair_apply_left (t := S16x1024) (s₁ := S4x1024) (s₂ := S12x1024) (0 : Fin 2)
    (m ((c : Thread nD τ).loc main_arg5)) (m ((c : Thread nD τ).loc main_arg7)) concatenates_S4x1024_S12x1024_S16x1024_d0
    (ix2 (⟨0 + q.val, by omega⟩ : Fin 16) k) rfl (ix2 q k)
    (fun b => match b with | ⟨0, _⟩ => (Nat.zero_add q.val).symm | ⟨1, _⟩ => rfl)

/-- The staged output weights at `(k, 4 + q)` are the box weights at `(q, k)`. -/
theorem V_wh_box (k : Fin 1024) (q : Fin 12) : (V m c main_v2 : S1024x16.Idx → EReal) (ix2 k (⟨4 + q.val, by omega⟩ : Fin 16)) = m ((c : Thread nD τ).loc main_arg7) (ix2 q k) := by
  rw [V_v2_eq]
  refine (transpose_apply [1, 0] _ transposes_S16x1024_S1024x16_1_0 (ix2 k (⟨4 + q.val, by omega⟩ : Fin 16))
    (ix2 (⟨4 + q.val, by omega⟩ : Fin 16) k) (fun b => match b with | ⟨0, _⟩ => rfl | ⟨1, _⟩ => rfl)).trans ?_
  exact concatenate_pair_apply_right (t := S16x1024) (s₁ := S4x1024) (s₂ := S12x1024) (0 : Fin 2)
    (m ((c : Thread nD τ).loc main_arg5)) (m ((c : Thread nD τ).loc main_arg7)) concatenates_S4x1024_S12x1024_S16x1024_d0
    (ix2 (⟨4 + q.val, by omega⟩ : Fin 16) k) rfl rfl (ix2 q k)
    (fun b hb => match b, hb with | ⟨0, _⟩, hb => absurd rfl hb | ⟨1, _⟩, _ => rfl)
    (Nat.add_comm q.val 4)

/-- The staged output bias row at column `q`, among the first four, is the class bias at `q`. -/
theorem V_bh_cls (q : Fin 4) : (V m c main_v4 : S1x16.Idx → EReal) (ix2 (0 : Fin 1) (⟨0 + q.val, by omega⟩ : Fin 16)) = m ((c : Thread nD τ).loc main_arg6) (ix1 q) := by
  rw [V_v4_eq]
  refine (shapeCast_a_1a_apply _ shapeCasts_S16_S1x16 (0 : Fin 1) (⟨0 + q.val, by omega⟩ : Fin 16)).trans ?_
  exact concatenate_pair_apply_left (t := S16) (s₁ := S4) (s₂ := S12) (0 : Fin 1)
    (m ((c : Thread nD τ).loc main_arg6)) (m ((c : Thread nD τ).loc main_arg8)) concatenates_S4_S12_S16_d0
    (ix1 (⟨0 + q.val, by omega⟩ : Fin 16)) rfl (ix1 q)
    (fun b => match b with | ⟨0, _⟩ => (Nat.zero_add q.val).symm)

/-- The staged output bias row at column `4 + q` is the box bias at `q`. -/
theorem V_bh_box (q : Fin 12) : (V m c main_v4 : S1x16.Idx → EReal) (ix2 (0 : Fin 1) (⟨4 + q.val, by omega⟩ : Fin 16)) = m ((c : Thread nD τ).loc main_arg8) (ix1 q) := by
  rw [V_v4_eq]
  refine (shapeCast_a_1a_apply _ shapeCasts_S16_S1x16 (0 : Fin 1) (⟨4 + q.val, by omega⟩ : Fin 16)).trans ?_
  exact concatenate_pair_apply_right (t := S16) (s₁ := S4) (s₂ := S12) (0 : Fin 1)
    (m ((c : Thread nD τ).loc main_arg6)) (m ((c : Thread nD τ).loc main_arg8)) concatenates_S4_S12_S16_d0
    (ix1 (⟨4 + q.val, by omega⟩ : Fin 16)) rfl rfl (ix1 q)
    (fun b hb => match b, hb with | ⟨0, _⟩, hb => absurd rfl hb)
    (Nat.add_comm q.val 4)

end Cert.BoxHead.Host

end
-- ==== Proof.KIBlocks.lean ====
/-
  What each input buffer holds at a point of the grid, in terms of the argument arrays. Point `t` works on row
  block `t / 7` and feature block `t % 7`: an element of a window's block sits in the window's array at block
  index times block size plus its coordinate inside the block. The feature window's row `p` is array row
  `(t / 7) · 1680 + p` and is moved exactly when that row is inside the array; the first weight matrix's block
  holds all 1024 rows at features `(t % 7) · 1792 + kk`; every other input window's one block is its whole array,
  which the host operations before the region wrote from the arguments.
-/
import proofs.«125935_g42133629174425_cont_8to1_b_514_18_alg».proof.Proof.KIData
import proofs.«125935_g42133629174425_cont_8to1_b_514_18_alg».proof.Proof.HostOps

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.BoxHead

variable (m : (ℓ : Loc nD τ sig) → Buf (Elt Ideal) ℓ) (c : Dev nD)

/-! ## The index maps over the grid -/

/-- The first weight matrix's window: block row 0, block column the feature block. -/
theorem idx_w1 : ∀ t : Fin cfg0.N, win0_1.index t (0 : Fin 2) = 0 ∧ win0_1.index t (1 : Fin 2) = t.val % 7 :=
  (by decide +kernel : ∀ t : Fin grid0.N, _)

/-- The windows whose one block is the whole array. -/
theorem idx_whole : ∀ t : Fin cfg0.N,
    (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0) :=
  (by decide +kernel : ∀ t : Fin grid0.N, _)

/-! ## The first weight matrix's block -/

/-- The block read at `y` is the array as the region finds it at block index times block size plus `y`. -/
theorem read_w1 (t : Fin cfg0.N) (y : S1024x1792.Idx) (i : S1024x12544.Idx)
    (h0 : (i 0).val = (y 0).val) (h1 : (i 1).val = t.val % 7 * 1792 + (y 1).val) :
    (iblk m c 1 t : S1024x1792.Idx → EReal) y = V m c main_arg1 i := by
  obtain ⟨e0, e1⟩ := idx_w1 t
  show V m c main_arg1 (((cfg0.win 1).blk t).view.emb y) = V m c main_arg1 i
  refine congrArg (V m c main_arg1) (funext fun a => Fin.ext ?_)
  match a with
  | ⟨0, _⟩ => show win0_1.index t (0 : Fin 2) * 1024 + 1 * (y 0).val = (i 0).val; omega
  | ⟨1, _⟩ => show win0_1.index t (1 : Fin 2) * 1792 + 1 * (y 1).val = (i 1).val; omega

theorem blk_w1 (t : Fin cfg0.N) (j : Fin 1024) (kk : Fin 1792) : (iblk m c 1 t : S1024x1792.Idx → EReal) (ix2 j kk) = w1At m c j.val (t.val % 7 * 1792 + kk.val) := by
  have ht : t.val < 21 := N_0 ▸ t.isLt
  have hk : t.val % 7 * 1792 + kk.val < 12544 := by have := kk.isLt; omega
  rw [read_w1 m c t (ix2 j kk) (ix2 j ⟨t.val % 7 * 1792 + kk.val, hk⟩) rfl rfl, V_main_arg1]
  unfold w1At
  rw [dif_pos ⟨j.isLt, hk⟩]

/-! ## The windows whose one block is the whole array -/

theorem read_b1 (t : Fin cfg0.N) (y : S1x1024.Idx) : (iblk m c 2 t : S1x1024.Idx → EReal) y = V m c main_v5 y := by
  obtain ⟨⟨e0, e1⟩, -⟩ := idx_whole t
  show V m c main_v5 (((cfg0.win 2).blk t).view.emb y) = V m c main_v5 y
  refine congrArg (V m c main_v5) (funext fun a => Fin.ext ?_)
  match a with
  | ⟨0, _⟩ => show win0_2.index t (0 : Fin 2) * 1 + 1 * (y 0).val = (y 0).val; omega
  | ⟨1, _⟩ => show win0_2.index t (1 : Fin 2) * 1024 + 1 * (y 1).val = (y 1).val; omega

theorem read_w2 (t : Fin cfg0.N) (y : S1024x1024.Idx) : (iblk m c 3 t : S1024x1024.Idx → EReal) y = V m c main_v7 y := by
  obtain ⟨-, ⟨e0, e1⟩, -⟩ := idx_whole t
  show V m c main_v7 (((cfg0.win 3).blk t).view.emb y) = V m c main_v7 y
  refine congrArg (V m c main_v7) (funext fun a => Fin.ext ?_)
  match a with
  | ⟨0, _⟩ => show win0_3.index t (0 : Fin 2) * 1024 + 1 * (y 0).val = (y 0).val; omega
  | ⟨1, _⟩ => show win0_3.index t (1 : Fin 2) * 1024 + 1 * (y 1).val = (y 1).val; omega

theorem read_b2 (t : Fin cfg0.N) (y : S1x1024.Idx) : (iblk m c 4 t : S1x1024.Idx → EReal) y = V m c main_v8 y := by
  obtain ⟨-, -, ⟨e0, e1⟩, -⟩ := idx_whole t
  show V m c main_v8 (((cfg0.win 4).blk t).view.emb y) = V m c main_v8 y
  refine congrArg (V m c main_v8) (funext fun a => Fin.ext ?_)
  match a with
  | ⟨0, _⟩ => show win0_4.index t (0 : Fin 2) * 1 + 1 * (y 0).val = (y 0).val; omega
  | ⟨1, _⟩ => show win0_4.index t (1 : Fin 2) * 1024 + 1 * (y 1).val = (y 1).val; omega

theorem read_wh (t : Fin cfg0.N) (y : S1024x16.Idx) : (iblk m c 5 t : S1024x16.Idx → EReal) y = V m c main_v2 y := by
  obtain ⟨-, -, -, ⟨e0, e1⟩, -⟩ := idx_whole t
  show V m c main_v2 (((cfg0.win 5).blk t).view.emb y) = V m c main_v2 y
  refine congrArg (V m c main_v2) (funext fun a => Fin.ext ?_)
  match a with
  | ⟨0, _⟩ => show win0_5.index t (0 : Fin 2) * 1024 + 1 * (y 0).val = (y 0).val; omega
  | ⟨1, _⟩ => show win0_5.index t (1 : Fin 2) * 16 + 1 * (y 1).val = (y 1).val; omega

theorem read_bh (t : Fin cfg0.N) (y : S1x16.Idx) : (iblk m c 6 t : S1x16.Idx → EReal) y = V m c main_v4 y := by
  obtain ⟨-, -, -, -, e0, e1⟩ := idx_whole t
  show V m c main_v4 (((cfg0.win 6).blk t).view.emb y) = V m c main_v4 y
  refine congrArg (V m c main_v4) (funext fun a => Fin.ext ?_)
  match a with
  | ⟨0, _⟩ => show win0_6.index t (0 : Fin 2) * 1 + 1 * (y 0).val = (y 0).val; omega
  | ⟨1, _⟩ => show win0_6.index t (1 : Fin 2) * 16 + 1 * (y 1).val = (y 1).val; omega

theorem blk_b1 (t : Fin cfg0.N) (j : Fin 1024) : (iblk m c 2 t : S1x1024.Idx → EReal) (ix2 (0 : Fin 1) j) = ab1 m c (ix1 j) := by
  rw [read_b1]; exact Host.V_b1 m c j

theorem blk_w2 (t : Fin cfg0.N) (k j : Fin 1024) : (iblk m c 3 t : S1024x1024.Idx → EReal) (ix2 k j) = aW2 m c (ix2 j k) := by
  rw [read_w2]; exact Host.V_w2 m c k j

theorem blk_b2 (t : Fin cfg0.N) (j : Fin 1024) : (iblk m c 4 t : S1x1024.Idx → EReal) (ix2 (0 : Fin 1) j) = ab2 m c (ix1 j) := by
  rw [read_b2]; exact Host.V_b2 m c j

theorem blk_wh_cls (t : Fin cfg0.N) (k : Fin 1024) (q : Fin 4) : (iblk m c 5 t : S1024x16.Idx → EReal) (ix2 k (⟨0 + q.val, by omega⟩ : Fin 16)) = aWc m c (ix2 q k) := by
  rw [read_wh]; exact Host.V_wh_cls m c k q

theorem blk_wh_box (t : Fin cfg0.N) (k : Fin 1024) (q : Fin 12) : (iblk m c 5 t : S1024x16.Idx → EReal) (ix2 k (⟨4 + q.val, by omega⟩ : Fin 16)) = aWr m c (ix2 q k) := by
  rw [read_wh]; exact Host.V_wh_box m c k q

theorem blk_bh_cls (t : Fin cfg0.N) (q : Fin 4) : (iblk m c 6 t : S1x16.Idx → EReal) (ix2 (0 : Fin 1) (⟨0 + q.val, by omega⟩ : Fin 16)) = abc m c (ix1 q) := by
  rw [read_bh]; exact Host.V_bh_cls m c q

theorem blk_bh_box (t : Fin cfg0.N) (q : Fin 12) : (iblk m c 6 t : S1x16.Idx → EReal) (ix2 (0 : Fin 1) (⟨4 + q.val, by omega⟩ : Fin 16)) = abr m c (ix1 q) := by
  rw [read_bh]; exact Host.V_bh_box m c q

/-! ## The feature window: cut at the array's end on the last row block -/

/-- Block row the row block, block column the feature block; the transfer moves all 1680 rows of the first two
    row blocks and the 1640 rows inside the array of the last, and every column. -/
theorem idx_x : ∀ t : Fin cfg0.N, win0_0.index t (0 : Fin 2) = t.val / 7 ∧ win0_0.index t (1 : Fin 2) = t.val % 7
    ∧ win0_0.xsize (grid0.coords t) (0 : Fin 2) = (if t.val / 7 = 2 then 1640 else 1680)
    ∧ win0_0.xsize (grid0.coords t) (1 : Fin 2) = 1792 :=
  (by decide +kernel : ∀ t : Fin grid0.N, _)

theorem blk_x (t : Fin cfg0.N) (d : S1680x1792.Idx → EReal) (p : Fin 1680) (kk : Fin 1792) (h : rowOf t.val p.val < 5000) : win0_0.fill (grid0.coords t) d (iblk m c 0 t) (ix2 p kk) = xAt m c (rowOf t.val p.val) (t.val % 7 * 1792 + kk.val) := by
  obtain ⟨e0, e1, s0, s1⟩ := idx_x t
  have ht : t.val < 21 := N_0 ▸ t.isLt
  have hp := p.isLt
  have hkk := kk.isLt
  have hk : t.val % 7 * 1792 + kk.val < 12544 := by omega
  have hr : t.val / 7 * 1680 + p.val < 5000 := h
  have hmoved : win0_0.moved (grid0.coords t) (ix2 p kk) = true := (win0_0.moved_iff _ _).mpr fun a => by
    match a with
    | ⟨0, _⟩ => show p.val < win0_0.xsize (grid0.coords t) (0 : Fin 2); rw [s0]; split <;> omega
    | ⟨1, _⟩ => show kk.val < win0_0.xsize (grid0.coords t) (1 : Fin 2); rw [s1]; exact hkk
  unfold Window.fill
  rw [dif_pos hmoved]
  refine Eq.trans (?_ : _ = V m c main_arg0 (ix2 ⟨t.val / 7 * 1680 + p.val, hr⟩ ⟨t.val % 7 * 1792 + kk.val, hk⟩)) ?_
  · show V m c main_arg0 (((cfg0.win 0).blk t).view.emb _) = _
    refine congrArg (V m c main_arg0) (funext fun a => Fin.ext ?_)
    match a with
    | ⟨0, _⟩ => show win0_0.index t (0 : Fin 2) * 1680 + 1 * p.val = t.val / 7 * 1680 + p.val; omega
    | ⟨1, _⟩ => show win0_0.index t (1 : Fin 2) * 1792 + 1 * kk.val = t.val % 7 * 1792 + kk.val; omega
  · rw [V_main_arg0]
    unfold xAt rowOf
    rw [dif_pos ⟨hr, hk⟩]

end Cert.KernelIdeal.Body

end
-- ==== Proof.KIPieces.lean ====
/-
  What the accumulator and the two output buffers hold after the body, as plain functions over the extended reals.
  The accumulator is stored whole: at the first feature block it holds the product of the point's feature block with
  the matching weight block, at every later block what it held plus that product. At the last feature block each
  third of the accumulator's rows (560 rows) goes through the finishing step, whose first four columns are stored
  into the same rows of the first output buffer and whose other twelve into the same rows of the second.
-/
import Idealize.ShloMosaic.Lib.WritesUnit
import proofs.«125935_g42133629174425_cont_8to1_b_514_18_alg».proof.Proof.KIRunFirst
import proofs.«125935_g42133629174425_cont_8to1_b_514_18_alg».proof.Proof.KIRunMid
import proofs.«125935_g42133629174425_cont_8to1_b_514_18_alg».proof.Proof.KIRunLast
import proofs.«125935_g42133629174425_cont_8to1_b_514_18_alg».proof.Proof.PayValue

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.BoxHead Cert.DenseLib Cert.BoxHead.Pay

variable {F : FTy → Type} [FloatOps F]

local notation "𝕄" => MT nD τ sig Unit (Elt F) ℕ (UR sig nD τ) ℕ

/-- The offsets of a rectangle that starts at the origin are zero on both axes. -/
theorem origin2 : (![0, 0] : Fin 2 → Nat) = fun _ => 0 := funext fun a => by fin_cases a <;> rfl

/-- Rows `o, …, o + 559` of a `[1680, 1024]` array, as a `[560, 1024]` array. -/
def rows560 (o : ℕ) (ho : o + 560 ≤ 1680) (a : (⟨2, ![1680, 1024]⟩ : Shape).Idx → EReal) :
    (⟨2, ![560, 1024]⟩ : Shape).Idx → EReal :=
  fun j => a (ix2 (⟨o + (j 0).val, by have : (j 0).val < 560 := (j 0).isLt; omega⟩ : Fin 1680) (⟨(j 1).val, (j 1).isLt⟩ : Fin 1024))

/-! ## The accumulator -/

/-- At the first feature block the accumulator ends as the blocks' product, whatever it held. -/
theorem accFirst_eq (c : Dev nD) (i : grid0.Coords) (arg2 : Memref sig .tc .vmem S1680x1792 .f32) (harg2 : arg2.IsWhole) (arg3 : Memref sig .tc .vmem S1024x1792 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x16 .bf16) (harg7 : arg7.IsWhole) (arg8 : Memref sig .tc .vmem S1x16 .f32) (harg8 : arg8.IsWhole) (arg9 : Memref sig .tc .vmem S1680x4 .f32) (harg9 : arg9.IsWhole) (arg10 : Memref sig .tc .vmem S1680x12 .f32) (harg10 : arg10.IsWhole) (arg11 : Memref sig .tc .vmem S1680x1024 .f32) (harg11 : arg11.IsWhole)
    (hc0 : condFirst i) (hc1 : ¬condLater i) (hc2 : ¬condLast i) (x0 : Vec Ideal S1680x1792 .f32) (x1 : Vec Ideal S1024x1792 .f32) (x2 : Vec Ideal S1x1024 .f32) (x3 : Vec Ideal S1024x1024 .bf16) (x4 : Vec Ideal S1x1024 .f32) (x5 : Vec Ideal S1024x16 .bf16) (x6 : Vec Ideal S1x16 .f32)
    (f : arg11.view.ty.Contents (Elt Ideal)) :
    arg11.view.read (Elt Ideal) (arg11.view.writes (Elt Ideal) f (runFirst (F := Ideal) c i arg2 harg2 arg3 harg3 arg4 harg4 arg5 harg5 arg6 harg6 arg7 harg7 arg8 harg8 arg9 harg9 arg10 harg10 arg11 harg11 hc0 hc1 hc2 x0 x1 x2 x3 x4 x5 x6).1) = mmT x0 x1 := by
  unfold runFirst; dsimp only
  rw [View.read_writes_eq_canon _ _ _ (fun y => ⟨_, List.mem_singleton_self _, View.mem_set_unit_zero origin2 inb_S1680x1024_S1680x1024_0_0 y⟩),
    View.canon_unit_zero origin2]
  simp only [View.readAt_eq_ld, harg2.read_unread, harg3.read_unread,
    View.ld_unit_zero (S := S1680x1792) origin2, View.ld_unit_zero (S := S1024x1792) origin2]
  exact pay2_eq x0 x1

/-- At a middle feature block it ends as what it held plus the blocks' product. -/
theorem accMid_eq (c : Dev nD) (i : grid0.Coords) (arg2 : Memref sig .tc .vmem S1680x1792 .f32) (harg2 : arg2.IsWhole) (arg3 : Memref sig .tc .vmem S1024x1792 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x16 .bf16) (harg7 : arg7.IsWhole) (arg8 : Memref sig .tc .vmem S1x16 .f32) (harg8 : arg8.IsWhole) (arg9 : Memref sig .tc .vmem S1680x4 .f32) (harg9 : arg9.IsWhole) (arg10 : Memref sig .tc .vmem S1680x12 .f32) (harg10 : arg10.IsWhole) (arg11 : Memref sig .tc .vmem S1680x1024 .f32) (harg11 : arg11.IsWhole)
    (hc0 : ¬condFirst i) (hc1 : condLater i) (hc2 : ¬condLast i) (x0 : Vec Ideal S1680x1792 .f32) (x1 : Vec Ideal S1024x1792 .f32) (x2 : Vec Ideal S1x1024 .f32) (x3 : Vec Ideal S1024x1024 .bf16) (x4 : Vec Ideal S1x1024 .f32) (x5 : Vec Ideal S1024x16 .bf16) (x6 : Vec Ideal S1x16 .f32) (xs : Vec Ideal S1680x1024 .f32)
    (f : arg11.view.ty.Contents (Elt Ideal)) :
    arg11.view.read (Elt Ideal) (arg11.view.writes (Elt Ideal) f (runMid (F := Ideal) c i arg2 harg2 arg3 harg3 arg4 harg4 arg5 harg5 arg6 harg6 arg7 harg7 arg8 harg8 arg9 harg9 arg10 harg10 arg11 harg11 hc0 hc1 hc2 x0 x1 x2 x3 x4 x5 x6 xs).1) = plus xs (mmT x0 x1) := by
  unfold runMid; dsimp only
  rw [View.read_writes_eq_canon _ _ _ (fun y => ⟨_, List.mem_singleton_self _, View.mem_set_unit_zero origin2 inb_S1680x1024_S1680x1024_0_0 y⟩),
    View.canon_unit_zero origin2]
  simp only [View.readAt_eq_ld, harg2.read_unread, harg3.read_unread, harg11.read_unread,
    View.ld_unit_zero (S := S1680x1792) origin2, View.ld_unit_zero (S := S1024x1792) origin2,
    View.ld_unit_zero (S := S1680x1024) origin2]
  exact pay3_eq x0 x1 xs

/-- At the last feature block likewise. -/
theorem accLast_eq (c : Dev nD) (i : grid0.Coords) (arg2 : Memref sig .tc .vmem S1680x1792 .f32) (harg2 : arg2.IsWhole) (arg3 : Memref sig .tc .vmem S1024x1792 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x16 .bf16) (harg7 : arg7.IsWhole) (arg8 : Memref sig .tc .vmem S1x16 .f32) (harg8 : arg8.IsWhole) (arg9 : Memref sig .tc .vmem S1680x4 .f32) (harg9 : arg9.IsWhole) (arg10 : Memref sig .tc .vmem S1680x12 .f32) (harg10 : arg10.IsWhole) (arg11 : Memref sig .tc .vmem S1680x1024 .f32) (harg11 : arg11.IsWhole)
    (hc0 : ¬condFirst i) (hc1 : condLater i) (hc2 : condLast i) (x0 : Vec Ideal S1680x1792 .f32) (x1 : Vec Ideal S1024x1792 .f32) (x2 : Vec Ideal S1x1024 .f32) (x3 : Vec Ideal S1024x1024 .bf16) (x4 : Vec Ideal S1x1024 .f32) (x5 : Vec Ideal S1024x16 .bf16) (x6 : Vec Ideal S1x16 .f32) (xs : Vec Ideal S1680x1024 .f32)
    (f : arg11.view.ty.Contents (Elt Ideal)) :
    arg11.view.read (Elt Ideal) (arg11.view.writes (Elt Ideal) f (runLast (F := Ideal) c i arg2 harg2 arg3 harg3 arg4 harg4 arg5 harg5 arg6 harg6 arg7 harg7 arg8 harg8 arg9 harg9 arg10 harg10 arg11 harg11 hc0 hc1 hc2 x0 x1 x2 x3 x4 x5 x6 xs).2.2.1) = plus xs (mmT x0 x1) := by
  unfold runLast; dsimp only; sl_unfold_words
  rw [View.read_writes_eq_canon _ _ _ (fun y => ⟨_, List.mem_singleton_self _, View.mem_set_unit_zero origin2 inb_S1680x1024_S1680x1024_0_0 y⟩),
    View.canon_unit_zero origin2]
  simp only [View.readAt_eq_ld, harg2.read_unread, harg3.read_unread, harg11.read_unread,
    View.ld_unit_zero (S := S1680x1792) origin2, View.ld_unit_zero (S := S1024x1792) origin2,
    View.ld_unit_zero (S := S1680x1024) origin2]
  exact pay3_eq x0 x1 xs

/-! ## Rows read back, and three row blocks stored -/

/-- A load of rows `o, …, o + 559` after ONE store of the whole `[1680, 1024]` buffer reads those rows of what was
    stored. -/
theorem readCov_rows560 (m : Memref sig .tc .vmem S1680x1024 .f32) (w : S1680x1024.Idx → Elt Ideal .f32)
    (inbW : ∀ a, (![0, 0] : Fin 2 → Nat) a + S1680x1024.size a ≤ S1680x1024.size a)
    (o : ℕ) (ho : o + 560 ≤ 1680) (inb : ∀ a, (![o, 0] : Fin 2 → Nat) a + S560x1024.size a ≤ S1680x1024.size a) :
    m.view.readCov [(⟨Rect.unit (s := S1680x1024) ![0, 0] ![1680, 1024] inbW, w⟩ : View.Piece (Elt Ideal) S1680x1024 .f32)]
        (Rect.unit (s := S1680x1024) ![o, 0] S560x1024.size inb).toLoadRect = rows560 o ho w := by
  rw [View.readCov_eq_canon', View.canon_unit_zero origin2]
  funext j
  refine congrArg w (funext fun a => Fin.ext ?_)
  match a with
  | ⟨0, _⟩ => show o + 1 * (j 0).val = o + (j 0).val; omega
  | ⟨1, _⟩ => show 0 + 1 * (j 1).val = (j 1).val; omega

/-! ## Three row blocks stored, the last store first

A buffer of 1680 rows is written in three stores of 560 rows each: rows 0 to 559 first, then rows 560 to 1119, then rows
1120 to 1679, so the list of pieces (newest first) starts with the rows from 1120. A row reads the payload of the block
that holds it, at its position within the block; the newer stores' rows all lie below it. -/

/-- Row `1120 + p` reads the newest piece's payload at row `p`. -/
theorem read_block2 {C : ℕ} (m : Memref sig .tc .vmem (⟨2, ![1680, C]⟩ : Shape) .f32) (f : m.view.ty.Contents (Elt Ideal))
    (inb2 : ∀ a, (![1120, 0] : Fin 2 → Nat) a + (![560, C] : Fin 2 → Nat) a ≤ (⟨2, ![1680, C]⟩ : Shape).size a) (w2 : (⟨2, ![560, C]⟩ : Shape).Idx → EReal)
    (L : List (View.Piece (Elt Ideal) (⟨2, ![1680, C]⟩ : Shape) .f32)) (r : Fin 1680) (p : Fin 560) (hr : r.val = 1120 + p.val) (q : Fin C) :
    m.view.read (Elt Ideal) (m.view.writes (Elt Ideal) f ((⟨Rect.unit (s := (⟨2, ![1680, C]⟩ : Shape)) ![1120, 0] ![560, C] inb2, w2⟩ : View.Piece (Elt Ideal) (⟨2, ![1680, C]⟩ : Shape) .f32) :: L)) (ix2 r q) = w2 (ix2 p q) :=
  View.read_writes_cons_rows_of_mem m.view f inb2 w2 L (ix2 r q) (ix2 p q) rfl hr rfl

/-- Row `560 + p` reads the second piece's payload at row `p`. -/
theorem read_block1 {C : ℕ} (m : Memref sig .tc .vmem (⟨2, ![1680, C]⟩ : Shape) .f32) (f : m.view.ty.Contents (Elt Ideal))
    (inb2 : ∀ a, (![1120, 0] : Fin 2 → Nat) a + (![560, C] : Fin 2 → Nat) a ≤ (⟨2, ![1680, C]⟩ : Shape).size a) (w2 : (⟨2, ![560, C]⟩ : Shape).Idx → EReal)
    (inb1 : ∀ a, (![560, 0] : Fin 2 → Nat) a + (![560, C] : Fin 2 → Nat) a ≤ (⟨2, ![1680, C]⟩ : Shape).size a) (w1 : (⟨2, ![560, C]⟩ : Shape).Idx → EReal)
    (L : List (View.Piece (Elt Ideal) (⟨2, ![1680, C]⟩ : Shape) .f32)) (r : Fin 1680) (p : Fin 560) (hr : r.val = 560 + p.val) (q : Fin C) :
    m.view.read (Elt Ideal) (m.view.writes (Elt Ideal) f ((⟨Rect.unit (s := (⟨2, ![1680, C]⟩ : Shape)) ![1120, 0] ![560, C] inb2, w2⟩ : View.Piece (Elt Ideal) (⟨2, ![1680, C]⟩ : Shape) .f32) :: (⟨Rect.unit (s := (⟨2, ![1680, C]⟩ : Shape)) ![560, 0] ![560, C] inb1, w1⟩ : View.Piece (Elt Ideal) (⟨2, ![1680, C]⟩ : Shape) .f32) :: L)) (ix2 r q)
      = w1 (ix2 p q) := by
  have hp := p.isLt
  refine (View.read_writes_cons_rows_of_not_mem m.view f inb2 w2 _ (ix2 r q) rfl rfl (Or.inl ?_)).trans ?_
  · show r.val < 1120; omega
  exact View.read_writes_cons_rows_of_mem m.view f inb1 w1 L (ix2 r q) (ix2 p q) rfl hr rfl

/-- Row `p` reads the third piece's payload at row `p`. -/
theorem read_block0 {C : ℕ} (m : Memref sig .tc .vmem (⟨2, ![1680, C]⟩ : Shape) .f32) (f : m.view.ty.Contents (Elt Ideal))
    (inb2 : ∀ a, (![1120, 0] : Fin 2 → Nat) a + (![560, C] : Fin 2 → Nat) a ≤ (⟨2, ![1680, C]⟩ : Shape).size a) (w2 : (⟨2, ![560, C]⟩ : Shape).Idx → EReal)
    (inb1 : ∀ a, (![560, 0] : Fin 2 → Nat) a + (![560, C] : Fin 2 → Nat) a ≤ (⟨2, ![1680, C]⟩ : Shape).size a) (w1 : (⟨2, ![560, C]⟩ : Shape).Idx → EReal)
    (inb0 : ∀ a, (![0, 0] : Fin 2 → Nat) a + (![560, C] : Fin 2 → Nat) a ≤ (⟨2, ![1680, C]⟩ : Shape).size a) (w0 : (⟨2, ![560, C]⟩ : Shape).Idx → EReal)
    (L : List (View.Piece (Elt Ideal) (⟨2, ![1680, C]⟩ : Shape) .f32)) (r : Fin 1680) (p : Fin 560) (hr : r.val = 0 + p.val) (q : Fin C) :
    m.view.read (Elt Ideal) (m.view.writes (Elt Ideal) f ((⟨Rect.unit (s := (⟨2, ![1680, C]⟩ : Shape)) ![1120, 0] ![560, C] inb2, w2⟩ : View.Piece (Elt Ideal) (⟨2, ![1680, C]⟩ : Shape) .f32) :: (⟨Rect.unit (s := (⟨2, ![1680, C]⟩ : Shape)) ![560, 0] ![560, C] inb1, w1⟩ : View.Piece (Elt Ideal) (⟨2, ![1680, C]⟩ : Shape) .f32) :: (⟨Rect.unit (s := (⟨2, ![1680, C]⟩ : Shape)) ![0, 0] ![560, C] inb0, w0⟩ : View.Piece (Elt Ideal) (⟨2, ![1680, C]⟩ : Shape) .f32) :: L)) (ix2 r q)
      = w0 (ix2 p q) := by
  have hp := p.isLt
  refine (View.read_writes_cons_rows_of_not_mem m.view f inb2 w2 _ (ix2 r q) rfl rfl (Or.inl ?_)).trans ?_
  · show r.val < 1120; omega
  refine (View.read_writes_cons_rows_of_not_mem m.view f inb1 w1 _ (ix2 r q) rfl rfl (Or.inl ?_)).trans ?_
  · show r.val < 560; omega
  exact View.read_writes_cons_rows_of_mem m.view f inb0 w0 L (ix2 r q) (ix2 p q) rfl hr rfl

/-! ## The two output buffers -/

/-- At the last feature block, row `560 s + p` of the first output buffer holds, in its four columns, the first four of the finishing step's sixteen columns on the `s`-th third of the finished accumulator's rows, at row `p`. -/
theorem clsLast_apply (c : Dev nD) (i : grid0.Coords) (arg2 : Memref sig .tc .vmem S1680x1792 .f32) (harg2 : arg2.IsWhole) (arg3 : Memref sig .tc .vmem S1024x1792 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x16 .bf16) (harg7 : arg7.IsWhole) (arg8 : Memref sig .tc .vmem S1x16 .f32) (harg8 : arg8.IsWhole) (arg9 : Memref sig .tc .vmem S1680x4 .f32) (harg9 : arg9.IsWhole) (arg10 : Memref sig .tc .vmem S1680x12 .f32) (harg10 : arg10.IsWhole) (arg11 : Memref sig .tc .vmem S1680x1024 .f32) (harg11 : arg11.IsWhole)
    (hc0 : ¬condFirst i) (hc1 : condLater i) (hc2 : condLast i) (x0 : Vec Ideal S1680x1792 .f32) (x1 : Vec Ideal S1024x1792 .f32) (x2 : Vec Ideal S1x1024 .f32) (x3 : Vec Ideal S1024x1024 .bf16) (x4 : Vec Ideal S1x1024 .f32) (x5 : Vec Ideal S1024x16 .bf16) (x6 : Vec Ideal S1x16 .f32) (xs : Vec Ideal S1680x1024 .f32)
    (f : arg9.view.ty.Contents (Elt Ideal)) (s : Fin 3) (p : Fin 560) (q : Fin 4) :
    arg9.view.read (Elt Ideal) (arg9.view.writes (Elt Ideal) f (runLast (F := Ideal) c i arg2 harg2 arg3 harg3 arg4 harg4 arg5 harg5 arg6 harg6 arg7 harg7 arg8 harg8 arg9 harg9 arg10 harg10 arg11 harg11 hc0 hc1 hc2 x0 x1 x2 x3 x4 x5 x6 xs).1)
        (ix2 (⟨560 * s.val + p.val, by have := s.isLt; have := p.isLt; omega⟩ : Fin 1680) q)
      = fin16 (rows560 (560 * s.val) (by have := s.isLt; omega) (plus xs (mmT x0 x1))) x2 x3 x4 x5 x6
          (ix2 p (⟨q.val, by have := q.isLt; omega⟩ : Fin 16)) := by
  unfold runLast; dsimp only; sl_unfold_words
  simp only [View.readAt_eq_ld, harg2.read_unread, harg3.read_unread, harg4.read_unread, harg5.read_unread,
    harg6.read_unread, harg7.read_unread, harg8.read_unread, harg11.read_unread,
    View.ld_unit_zero (S := S1680x1792) origin2, View.ld_unit_zero (S := S1024x1792) origin2,
    View.ld_unit_zero (S := S1680x1024) origin2, View.ld_unit_zero (S := S1x1024) origin2,
    View.ld_unit_zero (S := S1024x1024) origin2, View.ld_unit_zero (S := S1024x16) origin2,
    View.ld_unit_zero (S := S1x16) origin2, pay3_eq]
  simp only [readCov_rows560 arg11 _ _ 1120 (by omega) _, readCov_rows560 arg11 _ _ 560 (by omega) _,
    readCov_rows560 arg11 _ _ 0 (by omega) _]
  obtain ⟨sv, hsv⟩ := s
  interval_cases sv
  · refine Eq.trans (read_block0 arg9 f _ _ _ _ _ _ _ _ p (by first | rfl | omega | simp) q) ?_
    exact pay8_apply _ x2 x3 x4 x5 x6 p q
  · refine Eq.trans (read_block1 arg9 f _ _ _ _ _ _ p (by first | rfl | omega | simp) q) ?_
    exact pay13_apply _ x2 x3 x4 x5 x6 p q
  · refine Eq.trans (read_block2 arg9 f _ _ _ _ p (by first | rfl | omega | simp) q) ?_
    exact pay5_apply _ x2 x3 x4 x5 x6 p q

/-- And row `560 s + p` of the second output buffer holds, in its twelve columns, the other twelve. -/
theorem boxLast_apply (c : Dev nD) (i : grid0.Coords) (arg2 : Memref sig .tc .vmem S1680x1792 .f32) (harg2 : arg2.IsWhole) (arg3 : Memref sig .tc .vmem S1024x1792 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x16 .bf16) (harg7 : arg7.IsWhole) (arg8 : Memref sig .tc .vmem S1x16 .f32) (harg8 : arg8.IsWhole) (arg9 : Memref sig .tc .vmem S1680x4 .f32) (harg9 : arg9.IsWhole) (arg10 : Memref sig .tc .vmem S1680x12 .f32) (harg10 : arg10.IsWhole) (arg11 : Memref sig .tc .vmem S1680x1024 .f32) (harg11 : arg11.IsWhole)
    (hc0 : ¬condFirst i) (hc1 : condLater i) (hc2 : condLast i) (x0 : Vec Ideal S1680x1792 .f32) (x1 : Vec Ideal S1024x1792 .f32) (x2 : Vec Ideal S1x1024 .f32) (x3 : Vec Ideal S1024x1024 .bf16) (x4 : Vec Ideal S1x1024 .f32) (x5 : Vec Ideal S1024x16 .bf16) (x6 : Vec Ideal S1x16 .f32) (xs : Vec Ideal S1680x1024 .f32)
    (f : arg10.view.ty.Contents (Elt Ideal)) (s : Fin 3) (p : Fin 560) (q : Fin 12) :
    arg10.view.read (Elt Ideal) (arg10.view.writes (Elt Ideal) f (runLast (F := Ideal) c i arg2 harg2 arg3 harg3 arg4 harg4 arg5 harg5 arg6 harg6 arg7 harg7 arg8 harg8 arg9 harg9 arg10 harg10 arg11 harg11 hc0 hc1 hc2 x0 x1 x2 x3 x4 x5 x6 xs).2.1)
        (ix2 (⟨560 * s.val + p.val, by have := s.isLt; have := p.isLt; omega⟩ : Fin 1680) q)
      = fin16 (rows560 (560 * s.val) (by have := s.isLt; omega) (plus xs (mmT x0 x1))) x2 x3 x4 x5 x6
          (ix2 p (⟨q.val + 4, by have := q.isLt; omega⟩ : Fin 16)) := by
  unfold runLast; dsimp only; sl_unfold_words
  simp only [View.readAt_eq_ld, harg2.read_unread, harg3.read_unread, harg4.read_unread, harg5.read_unread,
    harg6.read_unread, harg7.read_unread, harg8.read_unread, harg11.read_unread,
    View.ld_unit_zero (S := S1680x1792) origin2, View.ld_unit_zero (S := S1024x1792) origin2,
    View.ld_unit_zero (S := S1680x1024) origin2, View.ld_unit_zero (S := S1x1024) origin2,
    View.ld_unit_zero (S := S1024x1024) origin2, View.ld_unit_zero (S := S1024x16) origin2,
    View.ld_unit_zero (S := S1x16) origin2, pay3_eq]
  simp only [readCov_rows560 arg11 _ _ 1120 (by omega) _, readCov_rows560 arg11 _ _ 560 (by omega) _,
    readCov_rows560 arg11 _ _ 0 (by omega) _]
  obtain ⟨sv, hsv⟩ := s
  interval_cases sv
  · refine Eq.trans (read_block0 arg10 f _ _ _ _ _ _ _ _ p (by first | rfl | omega | simp) q) ?_
    exact pay9_apply _ x2 x3 x4 x5 x6 p q
  · refine Eq.trans (read_block1 arg10 f _ _ _ _ _ _ p (by first | rfl | omega | simp) q) ?_
    exact pay14_apply _ x2 x3 x4 x5 x6 p q
  · refine Eq.trans (read_block2 arg10 f _ _ _ _ p (by first | rfl | omega | simp) q) ?_
    exact pay6_apply _ x2 x3 x4 x5 x6 p q

end Cert.KernelIdeal.Body

end
-- ==== Proof.KIValue.lean ====
/-
  The values. At point `t` the feature buffer holds rows `rowOf t p` of the feature array on the rows inside the array
  and the weight buffer holds feature block `t % 7` of `W1`, so the body's product is that block's share of the first
  layer's product, `blockTerm`; stored at the first feature block and added at every later one, the accumulator's
  rows inside the array hold the shares summed over the blocks so far, `accG`. After the last block that sum is the
  whole first product of the row, and the rest of the head, applied to a third of the rows at a time, gives the head of
  the matching feature rows: each row of every stage depends on that row of the features only.
-/
import proofs.«125935_g42133629174425_cont_8to1_b_514_18_alg».proof.Proof.KIData
import proofs.«125935_g42133629174425_cont_8to1_b_514_18_alg».proof.Proof.KIRunLast
import proofs.«125935_g42133629174425_cont_8to1_b_514_18_alg».proof.Proof.KIRunMid
import proofs.«125935_g42133629174425_cont_8to1_b_514_18_alg».proof.Proof.KIRunFirst
import proofs.«125935_g42133629174425_cont_8to1_b_514_18_alg».proof.Proof.PayValue
import proofs.«125935_g42133629174425_cont_8to1_b_514_18_alg».proof.Proof.KIBlocks
import proofs.«125935_g42133629174425_cont_8to1_b_514_18_alg».proof.Proof.KIPieces

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.BoxHead Cert.DenseLib Cert.BoxHead.Pay

variable (m : (ℓ : Loc nD τ sig) → Buf (Elt Ideal) ℓ) (c : Dev nD)

/-- What the feature window's buffer holds at point `t`: the block on the rows inside the array, `d` past them. -/
abbrev xbuf (t : Fin cfg0.N) (d : S1680x1792.Idx → EReal) : S1680x1792.Idx → EReal :=
  win0_0.fill (grid0.coords t) d (iblk m c 0 t)

/-- Each window's current staging buffer at point `t`, and that it is a whole buffer. -/
abbrev ms0 (t : Fin cfg0.N) : Memref sig .tc .vmem S1680x1792 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x1792 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1024 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x16 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x16 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1680x4 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1680x12 .f32 := win0_8.stage (cfg0.slots t 8)
abbrev hs8 (t : Fin cfg0.N) : (ms8 t).IsWhole := hstage0_8 ((cfg0.slots t 8).cast nbuf0_8)

/-- The body's run at a point of the first, a middle and the last feature block, on the point's buffers. -/
abbrev firstAt (t : Fin cfg0.N) (hc0 : condFirst (grid0.coords t)) (hc1 : ¬condLater (grid0.coords t)) (hc2 : ¬condLast (grid0.coords t))
    (d : S1680x1792.Idx → EReal) :=
  runFirst (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) accM (Memref.isWhole_whole _) hc0 hc1 hc2 (xbuf m c t d) (iblk m c 1 t) (iblk m c 2 t) (iblk m c 3 t) (iblk m c 4 t) (iblk m c 5 t) (iblk m c 6 t)
abbrev midAt (t : Fin cfg0.N) (hc0 : ¬condFirst (grid0.coords t)) (hc1 : condLater (grid0.coords t)) (hc2 : ¬condLast (grid0.coords t))
    (d : S1680x1792.Idx → EReal) (xs : S1680x1024.Idx → EReal) :=
  runMid (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) accM (Memref.isWhole_whole _) hc0 hc1 hc2 (xbuf m c t d) (iblk m c 1 t) (iblk m c 2 t) (iblk m c 3 t) (iblk m c 4 t) (iblk m c 5 t) (iblk m c 6 t) xs
abbrev lastAt (t : Fin cfg0.N) (hc0 : ¬condFirst (grid0.coords t)) (hc1 : condLater (grid0.coords t)) (hc2 : condLast (grid0.coords t))
    (d : S1680x1792.Idx → EReal) (xs : S1680x1024.Idx → EReal) :=
  runLast (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) accM (Memref.isWhole_whole _) hc0 hc1 hc2 (xbuf m c t d) (iblk m c 1 t) (iblk m c 2 t) (iblk m c 3 t) (iblk m c 4 t) (iblk m c 5 t) (iblk m c 6 t) xs

/-- The body's product at a row inside the array is the point's feature block's share of the first product. -/
theorem prod_block (t : Fin cfg0.N) (d : S1680x1792.Idx → EReal) (p : Fin 1680) (j : Fin 1024) (hp : rowOf t.val p.val < 5000) :
    mmT (xbuf m c t d) (iblk m c 1 t : S1024x1792.Idx → EReal) (ix2 p j) = blockTerm m c t.val (t.val % 7) p.val j.val := by
  rw [mmT_apply]; unfold blockTerm; rw [Finset.sum_range]
  exact Finset.sum_congr rfl fun kk _ => congrArg₂ (· * ·) (blk_x m c t d p kk hp) (blk_w1 m c t j kk)

theorem accG_apply (n : ℕ) (p : Fin 1680) (j : Fin 1024) :
    accG m c n (ix2 p j) = ∑ kb ∈ Finset.range (n % 7 + 1), blockTerm m c n kb p.val j.val := rfl

/-- Within a row block the shares do not depend on the point. -/
theorem blockTerm_pred (n kb p j : ℕ) (h : ¬ n % 7 = 0) : blockTerm m c (n - 1) kb p j = blockTerm m c n kb p j := by
  unfold blockTerm rowOf
  have e : (n - 1) / 7 = n / 7 := by omega
  rw [e]

theorem rowOf_pred (n p : ℕ) (h : ¬ n % 7 = 0) : rowOf (n - 1) p = rowOf n p := by
  unfold rowOf
  have e : (n - 1) / 7 = n / 7 := by omega
  rw [e]

theorem accFirst_val (t : Fin cfg0.N) (h0 : t.val % 7 = 0) (d : S1680x1792.Idx → EReal) (p : Fin 1680) (j : Fin 1024)
    (hp : rowOf t.val p.val < 5000) :
    mmT (xbuf m c t d) (iblk m c 1 t : S1024x1792.Idx → EReal) (ix2 p j) = accG m c t.val (ix2 p j) := by
  rw [prod_block m c t d p j hp, accG_apply, h0, Nat.zero_add, Finset.sum_range_one]

theorem accStep_val (t : Fin cfg0.N) (h0 : ¬ t.val % 7 = 0) (d : S1680x1792.Idx → EReal) (xs : S1680x1024.Idx → EReal)
    (hxs : ∀ (p : Fin 1680) (j : Fin 1024), rowOf (t.val - 1) p.val < 5000 → xs (ix2 p j) = accG m c (t.val - 1) (ix2 p j))
    (p : Fin 1680) (j : Fin 1024) (hp : rowOf t.val p.val < 5000) :
    plus xs (mmT (xbuf m c t d) (iblk m c 1 t : S1024x1792.Idx → EReal)) (ix2 p j) = accG m c t.val (ix2 p j) := by
  show xs (ix2 p j) + mmT (xbuf m c t d) (iblk m c 1 t : S1024x1792.Idx → EReal) (ix2 p j) = _
  rw [hxs p j (by rw [rowOf_pred t.val p.val h0]; exact hp), prod_block m c t d p j hp, accG_apply, accG_apply]
  have hk : (t.val - 1) % 7 + 1 = t.val % 7 := by omega
  rw [hk, Finset.sum_range_succ]
  exact congrArg (· + blockTerm m c t.val (t.val % 7) p.val j.val)
    (Finset.sum_congr rfl fun kb _ => blockTerm_pred m c t.val kb p.val j.val h0)

/-- After the last feature block the shares add up to the first layer's whole product of the row. -/
theorem accG_full (n : ℕ) (h6 : n % 7 = 6) (p : Fin 1680) (j : Fin 1024) (hp : rowOf n p.val < 5000) :
    accG m c n (ix2 p j) = mmT (aX m c) (aW1 m c) (ix2 (⟨rowOf n p.val, hp⟩ : Fin 5000) j) := by
  rw [accG_apply, h6, mmT_apply, sum_blocks (fun k => aX m c (ix2 (⟨rowOf n p.val, hp⟩ : Fin 5000) k) * aW1 m c (ix2 j k))]
  rw [show (6 + 1 : ℕ) = 7 from rfl, Finset.sum_range]
  refine Finset.sum_congr rfl fun kb _ => ?_
  unfold blockTerm; rw [Finset.sum_range]
  refine Finset.sum_congr rfl fun kk _ => ?_
  have hk : kb.val * 1792 + kk.val < 12544 := by have := kb.isLt; have := kk.isLt; omega
  unfold xAt w1At
  rw [dif_pos ⟨hp, hk⟩, dif_pos ⟨j.isLt, hk⟩]

/-- The rows and columns the output windows' transfers move at a point. -/
theorem xsize_out : ∀ t : Fin cfg0.N,
    win0_7.xsize (grid0.coords t) (0 : Fin 2) = (if t.val / 7 = 2 then 1640 else 1680) ∧ win0_7.xsize (grid0.coords t) (1 : Fin 2) = 4
    ∧ win0_8.xsize (grid0.coords t) (0 : Fin 2) = (if t.val / 7 = 2 then 1640 else 1680) ∧ win0_8.xsize (grid0.coords t) (1 : Fin 2) = 12 :=
  (by decide +kernel : ∀ t : Fin grid0.N, _)

/-- THE ROW LEMMA. At the last feature block, on a row `560 s + p` of the row block that is inside the array, the
    finishing step applied to the `s`-th third of the accumulator — the hidden layers over the host-transposed `W2`,
    the output map read at columns `off … off + C - 1` of the concatenated output weights — is the head of the matching
    feature row with the output map `(Wo, bo)` those columns hold: the accumulator's row is the first product of that
    feature row (`accG_full`), and every later stage is row by row. -/
theorem head_row {C : ℕ} (off : ℕ) (hoff : off + C ≤ 16) (t : Fin cfg0.N) (h6 : t.val % 7 = 6)
    (Wo : (⟨2, ![C, 1024]⟩ : Shape).Idx → EReal) (bo : (⟨1, ![C]⟩ : Shape).Idx → EReal)
    (hwh : ∀ (k : Fin 1024) (q : Fin C), (iblk m c 5 t : S1024x16.Idx → EReal) (ix2 k (⟨off + q.val, by have := q.isLt; omega⟩ : Fin 16)) = Wo (ix2 q k))
    (hbh : ∀ q : Fin C, (iblk m c 6 t : S1x16.Idx → EReal) (ix2 (0 : Fin 1) (⟨off + q.val, by have := q.isLt; omega⟩ : Fin 16)) = bo (ix1 q))
    (d : S1680x1792.Idx → EReal) (xs : S1680x1024.Idx → EReal)
    (hxs : ∀ (p : Fin 1680) (j : Fin 1024), rowOf (t.val - 1) p.val < 5000 → xs (ix2 p j) = accG m c (t.val - 1) (ix2 p j))
    (s : Fin 3) (p : Fin 560) (q : Fin C) (hp : rowOf t.val (560 * s.val + p.val) < 5000) :
    fin16 (rows560 (560 * s.val) (by have := s.isLt; omega) (plus xs (mmT (xbuf m c t d) (iblk m c 1 t : S1024x1792.Idx → EReal))))
        (iblk m c 2 t) (iblk m c 3 t) (iblk m c 4 t) (iblk m c 5 t) (iblk m c 6 t) (ix2 p (⟨off + q.val, by have := q.isLt; omega⟩ : Fin 16))
      = head (aX m c) (aW1 m c) (ab1 m c) (aW2 m c) (ab2 m c) Wo bo (ix2 (⟨rowOf t.val (560 * s.val + p.val), hp⟩ : Fin 5000) q) := by
  have h0 : ¬ t.val % 7 = 0 := by omega
  have hP : 560 * s.val + p.val < 1680 := by have := s.isLt; have := p.isLt; omega
  rw [fin16_head off hoff _ (iblk m c 2 t) (iblk m c 3 t) (iblk m c 4 t) (iblk m c 5 t) (iblk m c 6 t) (ab1 m c) (aW2 m c) (ab2 m c) Wo bo
      (blk_b1 m c t) (blk_w2 m c t) (blk_b2 m c t) hwh hbh p q, head_eq_headFrom]
  refine headFrom_row _ _ _ _ _ _ _ p (⟨rowOf t.val (560 * s.val + p.val), hp⟩ : Fin 5000) (fun j => ?_) q
  show plus xs (mmT (xbuf m c t d) (iblk m c 1 t : S1024x1792.Idx → EReal)) (ix2 (⟨560 * s.val + p.val, hP⟩ : Fin 1680) j) = _
  rw [accStep_val m c t h0 d xs hxs ⟨560 * s.val + p.val, hP⟩ j hp]
  exact accG_full m c t.val h6 ⟨560 * s.val + p.val, hP⟩ j hp

/-- The accumulator's rows inside the array after the body at a point of the first feature block, -/
theorem accFirst_ok (t : Fin cfg0.N) (h0 : t.val % 7 = 0) (hc0 : condFirst (grid0.coords t)) (hc1 : ¬condLater (grid0.coords t)) (hc2 : ¬condLast (grid0.coords t))
    (d : S1680x1792.Idx → EReal) (f : accM.view.ty.Contents (Elt Ideal)) (p : Fin 1680) (j : Fin 1024) (hp : rowOf t.val p.val < 5000) :
    accM.view.read (Elt Ideal) (accM.view.writes (Elt Ideal) f (firstAt m c t hc0 hc1 hc2 d).1) (ix2 p j) = accG m c t.val (ix2 p j) :=
  (congrFun (accFirst_eq c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) accM (Memref.isWhole_whole _) hc0 hc1 hc2 (xbuf m c t d) (iblk m c 1 t) (iblk m c 2 t) (iblk m c 3 t) (iblk m c 4 t) (iblk m c 5 t) (iblk m c 6 t) f) (ix2 p j)).trans (accFirst_val m c t h0 d p j hp)

/-- of a middle one, -/
theorem accMid_ok (t : Fin cfg0.N) (h0 : ¬ t.val % 7 = 0) (hc0 : ¬condFirst (grid0.coords t)) (hc1 : condLater (grid0.coords t)) (hc2 : ¬condLast (grid0.coords t))
    (d : S1680x1792.Idx → EReal) (xs : S1680x1024.Idx → EReal)
    (hxs : ∀ (p : Fin 1680) (j : Fin 1024), rowOf (t.val - 1) p.val < 5000 → xs (ix2 p j) = accG m c (t.val - 1) (ix2 p j))
    (f : accM.view.ty.Contents (Elt Ideal)) (p : Fin 1680) (j : Fin 1024) (hp : rowOf t.val p.val < 5000) :
    accM.view.read (Elt Ideal) (accM.view.writes (Elt Ideal) f (midAt m c t hc0 hc1 hc2 d xs).1) (ix2 p j) = accG m c t.val (ix2 p j) :=
  (congrFun (accMid_eq c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) accM (Memref.isWhole_whole _) hc0 hc1 hc2 (xbuf m c t d) (iblk m c 1 t) (iblk m c 2 t) (iblk m c 3 t) (iblk m c 4 t) (iblk m c 5 t) (iblk m c 6 t) xs f) (ix2 p j)).trans (accStep_val m c t h0 d xs hxs p j hp)

/-- and of the last one. -/
theorem accLast_ok (t : Fin cfg0.N) (h0 : ¬ t.val % 7 = 0) (hc0 : ¬condFirst (grid0.coords t)) (hc1 : condLater (grid0.coords t)) (hc2 : condLast (grid0.coords t))
    (d : S1680x1792.Idx → EReal) (xs : S1680x1024.Idx → EReal)
    (hxs : ∀ (p : Fin 1680) (j : Fin 1024), rowOf (t.val - 1) p.val < 5000 → xs (ix2 p j) = accG m c (t.val - 1) (ix2 p j))
    (f : accM.view.ty.Contents (Elt Ideal)) (p : Fin 1680) (j : Fin 1024) (hp : rowOf t.val p.val < 5000) :
    accM.view.read (Elt Ideal) (accM.view.writes (Elt Ideal) f (lastAt m c t hc0 hc1 hc2 d xs).2.2.1) (ix2 p j) = accG m c t.val (ix2 p j) :=
  (congrFun (accLast_eq c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) accM (Memref.isWhole_whole _) hc0 hc1 hc2 (xbuf m c t d) (iblk m c 1 t) (iblk m c 2 t) (iblk m c 3 t) (iblk m c 4 t) (iblk m c 5 t) (iblk m c 6 t) xs f) (ix2 p j)).trans (accStep_val m c t h0 d xs hxs p j hp)

/-- At the last feature block the first output buffer's rows inside the array are the class scores of the matching rows. -/
theorem clsLast_cut (t : Fin cfg0.N) (h6 : t.val % 7 = 6) (hc0 : ¬condFirst (grid0.coords t)) (hc1 : condLater (grid0.coords t)) (hc2 : condLast (grid0.coords t))
    (d : S1680x1792.Idx → EReal) (xs : S1680x1024.Idx → EReal)
    (hxs : ∀ (p : Fin 1680) (j : Fin 1024), rowOf (t.val - 1) p.val < 5000 → xs (ix2 p j) = accG m c (t.val - 1) (ix2 p j))
    (f : (ms7 t).view.ty.Contents (Elt Ideal)) :
    win0_7.cut (grid0.coords t) ((ms7 t).view.read (Elt Ideal) ((ms7 t).view.writes (Elt Ideal) f (lastAt m c t hc0 hc1 hc2 d xs).1))
      = win0_7.cut (grid0.coords t) (clsBlk m c t.val) := by
  obtain ⟨x70, x71, x80, x81⟩ := xsize_out t
  funext y
  have hy0 : (y 0).val < win0_7.xsize (grid0.coords t) (0 : Fin 2) := (y 0).isLt
  have hy1 : (y 1).val < win0_7.xsize (grid0.coords t) (1 : Fin 2) := (y 1).isLt
  rw [x70] at hy0; rw [x71] at hy1
  have ht : t.val < 21 := N_0 ▸ t.isLt
  have hrow : rowOf t.val (y 0).val < 5000 := by unfold rowOf; split at hy0 <;> omega
  have hs : (y 0).val / 560 < 3 := by split at hy0 <;> omega
  have hpp : (y 0).val % 560 < 560 := Nat.mod_lt _ (by decide)
  have hsum : 560 * ((y 0).val / 560) + (y 0).val % 560 = (y 0).val := Nat.div_add_mod _ _
  have hp : rowOf t.val (560 * ((y 0).val / 560) + (y 0).val % 560) < 5000 := by rw [hsum]; exact hrow
  have hidx : win0_7.xinj (grid0.coords t) y
      = ix2 (⟨560 * ((y 0).val / 560) + (y 0).val % 560, by omega⟩ : Fin 1680) (⟨(y 1).val, hy1⟩ : Fin 4) :=
    funext fun a => Fin.ext (by
      match a with
      | ⟨0, _⟩ => exact hsum.symm
      | ⟨1, _⟩ => rfl)
  show (ms7 t).view.read (Elt Ideal) ((ms7 t).view.writes (Elt Ideal) f (lastAt m c t hc0 hc1 hc2 d xs).1) (win0_7.xinj (grid0.coords t) y)
      = clsBlk m c t.val (win0_7.xinj (grid0.coords t) y)
  rw [hidx, clsLast_apply c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) accM (Memref.isWhole_whole _) hc0 hc1 hc2 (xbuf m c t d) (iblk m c 1 t) (iblk m c 2 t) (iblk m c 3 t) (iblk m c 4 t) (iblk m c 5 t) (iblk m c 6 t) xs f
    ⟨(y 0).val / 560, hs⟩ ⟨(y 0).val % 560, hpp⟩ ⟨(y 1).val, hy1⟩]
  have hrowL := head_row m c 0 (by omega) t h6 (aWc m c) (abc m c) (blk_wh_cls m c t) (blk_bh_cls m c t) d xs hxs
    ⟨(y 0).val / 560, hs⟩ ⟨(y 0).val % 560, hpp⟩ ⟨(y 1).val, hy1⟩ hp
  simp only [Nat.zero_add] at hrowL
  refine hrowL.trans ?_
  show _ = (if h : rowOf t.val (560 * ((y 0).val / 560) + (y 0).val % 560) < 5000
    then clsG m c (ix2 ⟨rowOf t.val (560 * ((y 0).val / 560) + (y 0).val % 560), h⟩ ⟨(y 1).val, hy1⟩) else 0)
  rw [dif_pos hp]
  rfl

/-- And the second's the box deltas. -/
theorem boxLast_cut (t : Fin cfg0.N) (h6 : t.val % 7 = 6) (hc0 : ¬condFirst (grid0.coords t)) (hc1 : condLater (grid0.coords t)) (hc2 : condLast (grid0.coords t))
    (d : S1680x1792.Idx → EReal) (xs : S1680x1024.Idx → EReal)
    (hxs : ∀ (p : Fin 1680) (j : Fin 1024), rowOf (t.val - 1) p.val < 5000 → xs (ix2 p j) = accG m c (t.val - 1) (ix2 p j))
    (f : (ms8 t).view.ty.Contents (Elt Ideal)) :
    win0_8.cut (grid0.coords t) ((ms8 t).view.read (Elt Ideal) ((ms8 t).view.writes (Elt Ideal) f (lastAt m c t hc0 hc1 hc2 d xs).2.1))
      = win0_8.cut (grid0.coords t) (boxBlk m c t.val) := by
  obtain ⟨x70, x71, x80, x81⟩ := xsize_out t
  funext y
  have hy0 : (y 0).val < win0_8.xsize (grid0.coords t) (0 : Fin 2) := (y 0).isLt
  have hy1 : (y 1).val < win0_8.xsize (grid0.coords t) (1 : Fin 2) := (y 1).isLt
  rw [x80] at hy0; rw [x81] at hy1
  have ht : t.val < 21 := N_0 ▸ t.isLt
  have hrow : rowOf t.val (y 0).val < 5000 := by unfold rowOf; split at hy0 <;> omega
  have hs : (y 0).val / 560 < 3 := by split at hy0 <;> omega
  have hpp : (y 0).val % 560 < 560 := Nat.mod_lt _ (by decide)
  have hsum : 560 * ((y 0).val / 560) + (y 0).val % 560 = (y 0).val := Nat.div_add_mod _ _
  have hp : rowOf t.val (560 * ((y 0).val / 560) + (y 0).val % 560) < 5000 := by rw [hsum]; exact hrow
  have hidx : win0_8.xinj (grid0.coords t) y
      = ix2 (⟨560 * ((y 0).val / 560) + (y 0).val % 560, by omega⟩ : Fin 1680) (⟨(y 1).val, hy1⟩ : Fin 12) :=
    funext fun a => Fin.ext (by
      match a with
      | ⟨0, _⟩ => exact hsum.symm
      | ⟨1, _⟩ => rfl)
  show (ms8 t).view.read (Elt Ideal) ((ms8 t).view.writes (Elt Ideal) f (lastAt m c t hc0 hc1 hc2 d xs).2.1) (win0_8.xinj (grid0.coords t) y)
      = boxBlk m c t.val (win0_8.xinj (grid0.coords t) y)
  rw [hidx, boxLast_apply c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) accM (Memref.isWhole_whole _) hc0 hc1 hc2 (xbuf m c t d) (iblk m c 1 t) (iblk m c 2 t) (iblk m c 3 t) (iblk m c 4 t) (iblk m c 5 t) (iblk m c 6 t) xs f
    ⟨(y 0).val / 560, hs⟩ ⟨(y 0).val % 560, hpp⟩ ⟨(y 1).val, hy1⟩]
  have hrowL := head_row m c 4 (by omega) t h6 (aWr m c) (abr m c) (blk_wh_box m c t) (blk_bh_box m c t) d xs hxs
    ⟨(y 0).val / 560, hs⟩ ⟨(y 0).val % 560, hpp⟩ ⟨(y 1).val, hy1⟩ hp
  simp only [Nat.add_comm 4] at hrowL
  refine hrowL.trans ?_
  show _ = (if h : rowOf t.val (560 * ((y 0).val / 560) + (y 0).val % 560) < 5000
    then boxG m c (ix2 ⟨rowOf t.val (560 * ((y 0).val / 560) + (y 0).val % 560), h⟩ ⟨(y 1).val, hy1⟩) else 0)
  rw [dif_pos hp]
  rfl

end Cert.KernelIdeal.Body

end
-- ==== Proof.KIBody.lean ====
/-
  The body obligation of the idealized kernel's run, over the extended reals: at every point, from what the region
  lends (the accumulator as the point before left it) and the nine current staging buffers at what they then hold,
  the body runs to the accumulator's rows inside the array at the first product summed over the feature blocks so far,
  the seven input buffers as they were, and the two output buffers either untouched (away from the last feature
  block) or, at the last feature block, holding on their rows inside the array the head of the matching feature rows.
-/
import proofs.«125935_g42133629174425_cont_8to1_b_514_18_alg».proof.Proof.KIValue

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.BoxHead Cert.DenseLib Cert.BoxHead.Pay

variable (m : (ℓ : Loc nD τ sig) → Buf (Elt Ideal) ℓ) (c : Dev nD)

local notation "𝕀" => MT nD τ sig Unit (Elt Ideal) ℕ (UR sig nD τ) ℕ

/-! ## The invariant, opened -/

/-- Whatever the position, the invariant lends the accumulator at some contents. -/
theorem PhiAcc_forget (n : ℕ) :
    PhiAcc m c n ⊢ (iprop(iprop(∃ d, owns (c : Thread nD τ) accM fullShare d) ∗ (∃ r, prngReg c r)) : sProp 𝕀) := by
  cases n with
  | zero => rw [show PhiAcc m c 0 = Pipeline.ΦA spec0 c from rfl, PhiA_eq]
  | succ n =>
    rw [show PhiAcc m c (n + 1) = (iprop(iprop(∃ f : S1680x1024.Idx → EReal, owns (c : Thread nD τ) accM fullShare f
        ∗ ⌜∀ (p : Fin 1680) (j : Fin 1024), rowOf n p.val < 5000 → f (ix2 p j) = accG m c n (ix2 p j)⌝) ∗ (∃ r, prngReg c r)) : sProp 𝕀) from rfl]
    iintro ⟨⟨%f, HS, -⟩, Hg⟩
    isplitl [HS]
    · iexists f; iexact HS
    iexact Hg

/-- After the first point it lends it at contents whose rows inside the array are the sums so far. -/
theorem PhiAcc_pos (n : ℕ) (hn : n ≠ 0) :
    PhiAcc m c n = (iprop(iprop(∃ f : S1680x1024.Idx → EReal, owns (c : Thread nD τ) accM fullShare f
        ∗ ⌜∀ (p : Fin 1680) (j : Fin 1024), rowOf (n - 1) p.val < 5000 → f (ix2 p j) = accG m c (n - 1) (ix2 p j)⌝) ∗ (∃ r, prngReg c r)) : sProp 𝕀) := by
  cases n with
  | zero => exact absurd rfl hn
  | succ n => rfl

/-! ## What the body is called with and returns -/

def bodyPre (t : Fin cfg0.N) : sProp 𝕀 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

def bodyPost (t : Fin cfg0.N) : sProp 𝕀 :=
  iprop((dats m 0 c).Φ t.succ ∗ (dats m 0 c).owesAt () t.succ
    ∗ (dats m 0 c).leaves 0 t
    ∗ (dats m 0 c).leaves 1 t
    ∗ (dats m 0 c).leaves 2 t
    ∗ (dats m 0 c).leaves 3 t
    ∗ (dats m 0 c).leaves 4 t
    ∗ (dats m 0 c).leaves 5 t
    ∗ (dats m 0 c).leaves 6 t
    ∗ (dats m 0 c).leaves 7 t
    ∗ (dats m 0 c).leaves 8 t)

/-- The feature window is live and clipped: its buffer is handed back stated on the rows the transfer moves. -/
theorem leaves_0 (t : Fin cfg0.N) : (dats m 0 c).leaves 0 t
    = (iprop(∃ d, owns (c : Thread nD τ) (st0_0 t) fullShare (win0_0.fill (grid0.coords t) d (win0_0.cut (grid0.coords t) ((dats m 0 c).after 0 t)))) : sProp 𝕀) := by
  unfold Dat.leaves; rw [live_in 0 (by decide) t]
theorem leaves_1 (t : Fin cfg0.N) : (dats m 0 c).leaves 1 t = (owns (c : Thread nD τ) (st0_1 t) fullShare ((dats m 0 c).after 1 t) : sProp 𝕀) := by
  unfold Dat.leaves; rw [live_in 1 (by decide) t]
theorem leaves_2 (t : Fin cfg0.N) : (dats m 0 c).leaves 2 t = (owns (c : Thread nD τ) (st0_2 t) fullShare ((dats m 0 c).after 2 t) : sProp 𝕀) := by
  unfold Dat.leaves; rw [live_in 2 (by decide) t]
theorem leaves_3 (t : Fin cfg0.N) : (dats m 0 c).leaves 3 t = (owns (c : Thread nD τ) (st0_3 t) fullShare ((dats m 0 c).after 3 t) : sProp 𝕀) := by
  unfold Dat.leaves; rw [live_in 3 (by decide) t]
theorem leaves_4 (t : Fin cfg0.N) : (dats m 0 c).leaves 4 t = (owns (c : Thread nD τ) (st0_4 t) fullShare ((dats m 0 c).after 4 t) : sProp 𝕀) := by
  unfold Dat.leaves; rw [live_in 4 (by decide) t]
theorem leaves_5 (t : Fin cfg0.N) : (dats m 0 c).leaves 5 t = (owns (c : Thread nD τ) (st0_5 t) fullShare ((dats m 0 c).after 5 t) : sProp 𝕀) := by
  unfold Dat.leaves; rw [live_in 5 (by decide) t]
theorem leaves_6 (t : Fin cfg0.N) : (dats m 0 c).leaves 6 t = (owns (c : Thread nD τ) (st0_6 t) fullShare ((dats m 0 c).after 6 t) : sProp 𝕀) := by
  unfold Dat.leaves; rw [live_in 6 (by decide) t]
/-- At the last feature block the outputs are live and clipped. -/
theorem leaves_7_last (t : Fin cfg0.N) (h : t.val % 7 = 6) : (dats m 0 c).leaves 7 t
    = (iprop(∃ d, owns (c : Thread nD τ) (st0_7 t) fullShare (win0_7.fill (grid0.coords t) d (win0_7.cut (grid0.coords t) ((dats m 0 c).after 7 t)))) : sProp 𝕀) := by
  unfold Dat.leaves; rw [live7 t h]
theorem leaves_8_last (t : Fin cfg0.N) (h : t.val % 7 = 6) : (dats m 0 c).leaves 8 t
    = (iprop(∃ d, owns (c : Thread nD τ) (st0_8 t) fullShare (win0_8.fill (grid0.coords t) d (win0_8.cut (grid0.coords t) ((dats m 0 c).after 8 t)))) : sProp 𝕀) := by
  unfold Dat.leaves; rw [live8 t h]

/-! ## The body at a generic point -/

/-- Contents that agree with `B` on the rows a clipped output window's transfer moves are `B`'s moved rows filled
    out with something: the first output window, -/
theorem owns_loose7 (i : grid0.Coords) (M : Memref sig .tc .vmem S1680x4 .f32) (X B : S1680x4.Idx → EReal)
    (h : win0_7.cut i X = win0_7.cut i B) :
    (owns (c : Thread nD τ) M fullShare X : sProp 𝕀)
      ⊢ iprop(∃ d, owns (c : Thread nD τ) M fullShare (win0_7.fill i d (win0_7.cut i B))) := by
  iintro H; iexists X; rw [← h, win0_7.fill_cut]; iexact H
/-- and the second. -/
theorem owns_loose8 (i : grid0.Coords) (M : Memref sig .tc .vmem S1680x12 .f32) (X B : S1680x12.Idx → EReal)
    (h : win0_8.cut i X = win0_8.cut i B) :
    (owns (c : Thread nD τ) M fullShare X : sProp 𝕀)
      ⊢ iprop(∃ d, owns (c : Thread nD τ) M fullShare (win0_8.fill i d (win0_8.cut i B))) := by
  iintro H; iexists X; rw [← h, win0_8.fill_cut]; iexact H

set_option maxHeartbeats 4000000 in
/-- The body at any point. The inputs' buffers hold their blocks and come back as they were. At the first feature
    block the accumulator arrives at anything and leaves with the block's share of the first product on its rows
    inside the array; at a later block it arrives at the sums so far and leaves with the block's share added. Away
    from the last feature block the two output buffers are idle and come back untouched; at the last they come
    back holding, on their rows inside the array, the head of the matching feature rows. The generator register
    passes through unread; the core owes nothing throughout. -/
theorem sound_body (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2, before_3, before_4, before_5, before_6]
  rw [show (dats m 0 c).Φ t.succ = PhiAcc m c (t.val + 1) from rfl,
    show (dats m 0 c).owesAt () t.succ = (dats m 0 c).owesAt () t.castSucc from rfl,
    show (dats m 0 c).Φ t.castSucc = PhiAcc m c t.val from rfl,
    show PhiAcc m c (t.val + 1) = (iprop(iprop(∃ f : S1680x1024.Idx → EReal, owns (c : Thread nD τ) accM fullShare f
        ∗ ⌜∀ (p : Fin 1680) (j : Fin 1024), rowOf t.val p.val < 5000 → f (ix2 p j) = accG m c t.val (ix2 p j)⌝)
        ∗ (∃ r, prngReg c r)) : sProp 𝕀) from rfl,
    leaves_0, leaves_1, leaves_2, leaves_3, leaves_4, leaves_5, leaves_6]
  have hN : t.val < 21 := lt_of_lt_of_eq t.isLt (show cfg0.N = 21 from N_0)
  by_cases h0 : t.val % 7 = 0
  · have h6 : ¬ t.val % 7 = 6 := by omega
    have hc0 : condFirst (grid0.coords t) := (hFirst t).mpr h0
    have hc1 : ¬condLater (grid0.coords t) := fun h => (hLater t).mp h h0
    have hc2 : ¬condLast (grid0.coords t) := fun h => h6 ((hLast t).mp h)
    rw [Dat.leaves_idle (dats m 0 c) 7 t (idle7 t h6) (noFlush7 t h6), Dat.leaves_idle (dats m 0 c) 8 t (idle8 t h6) (noFlush8 t h6)]
    refine (sep_mono (PhiAcc_forget m c t.val) .rfl).trans ?_
    iintro ⟨⟨HA, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((firstAt m c t hc0 hc1 hc2 d0).2 ((dats m 0 c).before 7 t d7) ((dats m 0 c).before 8 t d8) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HA]; · iexact HA
    iintro ⟨H0, H1, H2, H3, H4, H5, H6, H7, H8, ⟨%f, HS⟩⟩
    isplitl [HS HP]
    · isplitl [HS]
      · iexists accM.view.read (Elt Ideal) (accM.view.writes (Elt Ideal) f (firstAt m c t hc0 hc1 hc2 d0).1)
        isplitl [HS]
        · iapply (owns_intro (c : Thread nD τ) accM fullShare _); iexact HS
        · ipureintro; exact fun p j hp => accFirst_ok m c t h0 hc0 hc1 hc2 d0 f p j hp
      · iexact HP
    isplitl [Ho]; · iexact Ho
    isplitl [H0]
    · iexists d0; rw [after_0, Window.cut_fill]; iexact H0
    isplitl [H1]; · rw [after_1]; iexact H1
    isplitl [H2]; · rw [after_2]; iexact H2
    isplitl [H3]; · rw [after_3]; iexact H3
    isplitl [H4]; · rw [after_4]; iexact H4
    isplitl [H5]; · rw [after_5]; iexact H5
    isplitl [H6]; · rw [after_6]; iexact H6
    isplitl [H7]; · iexists d7; iexact H7
    iexists d8; iexact H8
  · have hz : t.val ≠ 0 := fun h => h0 (by omega)
    rw [PhiAcc_pos m c t.val hz]
    by_cases h6 : t.val % 7 = 6
    · have hc0 : ¬condFirst (grid0.coords t) := fun h => h0 ((hFirst t).mp h)
      have hc1 : condLater (grid0.coords t) := (hLater t).mpr h0
      have hc2 : condLast (grid0.coords t) := (hLast t).mpr h6
      rw [leaves_7_last m c t h6, leaves_8_last m c t h6, after_7, after_8]
      iintro ⟨⟨⟨%xs, HA, %hxs⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((lastAt m c t hc0 hc1 hc2 d0 xs).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HA]; · iexact HA
      iintro ⟨H0, H1, H2, H3, H4, H5, H6, ⟨%f7, H7⟩, ⟨%f8, H8⟩, ⟨%f, HS⟩⟩
      isplitl [HS HP]
      · isplitl [HS]
        · iexists accM.view.read (Elt Ideal) (accM.view.writes (Elt Ideal) f (lastAt m c t hc0 hc1 hc2 d0 xs).2.2.1)
          isplitl [HS]
          · iapply (owns_intro (c : Thread nD τ) accM fullShare _); iexact HS
          · ipureintro; exact fun p j hp => accLast_ok m c t h0 hc0 hc1 hc2 d0 xs hxs f p j hp
        · iexact HP
      isplitl [Ho]; · iexact Ho
      isplitl [H0]
      · iexists d0; rw [after_0, Window.cut_fill]; iexact H0
      isplitl [H1]; · rw [after_1]; iexact H1
      isplitl [H2]; · rw [after_2]; iexact H2
      isplitl [H3]; · rw [after_3]; iexact H3
      isplitl [H4]; · rw [after_4]; iexact H4
      isplitl [H5]; · rw [after_5]; iexact H5
      isplitl [H6]; · rw [after_6]; iexact H6
      isplitl [H7]
      · iapply (owns_loose7 c (grid0.coords t) (ms7 t) _ _ (clsLast_cut m c t h6 hc0 hc1 hc2 d0 xs hxs f7))
        iapply (owns_intro (c : Thread nD τ) (ms7 t) fullShare _); iexact H7
      iapply (owns_loose8 c (grid0.coords t) (ms8 t) _ _ (boxLast_cut m c t h6 hc0 hc1 hc2 d0 xs hxs f8))
      iapply (owns_intro (c : Thread nD τ) (ms8 t) fullShare _); iexact H8
    · have hc0 : ¬condFirst (grid0.coords t) := fun h => h0 ((hFirst t).mp h)
      have hc1 : condLater (grid0.coords t) := (hLater t).mpr h0
      have hc2 : ¬condLast (grid0.coords t) := fun h => h6 ((hLast t).mp h)
      rw [Dat.leaves_idle (dats m 0 c) 7 t (idle7 t h6) (noFlush7 t h6), Dat.leaves_idle (dats m 0 c) 8 t (idle8 t h6) (noFlush8 t h6)]
      iintro ⟨⟨⟨%xs, HA, %hxs⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((midAt m c t hc0 hc1 hc2 d0 xs).2 ((dats m 0 c).before 7 t d7) ((dats m 0 c).before 8 t d8) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HA]; · iexact HA
      iintro ⟨H0, H1, H2, H3, H4, H5, H6, H7, H8, ⟨%f, HS⟩⟩
      isplitl [HS HP]
      · isplitl [HS]
        · iexists accM.view.read (Elt Ideal) (accM.view.writes (Elt Ideal) f (midAt m c t hc0 hc1 hc2 d0 xs).1)
          isplitl [HS]
          · iapply (owns_intro (c : Thread nD τ) accM fullShare _); iexact HS
          · ipureintro; exact fun p j hp => accMid_ok m c t h0 hc0 hc1 hc2 d0 xs hxs f p j hp
        · iexact HP
      isplitl [Ho]; · iexact Ho
      isplitl [H0]
      · iexists d0; rw [after_0, Window.cut_fill]; iexact H0
      isplitl [H1]; · rw [after_1]; iexact H1
      isplitl [H2]; · rw [after_2]; iexact H2
      isplitl [H3]; · rw [after_3]; iexact H3
      isplitl [H4]; · rw [after_4]; iexact H4
      isplitl [H5]; · rw [after_5]; iexact H5
      isplitl [H6]; · rw [after_6]; iexact H6
      isplitl [H7]; · iexists d7; iexact H7
      iexists d8; iexact H8

/-- The library's body obligation, at every point. -/
theorem body_obligation : Pipeline.BodyObligationLoose (dats m 0 c) (defs₀ (F := Ideal)) Variants.none () Set.univ := fun t => by
  rw [bigSep_W0, bigSep_W0]
  exact sound_body m c t

/-! ## The run -/

/-- Before the first point the invariant is what the region lends. -/
theorem hin : (Pipeline.ΦA spec0 c : sProp 𝕀) ⊢ (dats m 0 c).Φ 0 := Entails.of_eq rfl

/-- After the last point it gives that back, the accumulator's contents forgotten. -/
theorem hout : (dats m 0 c).Φ (Fin.last cfg0.N) ⊢ (Pipeline.ΦA spec0 c : sProp 𝕀) := by
  rw [PhiA_eq, show (dats m 0 c).Φ (Fin.last cfg0.N) = PhiAcc m c (Fin.last cfg0.N).val from rfl]
  exact PhiAcc_forget m c _

set_option backward.isDefEq.respectTransparency.types false in
/-- At the compiled mesh, over the extended reals, from any memory with zero counters: every weakly fair execution of
    the program on the TensorCores terminates, and every final state has every array of the pipeline at what the
    library computes from the proof data and every other unscoped buffer at the contents the region found. -/
theorem run_main (ρ : Dev nD → PrngReg) : θ_run defs (onTc (τ := τ) (main (F := Ideal))) (s₀ m ρ)
    (Pipeline.FramePost cfgs (dats m) 0 (V m)) :=
  Pipeline.θ_run_frame_track cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := fun c w => A_eq m c w)
    (hin := fun c => hin m c) (hout := fun c => hout m c)

end Cert.KernelIdeal.Body

end
-- ==== Proof.lean ====
/-
  A box head: two hidden layers `h1 = max(x·W1ᵀ + b1, 0)`, `h2 = max(h1·W2ᵀ + b2, 0)` and two affine output maps
  (four class scores, twelve box deltas) of 5000 feature rows of 12544 features. The kernel walks a grid of three
  row blocks of 1680 rows (the last overhanging the array by 40) by seven feature blocks of 1792 features: it
  accumulates `x·W1ᵀ` block by block in a scratch buffer and, at the last feature block, applies the rest of the head
  to a third of the rows at a time, the two output maps fused into one sixteen-column map whose first four and last
  twelve columns it stores separately. Over the extended reals, where every operation is exact and a change of float
  format is the identity, this is the reference's function: a sum over the 12544 features is the sum over the seven
  blocks of the sums within a block (addition of extended reals is associative and commutative, no finiteness is
  used), a product with a transposed matrix is the contraction over the other axis, columns of the fused map are the
  two maps' columns, and every row of every stage depends on its own feature row only — so the words past the
  array's end in the last row block never reach a row that is written back.
  The three frames, the (empty) ledger and the equality of results are assembled in Proof/Claims.lean from the word-level
  program's frame (Proof/KFrame.lean), the idealized kernel's run with its values tracked (Proof/KIBody.lean over
  Proof/KIData.lean, KIValue.lean, KIFinal.lean) and the reference's run read at the specification (Proof/RefValue.lean,
  Proof/Spec.lean).
-/
import proofs.«125935_g42133629174425_cont_8to1_b_514_18_alg».proof.Proof.Claims
import proofs.«125935_g42133629174425_cont_8to1_b_514_18_alg».proof.Proof.KIBody

noncomputable section

namespace Cert.Proof

theorem claim : Cert.Claim := Cert.Proof.Claims.claim_of (fun m ρ => Cert.KernelIdeal.Body.run_main m ρ)

end Cert.Proof

end
